-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S16000x16000 : Shape := ⟨2, ![16000, 16000]⟩
abbrev S8000x64 : Shape := ⟨2, ![8000, 64]⟩
abbrev S64x64 : Shape := ⟨2, ![64, 64]⟩
abbrev S64 : Shape := ⟨1, ![64]⟩
abbrev S_ : Shape := ⟨0, ![]⟩

class Facts : Prop where
  bcast_S_S16000x16000 : S_.BroadcastsInDim S16000x16000 (![] : Fin 0 → Fin S16000x16000.rank)
  reducesTo_S16000x16000_S_d0_1 : S16000x16000.ReducesTo [0, 1] S_
  h_S_ : 0 < S_.numel
  bcast_S_S8000x64 : S_.BroadcastsInDim S8000x64 (![] : Fin 0 → Fin S8000x64.rank)
  reducesTo_S8000x64_S_d0_1 : S8000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S4096 32) (main_arg1 : IVec S4096 32) (main_arg2 : FVec F S16000x16000 .f32) (main_arg3 : FVec F S8000x64 .f32) (main_arg4 : FVec F S8000x64 .f32) (main_arg5 : FVec F S64x64 .f32) (main_arg6 : FVec F S64 .f32) : IVec S_ 1 :=
  let main_v0 : FVec F S16000x16000 .f32 := Host.absf main_arg2
  let main_cst : FVec F S_ .f32 := constant S_ .f32 0x7F800000#32
  let main_v1 : FVec F S16000x16000 .f32 := broadcastInDim S16000x16000 ![] bcast_S_S16000x16000 main_cst
  let main_v2 : IVec S16000x16000 1 := cmpf .olt main_v0 main_v1
  let main_c : IVec S_ 1 := constantI S_ 1 1#1
  let main_v3 : IVec S_ 1 := (fun x v => Host.reduce IntOp.andi x v reducesTo_S16000x16000_S_d0_1 h_S_) main_v2 main_c
  let main_v4 : FVec F S8000x64 .f32 := Host.absf main_arg3
  let main_cst_0 : FVec F S_ .f32 := constant S_ .f32 0x7F800000#32
  let main_v5 : FVec F S8000x64 .f32 := broadcastInDim S8000x64 ![] bcast_S_S8000x64 main_cst_0
  let main_v6 : IVec S8000x64 1 := cmpf .olt main_v4 main_v5
  let main_c_1 : IVec S_ 1 := constantI S_ 1 1#1
  let main_v7 : IVec S_ 1 := (fun x v => Host.reduce IntOp.andi x v reducesTo_S8000x64_S_d0_1 h_S_) main_v6 main_c_1
  let main_v8 : IVec S_ 1 := andi main_v3 main_v7
  let main_v9 : FVec F S8000x64 .f32 := Host.absf main_arg4
  let main_cst_2 : FVec F S_ .f32 := constant S_ .f32 0x7F800000#32
  let main_v10 : FVec F S8000x64 .f32 := broadcastInDim S8000x64 ![] bcast_S_S8000x64 main_cst_2
  let main_v11 : IVec S8000x64 1 := cmpf .olt main_v9 main_v10
  let main_c_3 : IVec S_ 1 := constantI S_ 1 1#1
  let main_v12 : IVec S_ 1 := (fun x v => Host.reduce IntOp.andi x v reducesTo_S8000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S4096 : Shape := ⟨1, ![4096]⟩
abbrev S16000x16000 : Shape := ⟨2, ![16000, 16000]⟩
abbrev S8000x64 : Shape := ⟨2, ![8000, 64]⟩
abbrev S64x64 : Shape := ⟨2, ![64, 64]⟩
abbrev S64 : Shape := ⟨1, ![64]⟩
abbrev S16000x64 : Shape := ⟨2, ![16000, 64]⟩
abbrev S1x64 : Shape := ⟨2, ![1, 64]⟩
abbrev S1600x3200 : Shape := ⟨2, ![1600, 3200]⟩
abbrev S1600x64 : Shape := ⟨2, ![1600, 64]⟩
abbrev S3200x64 : Shape := ⟨2, ![3200, 64]⟩
abbrev S_ : Shape := ⟨0, ![]⟩
abbrev S4096x1 : Shape := ⟨2, ![4096, 1]⟩
abbrev S4096x64 : Shape := ⟨2, ![4096, 64]⟩

abbrev nBuf : Space → Nat
  | .hbm => 44
  | .vmem => 21
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S16000x16000, .f32⟩
  | .hbm, ⟨3, _⟩ => ⟨S8000x64, .f32⟩
  | .hbm, ⟨4, _⟩ => ⟨S8000x64, .f32⟩
  | .hbm, ⟨5, _⟩ => ⟨S64x64, .f32⟩
  | .hbm, ⟨6, _⟩ => ⟨S64, .f32⟩
  | .hbm, ⟨7, _⟩ => ⟨S16000x64, .f32⟩
  | .hbm, ⟨8, _⟩ => ⟨S1x64, .f32⟩
  | .hbm, ⟨9, _⟩ => ⟨S16000x64, .f32⟩
  | .hbm, ⟨10, _⟩ => ⟨S16000x64, .f32⟩
  | .hbm, ⟨11, _⟩ => ⟨S16000x64, .f32⟩
  | .hbm, ⟨12, _⟩ => ⟨S16000x64, .f32⟩
  | .hbm, ⟨13, _⟩ => ⟨S16000x64, .f32⟩
  | .hbm, ⟨14, _⟩ => ⟨S16000x64, .f32⟩
  | .hbm, ⟨15, _⟩ => ⟨S16000x64, .f32⟩
  | .hbm, ⟨16, _⟩ => ⟨S16000x64, .f32⟩
  | .hbm, ⟨17, _⟩ => ⟨S16000x64, .f32⟩
  | .hbm, ⟨18, _⟩ => ⟨S_, .f32⟩
  | .hbm, ⟨19, _⟩ => ⟨S16000x64, .f32⟩
  | .hbm, ⟨20, _⟩ => ⟨S16000x64, .f32⟩
  | .hbm, ⟨21, _⟩ => ⟨S8000x64, .f32⟩
  | .hbm, ⟨22, _⟩ => ⟨S8000x64, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x64, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x64, .f32⟩
  | .hbm, ⟨41, _⟩ => ⟨S4096x64, .f32⟩
  | .hbm, ⟨42, _⟩ => ⟨S_, .f32⟩
  | .hbm, ⟨43, _⟩ => ⟨S4096, .f32⟩
  | .local _ .vmem, ⟨0, _⟩ => ⟨S1600x3200, .f32⟩
  | .local _ .vmem, ⟨1, _⟩ => ⟨S1600x3200, .f32⟩
  | .local _ .vmem, ⟨2, _⟩ => ⟨S16000x64, .f32⟩
  | .local _ .vmem, ⟨3, _⟩ => ⟨S1x64, .f32⟩
  | .local _ .vmem, ⟨4, _⟩ => ⟨S1600x64, .f32⟩
  | .local _ .vmem, ⟨5, _⟩ => ⟨S1600x64, .f32⟩
  | .local _ .vmem, ⟨6, _⟩ => ⟨S1600x64, .f32⟩
  | .local _ .vmem, ⟨7, _⟩ => ⟨S1600x3200, .f32⟩
  | .local _ .vmem, ⟨8, _⟩ => ⟨S1600x3200, .f32⟩
  | .local _ .vmem, ⟨9, _⟩ => ⟨S16000x64, .f32⟩
  | .local _ .vmem, ⟨10, _⟩ => ⟨S1x64, .f32⟩
  | .local _ .vmem, ⟨11, _⟩ => ⟨S1600x64, .f32⟩
  | .local _ .vmem, ⟨12, _⟩ => ⟨S1600x64, .f32⟩
  | .local _ .vmem, ⟨13, _⟩ => ⟨S1600x64, .f32⟩
  | .local _ .vmem, ⟨14, _⟩ => ⟨S1600x3200, .f32⟩
  | .local _ .vmem, ⟨15, _⟩ => ⟨S1600x3200, .f32⟩
  | .local _ .vmem, ⟨16, _⟩ => ⟨S16000x64, .f32⟩
  | .local _ .vmem, ⟨17, _⟩ => ⟨S1x64, .f32⟩
  | .local _ .vmem, ⟨18, _⟩ => ⟨S1600x64, .f32⟩
  | .local _ .vmem, ⟨19, _⟩ => ⟨S1600x64, .f32⟩
  | .local _ .vmem, ⟨20, _⟩ => ⟨S1600x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨2, ![10, 5], ![false, false]⟩

def k0_mult1 (i : grid0.Coords) : BitVec 32 :=
  let arg1 : BitVec 32 := BitVec.ofNat 32 (i 1).val
  let c3200_i32 : BitVec 32 := 3200#32
  let v4 : BitVec 32 := Scalar.muli arg1 c3200_i32
  v4
def k0_off1 (i : grid0.Coords) : Fin 2 → Nat :=
  let arg1 : BitVec 32 := BitVec.ofNat 32 (i 1).val
  let c3200_i32 : BitVec 32 := 3200#32
  let v4 : BitVec 32 := Scalar.muli arg1 c3200_i32
  let v5 : BitVec 32 := v4
  let v6 : Index := Scalar.indexCast v5
  let c0_2 : Index := 0#32
  ![v6.toNat, 0]
def k0_cond2 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1600x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1600x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![10, 5], ![false, false]⟩

def k1_mult1 (i : grid1.Coords) : BitVec 32 :=
  let arg1 : BitVec 32 := BitVec.ofNat 32 (i 1).val
  let c3200_i32 : BitVec 32 := 3200#32
  let v4 : BitVec 32 := Scalar.muli arg1 c3200_i32
  v4
def k1_off1 (i : grid1.Coords) : Fin 2 → Nat :=
  let arg1 : BitVec 32 := BitVec.ofNat 32 (i 1).val
  let c3200_i32 : BitVec 32 := 3200#32
  let v4 : BitVec 32 := Scalar.muli arg1 c3200_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1600x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1600x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![10, 5], ![false, false]⟩

def k2_mult1 (i : grid2.Coords) : BitVec 32 :=
  let arg1 : BitVec 32 := BitVec.ofNat 32 (i 1).val
  let c3200_i32 : BitVec 32 := 3200#32
  let v4 : BitVec 32 := Scalar.muli arg1 c3200_i32
  v4
def k2_off1 (i : grid2.Coords) : Fin 2 → Nat :=
  let arg1 : BitVec 32 := BitVec.ofNat 32 (i 1).val
  let c3200_i32 : BitVec 32 := 3200#32
  let v4 : BitVec 32 := Scalar.muli arg1 c3200_i32
  let v5 : BitVec 32 := v4
  let v6 : Index := Scalar.indexCast v5
  let c0_2 : Index := 0#32
  ![v6.toNat, 0]
def k2_cond2 (i : grid2.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_7 : BitVec 32 := 0#32
  let v17 : BitVec 1 := Scalar.cmpi .ne v16 c0_i32_7
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1600x3200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1600x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  concatenates_S8000x64_S8000x64_S16000x64_d0 : Shape.Concatenates [S8000x64, S8000x64] S16000x64 0
  shapeCasts_S64_S1x64 : S64.ShapeCasts S1x64
  inb_S1600x64_S1600x64_0_0 : ∀ a, (![0, 0] : Fin 2 → Nat) a + S1600x64.size a ≤ S1600x64.size a
  h_S1600x64 : 0 < S1600x64.numel
  shapeCasts_S1600x64_S1600x64 : S1600x64.ShapeCasts S1600x64
  inb_S1600x3200_S1600x3200_0_0 : ∀ a, (![0, 0] : Fin 2 → Nat) a + S1600x3200.size a ≤ S1600x3200.size a
  h_S1600x3200 : 0 < S1600x3200.numel
  h_S3200x64 : 0 < S3200x64.numel
  shapeCasts_S3200x64_S3200x64 : S3200x64.ShapeCasts S3200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1600x64 : S1x64.Broadcasts S1600x64
  bcast_S_S16000x64 : S_.BroadcastsInDim S16000x64 (![] : Fin 0 → Fin S16000x64.rank)
  slices_S16000x64_S8000x64_0_0 : S16000x64.Slices ![0, 0] S8000x64
  slices_S16000x64_S8000x64_8000_0 : S16000x64.Slices ![8000, 0] S8000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  dot_S16000x64_S64x64_S16000x64_1_0_0_1_n_n_wf : DotDims.WF S16000x64 S64x64 S16000x64 [1] [0] [0] [1] [] []
  dot_S1600x3200_S3200x64_S1600x64_1_0_0_1_n_n_wf : DotDims.WF S1600x3200 S3200x64 S1600x64 [1] [0] [0] [1] [] []
  gather_S8000x64_S4096x1_S4096x64_1_0_n_n_0_1_164_wf : GatherDims.WF S8000x64 S4096x1 S4096x64 [1] [0] [] [0] [] 1 ![1, 64]
  hrank0 : 0 < grid0.rank
  k0_mult1_dvd : ∀ i : grid0.Coords, 3200 ∣ (k0_mult1 i).toNat
  k0_off1_inb : ∀ i : grid0.Coords, ∀ a, (k0_off1 i) a + S3200x64.size a ≤ S16000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x3200.size a ≤ S16000x16000.size a
  hwx0_0 : ∀ i : grid0.Coords, EltTy.bits .f32 = 32 ∨ (Rect.block (s := S16000x16000) S1600x3200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S16000x64.size a
  hwx0_1 : ∀ i : grid0.Coords, EltTy.bits .f32 = 32 ∨ (Rect.block (s := S16000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1600x64.size a ≤ S16000x64.size a
  hwx0_3 : ∀ i : grid0.Coords, EltTy.bits .f32 = 32 ∨ (Rect.block (s := S16000x64) S1600x64.size (cc0_transform_3 i) (hinb0_3 i)).WholeWords (EltTy.packing .f32)
  hrank1 : 0 < grid1.rank
  k1_mult1_dvd : ∀ i : grid1.Coords, 3200 ∣ (k1_mult1 i).toNat
  k1_off1_inb : ∀ i : grid1.Coords, ∀ a, (k1_off1 i) a + S3200x64.size a ≤ S16000x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x3200.size a ≤ S16000x16000.size a
  hwx1_0 : ∀ i : grid1.Coords, EltTy.bits .f32 = 32 ∨ (Rect.block (s := S16000x16000) S1600x3200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16000x64.size a ≤ S16000x64.size a
  hwx1_1 : ∀ i : grid1.Coords, EltTy.bits .f32 = 32 ∨ (Rect.block (s := S16000x64) S16000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1600x64.size a ≤ S16000x64.size a
  hwx1_3 : ∀ i : grid1.Coords, EltTy.bits .f32 = 32 ∨ (Rect.block (s := S16000x64) S1600x64.size (cc1_transform_3 i) (hinb1_3 i)).WholeWords (EltTy.packing .f32)
  hrank2 : 0 < grid2.rank
  k2_mult1_dvd : ∀ i : grid2.Coords, 3200 ∣ (k2_mult1 i).toNat
  k2_off1_inb : ∀ i : grid2.Coords, ∀ a, (k2_off1 i) a + S3200x64.size a ≤ S16000x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1600x3200.size a ≤ S16000x16000.size a
  hwx2_0 : ∀ i : grid2.Coords, EltTy.bits .f32 = 32 ∨ (Rect.block (s := S16000x16000) S1600x3200.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16000x64.size a ≤ S16000x64.size a
  hwx2_1 : ∀ i : grid2.Coords, EltTy.bits .f32 = 32 ∨ (Rect.block (s := S16000x64) S16000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1600x64.size a ≤ S16000x64.size a
  hwx2_3 : ∀ i : grid2.Coords, EltTy.bits .f32 = 32 ∨ (Rect.block (s := S16000x64) S1600x64.size (cc2_transform_3 i) (hinb2_3 i)).WholeWords (EltTy.packing .f32)

variable [Facts₀]

def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S1600x3200_S3200x64_S1600x64_1_0_0_1_n_n : DotDims S1600x3200 S3200x64 S1600x64 where
  lhsContracting := [1]
  rhsContracting := [0]
  lhsNonContracting := [0]
  rhsNonContracting := [1]
  lhsBatch := []
  rhsBatch := []
  wf := dot_S1600x3200_S3200x64_S1600x64_1_0_0_1_n_n_wf
def gather_S8000x64_S4096x1_S4096x64_1_0_n_n_0_1_164 : GatherDims S8000x64 S4096x1 S4096x64 where
  offsetDims := [1]
  collapsedSliceDims := [0]
  operandBatchingDims := []
  startIndicesBatchingDims := []
  startIndexMap := [0]
  indexVectorDim := 1
  sliceSizes := ![1, 64]
  wf := gather_S8000x64_S4096x1_S4096x64_1_0_n_n_0_1_164_wf

abbrev win0_0 : Pipeline.Window sig grid0 :=
  Pipeline.Window.ofSpec (Memref.whole main_arg2) S1600x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1600x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1600x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S16000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1600x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S1600x3200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S16000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1600x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096 : Shape := ⟨1, ![4096]⟩
abbrev S16000x16000 : Shape := ⟨2, ![16000, 16000]⟩
abbrev S8000x64 : Shape := ⟨2, ![8000, 64]⟩
abbrev S64x64 : Shape := ⟨2, ![64, 64]⟩
abbrev S64 : Shape := ⟨1, ![64]⟩
abbrev S16000x64 : Shape := ⟨2, ![16000, 64]⟩
abbrev S1x64 : Shape := ⟨2, ![1, 64]⟩
abbrev S_ : Shape := ⟨0, ![]⟩
abbrev S4096x1 : Shape := ⟨2, ![4096, 1]⟩
abbrev S4096x64 : Shape := ⟨2, ![4096, 64]⟩

abbrev nBuf : Space → Nat
  | .hbm => 61
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S16000x16000, .f32⟩
  | .hbm, ⟨3, _⟩ => ⟨S8000x64, .f32⟩
  | .hbm, ⟨4, _⟩ => ⟨S8000x64, .f32⟩
  | .hbm, ⟨5, _⟩ => ⟨S64x64, .f32⟩
  | .hbm, ⟨6, _⟩ => ⟨S64, .f32⟩
  | .hbm, ⟨7, _⟩ => ⟨S16000x64, .f32⟩
  | .hbm, ⟨8, _⟩ => ⟨S16000x64, .f32⟩
  | .hbm, ⟨9, _⟩ => ⟨S16000x64, .f32⟩
  | .hbm, ⟨10, _⟩ => ⟨S1x64, .f32⟩
  | .hbm, ⟨11, _⟩ => ⟨S16000x64, .f32⟩
  | .hbm, ⟨12, _⟩ => ⟨S16000x64, .f32⟩
  | .hbm, ⟨13, _⟩ => ⟨S_, .f32⟩
  | .hbm, ⟨14, _⟩ => ⟨S16000x64, .f32⟩
  | .hbm, ⟨15, _⟩ => ⟨S16000x64, .f32⟩
  | .hbm, ⟨16, _⟩ => ⟨S16000x64, .f32⟩
  | .hbm, ⟨17, _⟩ => ⟨S16000x64, .f32⟩
  | .hbm, ⟨18, _⟩ => ⟨S16000x64, .f32⟩
  | .hbm, ⟨19, _⟩ => ⟨S1x64, .f32⟩
  | .hbm, ⟨20, _⟩ => ⟨S16000x64, .f32⟩
  | .hbm, ⟨21, _⟩ => ⟨S16000x64, .f32⟩
  | .hbm, ⟨22, _⟩ => ⟨S_, .f32⟩
  | .hbm, ⟨23, _⟩ => ⟨S16000x64, .f32⟩
  | .hbm, ⟨24, _⟩ => ⟨S16000x64, .f32⟩
  | .hbm, ⟨25, _⟩ => ⟨S16000x64, .f32⟩
  | .hbm, ⟨26, _⟩ => ⟨S16000x64, .f32⟩
  | .hbm, ⟨27, _⟩ => ⟨S16000x64, .f32⟩
  | .hbm, ⟨28, _⟩ => ⟨S1x64, .f32⟩
  | .hbm, ⟨29, _⟩ => ⟨S16000x64, .f32⟩
  | .hbm, ⟨30, _⟩ => ⟨S16000x64, .f32⟩
  | .hbm, ⟨31, _⟩ => ⟨S_, .f32⟩
  | .hbm, ⟨32, _⟩ => ⟨S16000x64, .f32⟩
  | .hbm, ⟨33, _⟩ => ⟨S16000x64, .f32⟩
  | .hbm, ⟨34, _⟩ => ⟨S16000x64, .f32⟩
  | .hbm, ⟨35, _⟩ => ⟨S_, .f32⟩
  | .hbm, ⟨36, _⟩ => ⟨S16000x64, .f32⟩
  | .hbm, ⟨37, _⟩ => ⟨S16000x64, .f32⟩
  | .hbm, ⟨38, _⟩ => ⟨S8000x64, .f32⟩
  | .hbm, ⟨39, _⟩ => ⟨S8000x64, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x64, .f32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096x1, .i32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call2_cst : Ref sig .tc := ⟨.hbm, 31, rfl⟩
abbrev main_call2_v0 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_1 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  concatenates_S8000x64_S8000x64_S16000x64_d0 : Shape.Concatenates [S8000x64, S8000x64] S16000x64 0
  bcast_S64_S1x64_1 : S64.BroadcastsInDim S1x64 (![1] : Fin 1 → Fin S1x64.rank)
  bcast_S1x64_S16000x64_0_1 : S1x64.BroadcastsInDim S16000x64 (![0, 1] : Fin 2 → Fin S16000x64.rank)
  bcast_S_S16000x64 : S_.BroadcastsInDim S16000x64 (![] : Fin 0 → Fin S16000x64.rank)
  slices_S16000x64_S8000x64_0_0 : S16000x64.Slices ![0, 0] S8000x64
  slices_S16000x64_S8000x64_8000_0 : S16000x64.Slices ![8000, 0] S8000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  dot_S16000x64_S64x64_S16000x64_1_0_0_1_n_n_wf : DotDims.WF S16000x64 S64x64 S16000x64 [1] [0] [0] [1] [] []
  dot_S16000x16000_S16000x64_S16000x64_1_0_0_1_n_n_wf : DotDims.WF S16000x16000 S16000x64 S16000x64 [1] [0] [0] [1] [] []
  gather_S8000x64_S4096x1_S4096x64_1_0_n_n_0_1_164_wf : GatherDims.WF S8000x64 S4096x1 S4096x64 [1] [0] [] [0] [] 1 ![1, 64]

variable [Facts₀]

def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x16000_S16000x64_S16000x64_1_0_0_1_n_n : DotDims S16000x16000 S16000x64 S16000x64 where
  lhsContracting := [1]
  rhsContracting := [0]
  lhsNonContracting := [0]
  rhsNonContracting := [1]
  lhsBatch := []
  rhsBatch := []
  wf := dot_S16000x16000_S16000x64_S16000x64_1_0_0_1_n_n_wf
def gather_S8000x64_S4096x1_S4096x64_1_0_n_n_0_1_164 : GatherDims S8000x64 S4096x1 S4096x64 where
  offsetDims := [1]
  collapsedSliceDims := [0]
  operandBatchingDims := []
  startIndicesBatchingDims := []
  startIndexMap := [0]
  indexVectorDim := 1
  sliceSizes := ![1, 64]
  wf := gather_S8000x64_S4096x1_S4096x64_1_0_n_n_0_1_164_wf

class Facts : Prop extends Facts₀ where

variable [Facts]
-- ==== Proof.FrBA0.lean ====
/-
  Region 0 of @main (one propagation layer): what the three cases of the kernel body are stated over.
  The grid is 10 × 5, point t = (t / 5, t % 5): row block t / 5 of the output, column block t % 5 of the square matrix.
  The body resets its accumulator when t % 5 = 0, adds the product of the point's matrix block with rows
  3200·(t % 5) … of the tall operand at every point, and when t % 5 = 4 stores relu (accumulator + bias row) into the
  output block.  So the grid meets three cases: A (t % 5 = 0), B (t % 5 = 1, 2, 3), C (t % 5 = 4).
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two branch conditions, decided over the grid -/

/-- The accumulator is reset: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The output block is stored: the column-block coordinate is 4, the last. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the body does not store the output block the window is idle, and its block is not written back there. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

/-- A staging buffer of the output window, through which its contents are stated. -/
abbrev VO0_3 : View sig .tc .vmem S1600x64 .f32 := (Memref.whole cc0_stg3_0 : Memref sig .tc .vmem S1600x64 .f32).view
abbrev ms0_0 (t : Fin cfg0.N) : Memref sig .tc .vmem S1600x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1600x64 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S1600x64 .f32 := Memref.whole cc0_scratch0
abbrev VS0_0 : View sig .tc .vmem S1600x64 .f32 := scM0_0.view

/-- The scoped buffers that are neither a staging buffer of this region nor its accumulator (the other regions' buffers),
    at some contents each: carried through the region unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the accumulator split out as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA
  rw [Pipeline.scopedRest_split_of_list spec0 c [cc0_scratch0] (by decide) (by decide)]
  simp only [scM0_0, owns_whole, bigSepL_singleton]; try rfl

end Cert.Kernel.Fr

end
-- ==== Proof.FrBR0.lean ====
/-
  Region 0: the kernel body run whole in each of its three cases. On whole memrefs — the three inputs at their
  contents, the output block's buffer and the accumulator as the case finds them — the body runs to the end leaving
  the inputs as they were; what it stores is found by the run: the list of stored pieces (last first) of the
  accumulator, and of the output block where the case stores it.
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import proofs.«154284_j13134009991420_2_alg».proof.Proof.FrBA0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- CASE A (first column block: the accumulator is reset, then the point's product is added; the output block is not
    stored and is handed back as found; the accumulator may hold anything before). -/
noncomputable def kernelRun0_A (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE B (a middle column block: the point's product is added to the accumulator, which holds xs0 before; the output
    block is not stored and is handed back as found). -/
noncomputable def kernelRun0_B (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE C (the last column block: the point's product is added to the accumulator, which holds xs0 before, and
    relu (accumulator + bias row) is stored into the output block, whose buffer may hold anything before). -/
noncomputable def kernelRun0_C (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.FrB0.lean ====
/-
  Region 0: what the output block's buffer and the accumulator hold after each grid point (by recursion on the point:
  a point of case B or C starts from what the point before left in the accumulator), the region's proof data with the
  accumulator's contents carried in the invariant, and the body obligation at every point.
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import proofs.«154284_j13134009991420_2_alg».proof.Proof.FrBR0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output block's buffer: its stored pieces read back (none: the window is idle there, and nothing consults this). -/
def out0_A_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) : Vec F S1600x64 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) (y : S1600x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1600x64.size (by sl_kernel_rfl) y

/-- What case A leaves in the accumulator: its stored pieces read back. -/
def sout0_A_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) : Vec F S1600x64 .f32 :=
  VS0_0.read (Elt F) (VS0_0.writes (Elt F) VS0_0.junk (kernelRun0_A c i arg2 harg2 arg3 harg3 arg4 harg4 arg5 harg5 arg6 harg6 hc0 hc1 x0 x1 x2).2.1)

/-- What case B leaves in the output block's buffer: its stored pieces read back (none: the window is idle there, and nothing consults this). -/
def out0_B_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) : Vec F S1600x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's stores into the accumulator cover it. -/
theorem scover0_B_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) (y : S1600x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1600x64.size (by sl_kernel_rfl) y

/-- What case B leaves in the accumulator: its stored pieces read back. -/
def sout0_B_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) : Vec F S1600x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What case C leaves in the output block's buffer: its stored pieces read back. -/
def out0_C_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) : Vec F S1600x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's one store into the output block covers it. -/
theorem cover0_C_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) (y : S1600x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1600x64.size (by sl_kernel_rfl) y

/-- Case C's stores into the accumulator cover it. -/
theorem scover0_C_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) (y : S1600x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1600x64.size (by sl_kernel_rfl) y

/-- What case C leaves in the accumulator: its stored pieces read back. -/
def sout0_C_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) : Vec F S1600x64 .f32 :=
  VS0_0.read (Elt F) (VS0_0.writes (Elt F) VS0_0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The three cases at a grid point, on the point's memrefs and input blocks -/

/-- (output block's buffer, accumulator) after a point of case A. -/
def outsA0 (c : Dev nD) (t : Fin cfg0.N) (h0 : t.val % 5 = 0) (h1 : ¬t.val % 5 = 4) : Vec F S1600x64 .f32 × Vec F S1600x64 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- … of case B, the accumulator holding xs before. -/
def outsB0 (c : Dev nD) (t : Fin cfg0.N) (h0 : ¬t.val % 5 = 0) (h1 : ¬t.val % 5 = 4) (xs : Vec F S1600x64 .f32) : Vec F S1600x64 .f32 × Vec F S1600x64 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs)
/-- … of case C, the accumulator holding xs before. -/
def outsC0 (c : Dev nD) (t : Fin cfg0.N) (h0 : ¬t.val % 5 = 0) (h1 : t.val % 5 = 4) (xs : Vec F S1600x64 .f32) : Vec F S1600x64 .f32 × Vec F S1600x64 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs)

/-- THE ACCUMULATION: (output block's buffer, accumulator) after the body at position n — the case of n mod 5, a case
    that reads the accumulator starting from what position n − 1 left in it. -/
def outsAt0 (c : Dev nD) : (n : ℕ) → n < cfg0.N → Vec F S1600x64 .f32 × Vec F S1600x64 .f32
  | 0, hn => outsA0 V c ⟨0, hn⟩ (Nat.zero_mod _) (by show ¬(0 % 5 = 4); decide)
  | n + 1, hn =>
    if h0 : (n + 1) % 5 = 0 then outsA0 V c ⟨n + 1, hn⟩ h0 (by show ¬((n + 1) % 5 = 4); omega)
    else if h1 : (n + 1) % 5 = 4 then outsC0 V c ⟨n + 1, hn⟩ h0 h1 (outsAt0 c n (Nat.lt_of_succ_lt hn)).2
    else outsB0 V c ⟨n + 1, hn⟩ h0 h1 (outsAt0 c n (Nat.lt_of_succ_lt hn)).2

theorem outsAt0_A (c : Dev nD) (t : Fin cfg0.N) (h0 : t.val % 5 = 0) (h1 : ¬t.val % 5 = 4) :
    outsAt0 V c t.val t.isLt = outsA0 V c t h0 h1 := by
  obtain ⟨n, hn⟩ := t
  cases n with
  | zero => rfl
  | succ n => exact (dif_pos h0).trans rfl

theorem outsAt0_B (c : Dev nD) (t : Fin cfg0.N) (h0 : ¬t.val % 5 = 0) (h1 : ¬t.val % 5 = 4) :
    outsAt0 V c t.val t.isLt = outsB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 5 = 0) (h1 : t.val % 5 = 4) :
    outsAt0 V c t.val t.isLt = outsC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator at what the point before left -/

/-- Before the first point the class invariant (the accumulator at anything); afterwards the accumulator at what the
    point before left in it, the other regions' scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The region's proof data on core c: the arrays as the region finds them; after the body each input's buffer at its
    block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem owed0 (c : Dev nD) (t) : (dat0 V c).owed t = 0 := rfl
theorem share0 (c : Dev nD) (w) : (dat0 V c).q w = fullShare := rfl
theorem recorded0 (c : Dev nD) (t) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's position mod 5 says which case it is in;
    the invariant hands the body the accumulator at what the point before left (at anything at the first point) and
    takes it back at this point's contents; an idle output block's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 50 := lt_of_lt_of_eq t.isLt (show cfg0.N = 50 from N_0)
  by_cases h0 : t.val % 5 = 0
  · have h1 : ¬t.val % 5 = 4 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold outsA0 sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold outsC0 out0_C_3 sout0_C_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold outsB0 sout0_B_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ (Pipeline.ΦA spec0 c : sProp 𝕄) := by
  have hne : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hr⟩, Hg⟩
  isplitl [HS0 Hr]
  · isplitl [HS0]
    · iexists _; iexact HS0
    iexact Hr
  iexact Hg

end

end Cert.Kernel.Fr

end
-- ==== Proof.FrBA1.lean ====
/-
  Region 1 of @main (one propagation layer): what the three cases of the kernel body are stated over.
  The grid is 10 × 5, point t = (t / 5, t % 5): row block t / 5 of the output, column block t % 5 of the square matrix.
  The body resets its accumulator when t % 5 = 0, adds the product of the point's matrix block with rows
  3200·(t % 5) … of the tall operand at every point, and when t % 5 = 4 stores relu (accumulator + bias row) into the
  output block.  So the grid meets three cases: A (t % 5 = 0), B (t % 5 = 1, 2, 3), C (t % 5 = 4).
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions, decided over the grid -/

/-- The accumulator is reset: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
/-- The output block is stored: the column-block coordinate is 4, the last. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the body does not store the output block the window is idle, and its block is not written back there. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- A staging buffer of the output window, through which its contents are stated. -/
abbrev VO1_3 : View sig .tc .vmem S1600x64 .f32 := (Memref.whole cc1_stg3_0 : Memref sig .tc .vmem S1600x64 .f32).view
abbrev ms1_0 (t : Fin cfg1.N) : Memref sig .tc .vmem S1600x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1600x64 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1600x64 .f32 := Memref.whole cc1_scratch0
abbrev VS1_0 : View sig .tc .vmem S1600x64 .f32 := scM1_0.view

/-- The scoped buffers that are neither a staging buffer of this region nor its accumulator (the other regions' buffers),
    at some contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator split out as a memref owned at some contents. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA
  rw [Pipeline.scopedRest_split_of_list spec1 c [cc1_scratch0] (by decide) (by decide)]
  simp only [scM1_0, owns_whole, bigSepL_singleton]; try rfl

end Cert.Kernel.Fr

end
-- ==== Proof.FrBR1.lean ====
/-
  Region 1: the kernel body run whole in each of its three cases. On whole memrefs — the three inputs at their
  contents, the output block's buffer and the accumulator as the case finds them — the body runs to the end leaving
  the inputs as they were; what it stores is found by the run: the list of stored pieces (last first) of the
  accumulator, and of the output block where the case stores it.
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import proofs.«154284_j13134009991420_2_alg».proof.Proof.FrBA1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- CASE A (first column block: the accumulator is reset, then the point's product is added; the output block is not
    stored and is handed back as found; the accumulator may hold anything before). -/
noncomputable def kernelRun1_A (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE B (a middle column block: the point's product is added to the accumulator, which holds xs0 before; the output
    block is not stored and is handed back as found). -/
noncomputable def kernelRun1_B (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE C (the last column block: the point's product is added to the accumulator, which holds xs0 before, and
    relu (accumulator + bias row) is stored into the output block, whose buffer may hold anything before). -/
noncomputable def kernelRun1_C (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.FrB1.lean ====
/-
  Region 1: what the output block's buffer and the accumulator hold after each grid point (by recursion on the point:
  a point of case B or C starts from what the point before left in the accumulator), the region's proof data with the
  accumulator's contents carried in the invariant, and the body obligation at every point.
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import proofs.«154284_j13134009991420_2_alg».proof.Proof.FrBR1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output block's buffer: its stored pieces read back (none: the window is idle there, and nothing consults this). -/
def out1_A_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) : Vec F S1600x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) (y : S1600x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1600x64.size (by sl_kernel_rfl) y

/-- What case A leaves in the accumulator: its stored pieces read back. -/
def sout1_A_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) : Vec F S1600x64 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output block's buffer: its stored pieces read back (none: the window is idle there, and nothing consults this). -/
def out1_B_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) : Vec F S1600x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) (y : S1600x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1600x64.size (by sl_kernel_rfl) y

/-- What case B leaves in the accumulator: its stored pieces read back. -/
def sout1_B_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) : Vec F S1600x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output block's buffer: its stored pieces read back. -/
def out1_C_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) : Vec F S1600x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the output block covers it. -/
theorem cover1_C_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) (y : S1600x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1600x64.size (by sl_kernel_rfl) y

/-- Case C's stores into the accumulator cover it. -/
theorem scover1_C_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) (y : S1600x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1600x64.size (by sl_kernel_rfl) y

/-- What case C leaves in the accumulator: its stored pieces read back. -/
def sout1_C_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) : Vec F S1600x64 .f32 :=
  VS1_0.read (Elt F) (VS1_0.writes (Elt F) VS1_0.junk (kernelRun1_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The three cases at a grid point, on the point's memrefs and input blocks -/

/-- (output block's buffer, accumulator) after a point of case A. -/
def outsA1 (c : Dev nD) (t : Fin cfg1.N) (h0 : t.val % 5 = 0) (h1 : ¬t.val % 5 = 4) : Vec F S1600x64 .f32 × Vec F S1600x64 .f32 :=
  (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
/-- … of case B, the accumulator holding xs before. -/
def outsB1 (c : Dev nD) (t : Fin cfg1.N) (h0 : ¬t.val % 5 = 0) (h1 : ¬t.val % 5 = 4) (xs : Vec F S1600x64 .f32) : Vec F S1600x64 .f32 × Vec F S1600x64 .f32 :=
  (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs,
   sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs)
/-- … of case C, the accumulator holding xs before. -/
def outsC1 (c : Dev nD) (t : Fin cfg1.N) (h0 : ¬t.val % 5 = 0) (h1 : t.val % 5 = 4) (xs : Vec F S1600x64 .f32) : Vec F S1600x64 .f32 × Vec F S1600x64 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs,
   sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs)

/-- THE ACCUMULATION: (output block's buffer, accumulator) after the body at position n — the case of n mod 5, a case
    that reads the accumulator starting from what position n − 1 left in it. -/
def outsAt1 (c : Dev nD) : (n : ℕ) → n < cfg1.N → Vec F S1600x64 .f32 × Vec F S1600x64 .f32
  | 0, hn => outsA1 V c ⟨0, hn⟩ (Nat.zero_mod _) (by show ¬(0 % 5 = 4); decide)
  | n + 1, hn =>
    if h0 : (n + 1) % 5 = 0 then outsA1 V c ⟨n + 1, hn⟩ h0 (by show ¬((n + 1) % 5 = 4); omega)
    else if h1 : (n + 1) % 5 = 4 then outsC1 V c ⟨n + 1, hn⟩ h0 h1 (outsAt1 c n (Nat.lt_of_succ_lt hn)).2
    else outsB1 V c ⟨n + 1, hn⟩ h0 h1 (outsAt1 c n (Nat.lt_of_succ_lt hn)).2

theorem outsAt1_A (c : Dev nD) (t : Fin cfg1.N) (h0 : t.val % 5 = 0) (h1 : ¬t.val % 5 = 4) :
    outsAt1 V c t.val t.isLt = outsA1 V c t h0 h1 := by
  obtain ⟨n, hn⟩ := t
  cases n with
  | zero => rfl
  | succ n => exact (dif_pos h0).trans rfl

theorem outsAt1_B (c : Dev nD) (t : Fin cfg1.N) (h0 : ¬t.val % 5 = 0) (h1 : ¬t.val % 5 = 4) :
    outsAt1 V c t.val t.isLt = outsB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 5 = 0) (h1 : t.val % 5 = 4) :
    outsAt1 V c t.val t.isLt = outsC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator at what the point before left -/

/-- Before the first point the class invariant (the accumulator at anything); afterwards the accumulator at what the
    point before left in it, the other regions' scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The region's proof data on core c: the arrays as the region finds them; after the body each input's buffer at its
    block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem share1 (c : Dev nD) (w) : (dat1 V c).q w = fullShare := rfl
theorem recorded1 (c : Dev nD) (t) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position mod 5 says which case it is in;
    the invariant hands the body the accumulator at what the point before left (at anything at the first point) and
    takes it back at this point's contents; an idle output block's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 50 := lt_of_lt_of_eq t.isLt (show cfg1.N = 50 from N_1)
  by_cases h0 : t.val % 5 = 0
  · have h1 : ¬t.val % 5 = 4 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold outsA1 sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outsC1 out1_C_3 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold outsB1 sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hr⟩, Hg⟩
  isplitl [HS0 Hr]
  · isplitl [HS0]
    · iexists _; iexact HS0
    iexact Hr
  iexact Hg

end

end Cert.Kernel.Fr

end
-- ==== Proof.FrBA2.lean ====
/-
  Region 2 of @main (one propagation layer): what the three cases of the kernel body are stated over.
  The grid is 10 × 5, point t = (t / 5, t % 5): row block t / 5 of the output, column block t % 5 of the square matrix.
  The body resets its accumulator when t % 5 = 0, adds the product of the point's matrix block with rows
  3200·(t % 5) … of the tall operand at every point, and when t % 5 = 4 stores relu (accumulator + bias row) into the
  output block.  So the grid meets three cases: A (t % 5 = 0), B (t % 5 = 1, 2, 3), C (t % 5 = 4).
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

/-! ## The body's two branch conditions, decided over the grid -/

/-- The accumulator is reset: the column-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)
/-- The output block is stored: the column-block coordinate is 4, the last. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the body does not store the output block the window is idle, and its block is not written back there. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

/-- A staging buffer of the output window, through which its contents are stated. -/
abbrev VO2_3 : View sig .tc .vmem S1600x64 .f32 := (Memref.whole cc2_stg3_0 : Memref sig .tc .vmem S1600x64 .f32).view
abbrev ms2_0 (t : Fin cfg2.N) : Memref sig .tc .vmem S1600x3200 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1600x64 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2_0 : Memref sig .tc .vmem S1600x64 .f32 := Memref.whole cc2_scratch0
abbrev VS2_0 : View sig .tc .vmem S1600x64 .f32 := scM2_0.view

/-- The scoped buffers that are neither a staging buffer of this region nor its accumulator (the other regions' buffers),
    at some contents each: carried through the region unopened. -/
abbrev rest2 (c : Dev nD) : sProp 𝕄 :=
  Pipeline.scopedRestBut (Ix := Unit) (Name := ℕ) (U := UR sig nD τ) (Lvl := ℕ) (Val := Elt F) spec2 c [cc2_scratch0]

/-- The class invariant with the accumulator split out as a memref owned at some contents. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA
  rw [Pipeline.scopedRest_split_of_list spec2 c [cc2_scratch0] (by decide) (by decide)]
  simp only [scM2_0, owns_whole, bigSepL_singleton]; try rfl

end Cert.Kernel.Fr

end
-- ==== Proof.FrBR2.lean ====
/-
  Region 2: the kernel body run whole in each of its three cases. On whole memrefs — the three inputs at their
  contents, the output block's buffer and the accumulator as the case finds them — the body runs to the end leaving
  the inputs as they were; what it stores is found by the run: the list of stored pieces (last first) of the
  accumulator, and of the output block where the case stores it.
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import proofs.«154284_j13134009991420_2_alg».proof.Proof.FrBA2
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- CASE A (first column block: the accumulator is reset, then the point's product is added; the output block is not
    stored and is handed back as found; the accumulator may hold anything before). -/
noncomputable def kernelRun2_A (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernel i arg2 harg2 arg3 harg3 arg4 harg4 arg5 harg5 arg6 harg6) K } := by
  refine ⟨[], ?_, fun xi3 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE B (a middle column block: the point's product is added to the accumulator, which holds xs0 before; the output
    block is not stored and is handed back as found). -/
noncomputable def kernelRun2_B (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernel i arg2 harg2 arg3 harg3 arg4 harg4 arg5 harg5 arg6 harg6) K } := by
  refine ⟨[], ?_, fun xi3 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE C (the last column block: the point's product is added to the accumulator, which holds xs0 before, and
    relu (accumulator + bias row) is stored into the output block, whose buffer may hold anything before). -/
noncomputable def kernelRun2_C (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__kernel i arg2 harg2 arg3 harg3 arg4 harg4 arg5 harg5 arg6 harg6) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.FrB2.lean ====
/-
  Region 2: what the output block's buffer and the accumulator hold after each grid point (by recursion on the point:
  a point of case B or C starts from what the point before left in the accumulator), the region's proof data with the
  accumulator's contents carried in the invariant, and the body obligation at every point.
-/
import proofs.«154284_j13134009991420_2_alg».proof.Proof.Gen.Kernel.Launch
import proofs.«154284_j13134009991420_2_alg».proof.Proof.Gen.Kernel.Skeleton
import proofs.«154284_j13134009991420_2_alg».proof.Proof.Gen.Kernel.Points
import proofs.«154284_j13134009991420_2_alg».proof.Proof.FrBR2
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output block's buffer: its stored pieces read back (none: the window is idle there, and nothing consults this). -/
def out2_A_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) : Vec F S1600x64 .f32 :=
  VO2_3.read (Elt F) (VO2_3.writes (Elt F) VO2_3.junk (kernelRun2_A c i arg2 harg2 arg3 harg3 arg4 harg4 arg5 harg5 arg6 harg6 hc0 hc1 x0 x1 x2).1)

/-- Case A's stores into the accumulator cover it. -/
theorem scover2_A_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) (y : S1600x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1600x64.size (by sl_kernel_rfl) y

/-- What case A leaves in the accumulator: its stored pieces read back. -/
def sout2_A_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) : Vec F S1600x64 .f32 :=
  VS2_0.read (Elt F) (VS2_0.writes (Elt F) VS2_0.junk (kernelRun2_A c i arg2 harg2 arg3 harg3 arg4 harg4 arg5 harg5 arg6 harg6 hc0 hc1 x0 x1 x2).2.1)

/-- What case B leaves in the output block's buffer: its stored pieces read back (none: the window is idle there, and nothing consults this). -/
def out2_B_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) : Vec F S1600x64 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's stores into the accumulator cover it. -/
theorem scover2_B_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) (y : S1600x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S1600x64.size (by sl_kernel_rfl) y

/-- What case B leaves in the accumulator: its stored pieces read back. -/
def sout2_B_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) : Vec F S1600x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- What case C leaves in the output block's buffer: its stored pieces read back. -/
def out2_C_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) : Vec F S1600x64 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's one store into the output block covers it. -/
theorem cover2_C_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) (y : S1600x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1600x64.size (by sl_kernel_rfl) y

/-- Case C's stores into the accumulator cover it. -/
theorem scover2_C_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) (y : S1600x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1600x64.size (by sl_kernel_rfl) y

/-- What case C leaves in the accumulator: its stored pieces read back. -/
def sout2_C_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) : Vec F S1600x64 .f32 :=
  VS2_0.read (Elt F) (VS2_0.writes (Elt F) VS2_0.junk (kernelRun2_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The three cases at a grid point, on the point's memrefs and input blocks -/

/-- (output block's buffer, accumulator) after a point of case A. -/
def outsA2 (c : Dev nD) (t : Fin cfg2.N) (h0 : t.val % 5 = 0) (h1 : ¬t.val % 5 = 4) : Vec F S1600x64 .f32 × Vec F S1600x64 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
   sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t))
/-- … of case B, the accumulator holding xs before. -/
def outsB2 (c : Dev nD) (t : Fin cfg2.N) (h0 : ¬t.val % 5 = 0) (h1 : ¬t.val % 5 = 4) (xs : Vec F S1600x64 .f32) : Vec F S1600x64 .f32 × Vec F S1600x64 .f32 :=
  (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs,
   sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs)
/-- … of case C, the accumulator holding xs before. -/
def outsC2 (c : Dev nD) (t : Fin cfg2.N) (h0 : ¬t.val % 5 = 0) (h1 : t.val % 5 = 4) (xs : Vec F S1600x64 .f32) : Vec F S1600x64 .f32 × Vec F S1600x64 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs,
   sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs)

/-- THE ACCUMULATION: (output block's buffer, accumulator) after the body at position n — the case of n mod 5, a case
    that reads the accumulator starting from what position n − 1 left in it. -/
def outsAt2 (c : Dev nD) : (n : ℕ) → n < cfg2.N → Vec F S1600x64 .f32 × Vec F S1600x64 .f32
  | 0, hn => outsA2 V c ⟨0, hn⟩ (Nat.zero_mod _) (by show ¬(0 % 5 = 4); decide)
  | n + 1, hn =>
    if h0 : (n + 1) % 5 = 0 then outsA2 V c ⟨n + 1, hn⟩ h0 (by show ¬((n + 1) % 5 = 4); omega)
    else if h1 : (n + 1) % 5 = 4 then outsC2 V c ⟨n + 1, hn⟩ h0 h1 (outsAt2 c n (Nat.lt_of_succ_lt hn)).2
    else outsB2 V c ⟨n + 1, hn⟩ h0 h1 (outsAt2 c n (Nat.lt_of_succ_lt hn)).2

theorem outsAt2_A (c : Dev nD) (t : Fin cfg2.N) (h0 : t.val % 5 = 0) (h1 : ¬t.val % 5 = 4) :
    outsAt2 V c t.val t.isLt = outsA2 V c t h0 h1 := by
  obtain ⟨n, hn⟩ := t
  cases n with
  | zero => rfl
  | succ n => exact (dif_pos h0).trans rfl

theorem outsAt2_B (c : Dev nD) (t : Fin cfg2.N) (h0 : ¬t.val % 5 = 0) (h1 : ¬t.val % 5 = 4) :
    outsAt2 V c t.val t.isLt = outsB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 5 = 0) (h1 : t.val % 5 = 4) :
    outsAt2 V c t.val t.isLt = outsC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator at what the point before left -/

/-- Before the first point the class invariant (the accumulator at anything); afterwards the accumulator at what the
    point before left in it, the other regions' scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-! ## The proof data -/

/-- The region's proof data on core c: the arrays as the region finds them; after the body each input's buffer at its
    block and the output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem owed2 (c : Dev nD) (t) : (dat2 V c).owed t = 0 := rfl
theorem share2 (c : Dev nD) (w) : (dat2 V c).q w = fullShare := rfl
theorem recorded2 (c : Dev nD) (t) : (dat2 V c).recorded t = Set.univ := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the point's position mod 5 says which case it is in;
    the invariant hands the body the accumulator at what the point before left (at anything at the first point) and
    takes it back at this point's contents; an idle output block's buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 50 := lt_of_lt_of_eq t.isLt (show cfg2.N = 50 from N_2)
  by_cases h0 : t.val % 5 = 0
  · have h1 : ¬t.val % 5 = 4 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold outsA2 sout2_A_0; (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold outsC2 out2_C_3 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold outsB2 sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 50 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS0, Hr⟩, Hg⟩
  isplitl [HS0 Hr]
  · isplitl [HS0]
    · iexists _; iexact HS0
    iexact Hr
  iexact Hg

end

end Cert.Kernel.Fr

end
-- ==== Proof.RunKB.lean ====
import proofs.«154284_j13134009991420_2_alg».proof.Proof.FrB0
import proofs.«154284_j13134009991420_2_alg».proof.Proof.FrB1
import proofs.«154284_j13134009991420_2_alg».proof.Proof.FrB2
import proofs.«154284_j13134009991420_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main over its seven segments

@main is four stretches of host operations with three kernel regions between them. This module
follows the TensorCore's buffers through the seven segments: the contents at each boundary are
written as a fold from the launch memory (a host stretch applies its operations in order; a region
replaces its four arrays by what its write-backs leave and touches nothing else), each region's
proof data is taken at the contents the region is entered from, and the launch over the segment
list gives, at any float instance, that every execution terminates with every unscoped buffer at
the last boundary's contents. The argument arrays are then read back through the fold: no host
operation writes one, and the only one a region stages (the graph, input window 0 of every region)
is never written back.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- The contents region 0 is entered from: the boundary before it after the host stretch `hostOps0`. -/
abbrev W1 : Dev nD → Valuation τ sig (Elt F) := fun c => StableHlo.after hostOps0 (W0 m ρ c)
/-- The same, read at the TensorCore's references: what region 0's proof data are taken at. -/
abbrev V1 : (c : Dev nD) → (b : Ref sig .tc) → Buf (Elt F) ((c : Thread nD τ).loc b) := fun c b => W1 m ρ c b
/-- The contents region 0 leaves: each of its four arrays at what the write-backs of all the grid's points
    leave there (an input array is never written back, so it is as entered), every other buffer as entered. -/
def W2 (c : Dev nD) : Valuation τ sig (Elt F) :=
  Pipeline.withArrays spec0 c (W1 m ρ c) fun w => (dat0 (V1 m ρ) c).arrAt w cfg0.N
/-- At one of region 0's arrays the exit contents are the proof data's array after the last point. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At a buffer that is none of region 0's arrays the exit contents are the entry contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
/-- The two facts that put region 0's arrays back among the unscoped buffers at its exit: each array holds
    what the pipeline leaves (`hF0`), every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch `hostOps0` does not write is, after it, as before it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The graph is region 0's input window 0: its array is never written back, and the proof data's array
    is the entry contents, so the region leaves the graph as it found it. -/
theorem W2_main_arg2 (c : Dev nD) : W2 m ρ c (Proc.devRef .tc main_arg2) = W1 m ρ c (Proc.devRef .tc main_arg2) :=
  (W2_arr m ρ c 0).trans (((dat0 (V1 m ρ) c).arrAt_in 0 rfl _).trans (A_eq0 (V1 m ρ) c 0))

/-- The contents region 1 is entered from: the boundary before it after the host stretch `hostOps1`. -/
abbrev W3 : Dev nD → Valuation τ sig (Elt F) := fun c => StableHlo.after hostOps1 (W2 m ρ c)
/-- The same, read at the TensorCore's references: what region 1's proof data are taken at. -/
abbrev V3 : (c : Dev nD) → (b : Ref sig .tc) → Buf (Elt F) ((c : Thread nD τ).loc b) := fun c b => W3 m ρ c b
/-- The contents region 1 leaves: each of its four arrays at what the write-backs of all the grid's points
    leave there (an input array is never written back, so it is as entered), every other buffer as entered. -/
def W4 (c : Dev nD) : Valuation τ sig (Elt F) :=
  Pipeline.withArrays spec1 c (W3 m ρ c) fun w => (dat1 (V3 m ρ) c).arrAt w cfg1.N
/-- At one of region 1's arrays the exit contents are the proof data's array after the last point. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- At a buffer that is none of region 1's arrays the exit contents are the entry contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents read at the TensorCore's references. -/
abbrev V4 : (c : Dev nD) → (b : Ref sig .tc) → Buf (Elt F) ((c : Thread nD τ).loc b) := fun c b => W4 m ρ c b
/-- The two facts that put region 1's arrays back among the unscoped buffers at its exit: each array holds
    what the pipeline leaves (`hF1`), every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch `hostOps1` does not write is, after it, as before it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The graph is region 1's input window 0: its array is never written back, and the proof data's array
    is the entry contents, so the region leaves the graph as it found it. -/
theorem W4_main_arg2 (c : Dev nD) : W4 m ρ c (Proc.devRef .tc main_arg2) = W3 m ρ c (Proc.devRef .tc main_arg2) :=
  (W4_arr m ρ c 0).trans (((dat1 (V3 m ρ) c).arrAt_in 0 rfl _).trans (A_eq1 (V3 m ρ) c 0))

/-- The contents region 2 is entered from: the boundary before it after the host stretch `hostOps2`. -/
abbrev W5 : Dev nD → Valuation τ sig (Elt F) := fun c => StableHlo.after hostOps2 (W4 m ρ c)
/-- The same, read at the TensorCore's references: what region 2's proof data are taken at. -/
abbrev V5 : (c : Dev nD) → (b : Ref sig .tc) → Buf (Elt F) ((c : Thread nD τ).loc b) := fun c b => W5 m ρ c b
/-- The contents region 2 leaves: each of its four arrays at what the write-backs of all the grid's points
    leave there (an input array is never written back, so it is as entered), every other buffer as entered. -/
def W6 (c : Dev nD) : Valuation τ sig (Elt F) :=
  Pipeline.withArrays spec2 c (W5 m ρ c) fun w => (dat2 (V5 m ρ) c).arrAt w cfg2.N
/-- At one of region 2's arrays the exit contents are the proof data's array after the last point. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- At a buffer that is none of region 2's arrays the exit contents are the entry contents. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Region 2's exit contents read at the TensorCore's references. -/
abbrev V6 : (c : Dev nD) → (b : Ref sig .tc) → Buf (Elt F) ((c : Thread nD τ).loc b) := fun c b => W6 m ρ c b
/-- The two facts that put region 2's arrays back among the unscoped buffers at its exit: each array holds
    what the pipeline leaves (`hF2`), every other buffer what it held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch `hostOps2` does not write is, after it, as before it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The graph is region 2's input window 0: its array is never written back, and the proof data's array
    is the entry contents, so the region leaves the graph as it found it. -/
theorem W6_main_arg2 (c : Dev nD) : W6 m ρ c (Proc.devRef .tc main_arg2) = W5 m ρ c (Proc.devRef .tc main_arg2) :=
  (W6_arr m ρ c 0).trans (((dat2 (V5 m ρ) c).arrAt_in 0 rfl _).trans (A_eq2 (V5 m ρ) c 0))

/-- The contents at the return: the last boundary after the host stretch `hostOps3`. -/
abbrev W7 : Dev nD → Valuation τ sig (Elt F) := fun c => StableHlo.after hostOps3 (W6 m ρ c)
/-- A buffer the host stretch `hostOps3` does not write is, at the return, as region 2 left it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ### The arguments end as launched

No host operation writes an argument, and no region has one among its arrays except the graph, which every region
only reads: the fold at an argument's buffer walks back to the launch memory. -/

theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <|
  (W5_of m ρ c main_arg0 (by decide)).trans <| (W4_of_ne m ρ c main_arg0 (by decide)).trans <|
  (W3_of m ρ c main_arg0 (by decide)).trans <| (W2_of_ne m ρ c main_arg0 (by decide)).trans <|
  (W1_of m ρ c main_arg0 (by decide)).trans rfl

theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <|
  (W5_of m ρ c main_arg1 (by decide)).trans <| (W4_of_ne m ρ c main_arg1 (by decide)).trans <|
  (W3_of m ρ c main_arg1 (by decide)).trans <| (W2_of_ne m ρ c main_arg1 (by decide)).trans <|
  (W1_of m ρ c main_arg1 (by decide)).trans rfl

theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <|
  (W5_of m ρ c main_arg3 (by decide)).trans <| (W4_of_ne m ρ c main_arg3 (by decide)).trans <|
  (W3_of m ρ c main_arg3 (by decide)).trans <| (W2_of_ne m ρ c main_arg3 (by decide)).trans <|
  (W1_of m ρ c main_arg3 (by decide)).trans rfl

theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <|
  (W5_of m ρ c main_arg4 (by decide)).trans <| (W4_of_ne m ρ c main_arg4 (by decide)).trans <|
  (W3_of m ρ c main_arg4 (by decide)).trans <| (W2_of_ne m ρ c main_arg4 (by decide)).trans <|
  (W1_of m ρ c main_arg4 (by decide)).trans rfl

theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <|
  (W5_of m ρ c main_arg5 (by decide)).trans <| (W4_of_ne m ρ c main_arg5 (by decide)).trans <|
  (W3_of m ρ c main_arg5 (by decide)).trans <| (W2_of_ne m ρ c main_arg5 (by decide)).trans <|
  (W1_of m ρ c main_arg5 (by decide)).trans rfl

theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <|
  (W5_of m ρ c main_arg6 (by decide)).trans <| (W4_of_ne m ρ c main_arg6 (by decide)).trans <|
  (W3_of m ρ c main_arg6 (by decide)).trans <| (W2_of_ne m ρ c main_arg6 (by decide)).trans <|
  (W1_of m ρ c main_arg6 (by decide)).trans rfl

theorem W7_main_arg2 (c : Dev nD) : W7 m ρ c (Proc.devRef .tc main_arg2) = m ((c : Thread nD τ).loc main_arg2) :=
  (W7_of m ρ c main_arg2 (by decide)).trans <| (W6_main_arg2 m ρ c).trans <|
  (W5_of m ρ c main_arg2 (by decide)).trans <| (W4_main_arg2 m ρ c).trans <|
  (W3_of m ρ c main_arg2 (by decide)).trans <| (W2_main_arg2 m ρ c).trans <|
  (W1_of m ρ c main_arg2 (by decide)).trans rfl

/-! ## The proof data family and the thread state -/

/-- Every pipeline's proof data, each at the contents its region is entered from. A literal match on the pipeline's
    index, so that at a numeral it reduces to that region's proof data. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's class
    invariant takes it in and gives it back) and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the contents at the return, the generator
    register at some state. -/
abbrev Tₙ (c : Dev nD) : sProp 𝕄 := iprop(StableHlo.held (c : Thread nD τ) (Pipeline.ucRefs τ sig) (W7 m ρ c) ∗ ∃ r, prngReg c r)

/-! ## The regions as segments -/

/-- Nothing is owed before region 0's first point and its bound on the recorded pairs is everything: a core owing
    nothing, whatever pairs its waits have recorded, owes what the proof data says at the first point. -/
theorem owes_in0 (V : (c : Dev nD) → (b : Ref sig .tc) → Buf (Elt F) ((c : Thread nD τ).loc b)) (c : Dev nD) :
    (iprop(∃ W, owes (c : Thread nD τ) (0 : CellTallies nD τ sig Unit) W) : sProp 𝕄) ⊢ (dat0 V c).owesAt () 0 := by
  unfold Pipeline.Dat.owesAt Pipeline.owesWithin Pipeline.Dat.bound
  rw [owed0 V c 0, recorded0 V c 0]
  iintro ⟨%W, HO⟩; iexists W; isplitr; · ipureintro; exact fun _ _ => Or.inl trivial
  iexact HO
/-- Nothing is owed after region 0's last point either. -/
theorem owes_out0 (V : (c : Dev nD) → (b : Ref sig .tc) → Buf (Elt F) ((c : Thread nD τ).loc b)) (c : Dev nD) :
    (dat0 V c).owesAt () (Fin.last cfg0.N) ⊢ (iprop(∃ W, owes (c : Thread nD τ) (0 : CellTallies nD τ sig Unit) W) : sProp 𝕄) := by
  unfold Pipeline.Dat.owesAt Pipeline.owesWithin
  rw [owed0 V c (Fin.last cfg0.N)]
  iintro ⟨%W, -, HO⟩; iexists W; iexact HO

-- applying a library lemma stated over the pinned configuration `pin pcs a p` unifies with the printed configuration
-- only when unification may unfold plain definitions in a metavariable's type
set_option backward.isDefEq.respectTransparency.types false in
/-- REGION 0 over the thread state: entered from every unscoped buffer at `W1`, left with them at `W2`. At entry its
    four arrays are split out of the unscoped buffers (they hold the proof data's entry contents, `A_eq0`, at the full
    share, `share0`); the generator register and the scoped buffers no window stages make the class invariant, from which
    the proof data's invariant at the first point follows (`hin0`); at the last point it gives the class invariant back
    (`hout0`), and the arrays return to the unscoped buffers at the exit contents. Nothing is owed at any point
    (`owed0`), and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero (pcfgs (F := F)) adm (pdats m ρ) () L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (V1 m ρ) c w) (V1 m ρ c) fun w => A_eq0 (V1 m ρ) c w
    rw [Pipeline.unscopedBufs_held] at hsplit
    have hO : (iprop(∃ W, owes (c : Thread nD τ) (0 : CellTallies nD τ sig Unit) W) : sProp 𝕄) ⊢ (pdats m ρ 0 c).owesAt () 0 :=
      owes_in0 (V1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    show _ ⊢ (dat0 (V1 m ρ) c).Φ 0
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    show (dat0 (V1 m ρ) c).Φ (Fin.last cfg0.N) ⊢ _
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => share0 (V1 m ρ) c w)
      (V1 m ρ c) (V2 m ρ c) ((pdats m ρ 0 c).arrAt · cfg0.N) (hF0 m ρ c) (hrest0 m ρ c)
    rw [Pipeline.unscopedBufs_held] at hjoin
    have hO : (pdats m ρ 0 c).owesAt () (Fin.last (Pipeline.pin (pcfgs (F := F)) adm 0).N)
        ⊢ (iprop(∃ W, owes (c : Thread nD τ) (0 : CellTallies nD τ sig Unit) W) : sProp 𝕄) := owes_out0 (V1 m ρ) c
    iintro ⟨Ha, HO, HY, Hrest⟩
    imodintro
    isplitl [Ha Hrest]
    · iapply hjoin; isplitl [Ha] <;> iassumption
    isplitl [HY]; · iexact HY
    iapply hO; iexact HO

/-- Nothing is owed before region 1's first point and its bound on the recorded pairs is everything: a core owing
    nothing, whatever pairs its waits have recorded, owes what the proof data says at the first point. -/
theorem owes_in1 (V : (c : Dev nD) → (b : Ref sig .tc) → Buf (Elt F) ((c : Thread nD τ).loc b)) (c : Dev nD) :
    (iprop(∃ W, owes (c : Thread nD τ) (0 : CellTallies nD τ sig Unit) W) : sProp 𝕄) ⊢ (dat1 V c).owesAt () 0 := by
  unfold Pipeline.Dat.owesAt Pipeline.owesWithin Pipeline.Dat.bound
  rw [owed1 V c 0, recorded1 V c 0]
  iintro ⟨%W, HO⟩; iexists W; isplitr; · ipureintro; exact fun _ _ => Or.inl trivial
  iexact HO
/-- Nothing is owed after region 1's last point either. -/
theorem owes_out1 (V : (c : Dev nD) → (b : Ref sig .tc) → Buf (Elt F) ((c : Thread nD τ).loc b)) (c : Dev nD) :
    (dat1 V c).owesAt () (Fin.last cfg1.N) ⊢ (iprop(∃ W, owes (c : Thread nD τ) (0 : CellTallies nD τ sig Unit) W) : sProp 𝕄) := by
  unfold Pipeline.Dat.owesAt Pipeline.owesWithin
  rw [owed1 V c (Fin.last cfg1.N)]
  iintro ⟨%W, -, HO⟩; iexists W; iexact HO

-- applying a library lemma stated over the pinned configuration `pin pcs a p` unifies with the printed configuration
-- only when unification may unfold plain definitions in a metavariable's type
set_option backward.isDefEq.respectTransparency.types false in
/-- REGION 1 over the thread state: entered from every unscoped buffer at `W3`, left with them at `W4`. At entry its
    four arrays are split out of the unscoped buffers (they hold the proof data's entry contents, `A_eq1`, at the full
    share, `share1`); the generator register and the scoped buffers no window stages make the class invariant, from which
    the proof data's invariant at the first point follows (`hin1`); at the last point it gives the class invariant back
    (`hout1`), and the arrays return to the unscoped buffers at the exit contents. Nothing is owed at any point
    (`owed1`), and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero (pcfgs (F := F)) adm (pdats m ρ) () L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V3 m ρ) c w) (V3 m ρ c) fun w => A_eq1 (V3 m ρ) c w
    rw [Pipeline.unscopedBufs_held] at hsplit
    have hO : (iprop(∃ W, owes (c : Thread nD τ) (0 : CellTallies nD τ sig Unit) W) : sProp 𝕄) ⊢ (pdats m ρ 1 c).owesAt () 0 :=
      owes_in1 (V3 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    show _ ⊢ (dat1 (V3 m ρ) c).Φ 0
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    show (dat1 (V3 m ρ) c).Φ (Fin.last cfg1.N) ⊢ _
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V3 m ρ) c w)
      (V3 m ρ c) (V4 m ρ c) ((pdats m ρ 1 c).arrAt · cfg1.N) (hF1 m ρ c) (hrest1 m ρ c)
    rw [Pipeline.unscopedBufs_held] at hjoin
    have hO : (pdats m ρ 1 c).owesAt () (Fin.last (Pipeline.pin (pcfgs (F := F)) adm 1).N)
        ⊢ (iprop(∃ W, owes (c : Thread nD τ) (0 : CellTallies nD τ sig Unit) W) : sProp 𝕄) := owes_out1 (V3 m ρ) c
    iintro ⟨Ha, HO, HY, Hrest⟩
    imodintro
    isplitl [Ha Hrest]
    · iapply hjoin; isplitl [Ha] <;> iassumption
    isplitl [HY]; · iexact HY
    iapply hO; iexact HO

/-- Nothing is owed before region 2's first point and its bound on the recorded pairs is everything: a core owing
    nothing, whatever pairs its waits have recorded, owes what the proof data says at the first point. -/
theorem owes_in2 (V : (c : Dev nD) → (b : Ref sig .tc) → Buf (Elt F) ((c : Thread nD τ).loc b)) (c : Dev nD) :
    (iprop(∃ W, owes (c : Thread nD τ) (0 : CellTallies nD τ sig Unit) W) : sProp 𝕄) ⊢ (dat2 V c).owesAt () 0 := by
  unfold Pipeline.Dat.owesAt Pipeline.owesWithin Pipeline.Dat.bound
  rw [owed2 V c 0, recorded2 V c 0]
  iintro ⟨%W, HO⟩; iexists W; isplitr; · ipureintro; exact fun _ _ => Or.inl trivial
  iexact HO
/-- Nothing is owed after region 2's last point either. -/
theorem owes_out2 (V : (c : Dev nD) → (b : Ref sig .tc) → Buf (Elt F) ((c : Thread nD τ).loc b)) (c : Dev nD) :
    (dat2 V c).owesAt () (Fin.last cfg2.N) ⊢ (iprop(∃ W, owes (c : Thread nD τ) (0 : CellTallies nD τ sig Unit) W) : sProp 𝕄) := by
  unfold Pipeline.Dat.owesAt Pipeline.owesWithin
  rw [owed2 V c (Fin.last cfg2.N)]
  iintro ⟨%W, -, HO⟩; iexists W; iexact HO

-- applying a library lemma stated over the pinned configuration `pin pcs a p` unifies with the printed configuration
-- only when unification may unfold plain definitions in a metavariable's type
set_option backward.isDefEq.respectTransparency.types false in
/-- REGION 2 over the thread state: entered from every unscoped buffer at `W5`, left with them at `W6`. At entry its
    four arrays are split out of the unscoped buffers (they hold the proof data's entry contents, `A_eq2`, at the full
    share, `share2`); the generator register and the scoped buffers no window stages make the class invariant, from which
    the proof data's invariant at the first point follows (`hin2`); at the last point it gives the class invariant back
    (`hout2`), and the arrays return to the unscoped buffers at the exit contents. Nothing is owed at any point
    (`owed2`), and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero (pcfgs (F := F)) adm (pdats m ρ) () L lv 2 fun c t => owed2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => share2 (V5 m ρ) c w) (V5 m ρ c) fun w => A_eq2 (V5 m ρ) c w
    rw [Pipeline.unscopedBufs_held] at hsplit
    have hO : (iprop(∃ W, owes (c : Thread nD τ) (0 : CellTallies nD τ sig Unit) W) : sProp 𝕄) ⊢ (pdats m ρ 2 c).owesAt () 0 :=
      owes_in2 (V5 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    show _ ⊢ (dat2 (V5 m ρ) c).Φ 0
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    show (dat2 (V5 m ρ) c).Φ (Fin.last cfg2.N) ⊢ _
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => share2 (V5 m ρ) c w)
      (V5 m ρ c) (V6 m ρ c) ((pdats m ρ 2 c).arrAt · cfg2.N) (hF2 m ρ c) (hrest2 m ρ c)
    rw [Pipeline.unscopedBufs_held] at hjoin
    have hO : (pdats m ρ 2 c).owesAt () (Fin.last (Pipeline.pin (pcfgs (F := F)) adm 2).N)
        ⊢ (iprop(∃ W, owes (c : Thread nD τ) (0 : CellTallies nD τ sig Unit) W) : sProp 𝕄) := owes_out2 (V5 m ρ) c
    iintro ⟨Ha, HO, HY, Hrest⟩
    imodintro
    isplitl [Ha Hrest]
    · iapply hjoin; isplitl [Ha] <;> iassumption
    isplitl [HY]; · iexact HY
    iapply hO; iexact HO

/-! ## @main as segments, and the launch -/

/-- The thread state the last host stretch leaves is the last thread state beside the core owing nothing. -/
theorem last_state (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-- @main's seven segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments: it is the chain of its seven items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and every final state has each unscoped buffer of each core at the
    contents the fold gives at the return (`W7`). -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float instance: every execution of @main terminates, nothing faulting, and every final state has
    the seven argument arrays as launched — each read off the run's last contents and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.Kernel.Fr

end
-- ==== Proof.FrA0.lean ====
/-
  Region 0 of @main (one propagation layer): what the three cases of the kernel body are stated over.
  The grid is 10 × 5, point t = (t / 5, t % 5): row block t / 5 of the output, column block t % 5 of the square matrix.
  The body resets its accumulator when t % 5 = 0, adds the product of the point's matrix block with rows
  3200·(t % 5) … of the tall operand at every point, and when t % 5 = 4 stores relu (accumulator + bias row) into the
  output block.  So the grid meets three cases: A (t % 5 = 0), B (t % 5 = 1, 2, 3), C (t % 5 = 4).
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two branch conditions, decided over the grid -/

/-- The accumulator is reset: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The output block is stored: the column-block coordinate is 4, the last. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the body does not store the output block the window is idle, and its block is not written back there. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

/-- A staging buffer of the output window, through which its contents are stated. -/
abbrev VO0_3 : View sig .tc .vmem S1600x64 .f32 := (Memref.whole cc0_stg3_0 : Memref sig .tc .vmem S1600x64 .f32).view
abbrev ms0_0 (t : Fin cfg0.N) : Memref sig .tc .vmem S1600x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1600x64 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S1600x64 .f32 := Memref.whole cc0_scratch0
abbrev VS0_0 : View sig .tc .vmem S1600x64 .f32 := scM0_0.view

/-- The scoped buffers that are neither a staging buffer of this region nor its accumulator (the other regions' buffers),
    at some contents each: carried through the region unopened. -/
abbrev rest0 (c : Dev nD) : sProp 𝕄 :=
  Pipeline.scopedRestBut (Ix := Unit) (Name := ℕ) (U := UR sig nD τ) (Lvl := ℕ) (Val := Elt F) spec0 c [cc0_scratch0]

/-- The class invariant with the accumulator split out as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA
  rw [Pipeline.scopedRest_split_of_list spec0 c [cc0_scratch0] (by decide) (by decide)]
  simp only [scM0_0, owns_whole, bigSepL_singleton]; try rfl

end Cert.KernelIdeal.Fr

end
-- ==== Proof.FrR0.lean ====
/-
  Region 0: the kernel body run whole in each of its three cases. On whole memrefs — the three inputs at their
  contents, the output block's buffer and the accumulator as the case finds them — the body runs to the end leaving
  the inputs as they were; what it stores is found by the run: the list of stored pieces (last first) of the
  accumulator, and of the output block where the case stores it.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.FrA0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- CASE A (first column block: the accumulator is reset, then the point's product is added; the output block is not
    stored and is handed back as found; the accumulator may hold anything before). -/
noncomputable def kernelRun0_A (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE B (a middle column block: the point's product is added to the accumulator, which holds xs0 before; the output
    block is not stored and is handed back as found). -/
noncomputable def kernelRun0_B (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE C (the last column block: the point's product is added to the accumulator, which holds xs0 before, and
    relu (accumulator + bias row) is stored into the output block, whose buffer may hold anything before). -/
noncomputable def kernelRun0_C (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.Fr0.lean ====
/-
  Region 0: what the output block's buffer and the accumulator hold after each grid point (by recursion on the point:
  a point of case B or C starts from what the point before left in the accumulator), the region's proof data with the
  accumulator's contents carried in the invariant, and the body obligation at every point.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.FrR0
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output block's buffer: its stored pieces read back (none: the window is idle there, and nothing consults this). -/
def out0_A_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) : Vec F S1600x64 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) (y : S1600x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1600x64.size (by sl_kernel_rfl) y

/-- What case A leaves in the accumulator: its stored pieces read back. -/
def sout0_A_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i)
    (x0 : Vec F S1600x3200 .f32) (x1 : Vec F S16000x64 .f32) (x2 : Vec F S1x64 .f32) : Vec F S1600x64 .f32 :=
  VS0_0.read (Elt F) (VS0_0.writes (Elt F) VS0_0.junk (kernelRun0_A c i arg2 harg2 arg3 harg3 arg4 harg4 arg5 harg5 arg6 harg6 hc0 hc1 x0 x1 x2).2.1)

/-- What case B leaves in the output block's buffer: its stored pieces read back (none: the window is idle there, and nothing consults this). -/
def out0_B_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) : Vec F S1600x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's stores into the accumulator cover it. -/
theorem scover0_B_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) (y : S1600x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1600x64.size (by sl_kernel_rfl) y

/-- What case B leaves in the accumulator: its stored pieces read back. -/
def sout0_B_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i)
    (x0 : Vec F S1600x3200 .f32) (x1 : Vec F S16000x64 .f32) (x2 : Vec F S1x64 .f32) (xs0 : Vec F S1600x64 .f32) : Vec F S1600x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What case C leaves in the output block's buffer: its stored pieces read back. -/
def out0_C_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) : Vec F S1600x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's one store into the output block covers it. -/
theorem cover0_C_3 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) (y : S1600x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1600x64.size (by sl_kernel_rfl) y

/-- Case C's stores into the accumulator cover it. -/
theorem scover0_C_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) (y : S1600x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1600x64.size (by sl_kernel_rfl) y

/-- What case C leaves in the accumulator: its stored pieces read back. -/
def sout0_C_0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i)
    (x0 : Vec F S1600x3200 .f32) (x1 : Vec F S16000x64 .f32) (x2 : Vec F S1x64 .f32) (xs0 : Vec F S1600x64 .f32) : Vec F S1600x64 .f32 :=
  VS0_0.read (Elt F) (VS0_0.writes (Elt F) VS0_0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The three cases at a grid point, on the point's memrefs and input blocks -/

/-- (output block's buffer, accumulator) after a point of case A. -/
def outsA0 (c : Dev nD) (t : Fin cfg0.N) (h0 : t.val % 5 = 0) (h1 : ¬t.val % 5 = 4) : Vec F S1600x64 .f32 × Vec F S1600x64 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- … of case B, the accumulator holding xs before. -/
def outsB0 (c : Dev nD) (t : Fin cfg0.N) (h0 : ¬t.val % 5 = 0) (h1 : ¬t.val % 5 = 4) (xs : Vec F S1600x64 .f32) : Vec F S1600x64 .f32 × Vec F S1600x64 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs)
/-- … of case C, the accumulator holding xs before. -/
def outsC0 (c : Dev nD) (t : Fin cfg0.N) (h0 : ¬t.val % 5 = 0) (h1 : t.val % 5 = 4) (xs : Vec F S1600x64 .f32) : Vec F S1600x64 .f32 × Vec F S1600x64 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs)

/-- THE ACCUMULATION: (output block's buffer, accumulator) after the body at position n — the case of n mod 5, a case
    that reads the accumulator starting from what position n − 1 left in it. -/
def outsAt0 (c : Dev nD) : (n : ℕ) → n < cfg0.N → Vec F S1600x64 .f32 × Vec F S1600x64 .f32
  | 0, hn => outsA0 V c ⟨0, hn⟩ (Nat.zero_mod _) (by show ¬(0 % 5 = 4); decide)
  | n + 1, hn =>
    if h0 : (n + 1) % 5 = 0 then outsA0 V c ⟨n + 1, hn⟩ h0 (by show ¬((n + 1) % 5 = 4); omega)
    else if h1 : (n + 1) % 5 = 4 then outsC0 V c ⟨n + 1, hn⟩ h0 h1 (outsAt0 c n (Nat.lt_of_succ_lt hn)).2
    else outsB0 V c ⟨n + 1, hn⟩ h0 h1 (outsAt0 c n (Nat.lt_of_succ_lt hn)).2

theorem outsAt0_A (c : Dev nD) (t : Fin cfg0.N) (h0 : t.val % 5 = 0) (h1 : ¬t.val % 5 = 4) :
    outsAt0 V c t.val t.isLt = outsA0 V c t h0 h1 := by
  obtain ⟨n, hn⟩ := t
  cases n with
  | zero => rfl
  | succ n => exact (dif_pos h0).trans rfl

theorem outsAt0_B (c : Dev nD) (t : Fin cfg0.N) (h0 : ¬t.val % 5 = 0) (h1 : ¬t.val % 5 = 4) :
    outsAt0 V c t.val t.isLt = outsB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 5 = 0) (h1 : t.val % 5 = 4) :
    outsAt0 V c t.val t.isLt = outsC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator at what the point before left -/

/-- Before the first point the class invariant (the accumulator at anything); afterwards the accumulator at what the
    point before left in it, the other regions' scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The region's proof data on core c: the arrays as the region finds them; after the body each input's buffer at its
    block and the output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem owed0 (c : Dev nD) (t) : (dat0 V c).owed t = 0 := rfl
theorem share0 (c : Dev nD) (w) : (dat0 V c).q w = fullShare := rfl
theorem recorded0 (c : Dev nD) (t) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's position mod 5 says which case it is in;
    the invariant hands the body the accumulator at what the point before left (at anything at the first point) and
    takes it back at this point's contents; an idle output block's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 50 := lt_of_lt_of_eq t.isLt (show cfg0.N = 50 from N_0)
  by_cases h0 : t.val % 5 = 0
  · have h1 : ¬t.val % 5 = 4 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold outsA0 sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold outsC0 out0_C_3 sout0_C_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold outsB0 sout0_B_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ (Pipeline.ΦA spec0 c : sProp 𝕄) := by
  have hne : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hr⟩, Hg⟩
  isplitl [HS0 Hr]
  · isplitl [HS0]
    · iexists _; iexact HS0
    iexact Hr
  iexact Hg

end

end Cert.KernelIdeal.Fr

end
-- ==== Proof.FrA1.lean ====
/-
  Region 1 of @main (one propagation layer): what the three cases of the kernel body are stated over.
  The grid is 10 × 5, point t = (t / 5, t % 5): row block t / 5 of the output, column block t % 5 of the square matrix.
  The body resets its accumulator when t % 5 = 0, adds the product of the point's matrix block with rows
  3200·(t % 5) … of the tall operand at every point, and when t % 5 = 4 stores relu (accumulator + bias row) into the
  output block.  So the grid meets three cases: A (t % 5 = 0), B (t % 5 = 1, 2, 3), C (t % 5 = 4).
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions, decided over the grid -/

/-- The accumulator is reset: the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
/-- The output block is stored: the column-block coordinate is 4, the last. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the body does not store the output block the window is idle, and its block is not written back there. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- A staging buffer of the output window, through which its contents are stated. -/
abbrev VO1_3 : View sig .tc .vmem S1600x64 .f32 := (Memref.whole cc1_stg3_0 : Memref sig .tc .vmem S1600x64 .f32).view
abbrev ms1_0 (t : Fin cfg1.N) : Memref sig .tc .vmem S1600x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1600x64 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1600x64 .f32 := Memref.whole cc1_scratch0
abbrev VS1_0 : View sig .tc .vmem S1600x64 .f32 := scM1_0.view

/-- The scoped buffers that are neither a staging buffer of this region nor its accumulator (the other regions' buffers),
    at some contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator split out as a memref owned at some contents. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA
  rw [Pipeline.scopedRest_split_of_list spec1 c [cc1_scratch0] (by decide) (by decide)]
  simp only [scM1_0, owns_whole, bigSepL_singleton]; try rfl

end Cert.KernelIdeal.Fr

end
-- ==== Proof.FrR1.lean ====
/-
  Region 1: the kernel body run whole in each of its three cases. On whole memrefs — the three inputs at their
  contents, the output block's buffer and the accumulator as the case finds them — the body runs to the end leaving
  the inputs as they were; what it stores is found by the run: the list of stored pieces (last first) of the
  accumulator, and of the output block where the case stores it.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.FrA1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- CASE A (first column block: the accumulator is reset, then the point's product is added; the output block is not
    stored and is handed back as found; the accumulator may hold anything before). -/
noncomputable def kernelRun1_A (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE B (a middle column block: the point's product is added to the accumulator, which holds xs0 before; the output
    block is not stored and is handed back as found). -/
noncomputable def kernelRun1_B (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨[], ?_, fun xi3 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE C (the last column block: the point's product is added to the accumulator, which holds xs0 before, and
    relu (accumulator + bias row) is stored into the output block, whose buffer may hold anything before). -/
noncomputable def kernelRun1_C (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__kernel i arg2 harg2 arg3 harg3 arg4 harg4 arg5 harg5 arg6 harg6) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.Fr1.lean ====
/-
  Region 1: what the output block's buffer and the accumulator hold after each grid point (by recursion on the point:
  a point of case B or C starts from what the point before left in the accumulator), the region's proof data with the
  accumulator's contents carried in the invariant, and the body obligation at every point.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.FrR1
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output block's buffer: its stored pieces read back (none: the window is idle there, and nothing consults this). -/
def out1_A_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) : Vec F S1600x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) (y : S1600x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1600x64.size (by sl_kernel_rfl) y

/-- What case A leaves in the accumulator: its stored pieces read back. -/
def sout1_A_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i)
    (x0 : Vec F S1600x3200 .f32) (x1 : Vec F S16000x64 .f32) (x2 : Vec F S1x64 .f32) : Vec F S1600x64 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output block's buffer: its stored pieces read back (none: the window is idle there, and nothing consults this). -/
def out1_B_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) : Vec F S1600x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) (y : S1600x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1600x64.size (by sl_kernel_rfl) y

/-- What case B leaves in the accumulator: its stored pieces read back. -/
def sout1_B_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i)
    (x0 : Vec F S1600x3200 .f32) (x1 : Vec F S16000x64 .f32) (x2 : Vec F S1x64 .f32) (xs0 : Vec F S1600x64 .f32) : Vec F S1600x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output block's buffer: its stored pieces read back. -/
def out1_C_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) : Vec F S1600x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the output block covers it. -/
theorem cover1_C_3 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) (y : S1600x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1600x64.size (by sl_kernel_rfl) y

/-- Case C's stores into the accumulator cover it. -/
theorem scover1_C_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) (y : S1600x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1600x64.size (by sl_kernel_rfl) y

/-- What case C leaves in the accumulator: its stored pieces read back. -/
def sout1_C_0 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i)
    (x0 : Vec F S1600x3200 .f32) (x1 : Vec F S16000x64 .f32) (x2 : Vec F S1x64 .f32) (xs0 : Vec F S1600x64 .f32) : Vec F S1600x64 .f32 :=
  VS1_0.read (Elt F) (VS1_0.writes (Elt F) VS1_0.junk (kernelRun1_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The three cases at a grid point, on the point's memrefs and input blocks -/

/-- (output block's buffer, accumulator) after a point of case A. -/
def outsA1 (c : Dev nD) (t : Fin cfg1.N) (h0 : t.val % 5 = 0) (h1 : ¬t.val % 5 = 4) : Vec F S1600x64 .f32 × Vec F S1600x64 .f32 :=
  (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
/-- … of case B, the accumulator holding xs before. -/
def outsB1 (c : Dev nD) (t : Fin cfg1.N) (h0 : ¬t.val % 5 = 0) (h1 : ¬t.val % 5 = 4) (xs : Vec F S1600x64 .f32) : Vec F S1600x64 .f32 × Vec F S1600x64 .f32 :=
  (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs,
   sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs)
/-- … of case C, the accumulator holding xs before. -/
def outsC1 (c : Dev nD) (t : Fin cfg1.N) (h0 : ¬t.val % 5 = 0) (h1 : t.val % 5 = 4) (xs : Vec F S1600x64 .f32) : Vec F S1600x64 .f32 × Vec F S1600x64 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs,
   sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs)

/-- THE ACCUMULATION: (output block's buffer, accumulator) after the body at position n — the case of n mod 5, a case
    that reads the accumulator starting from what position n − 1 left in it. -/
def outsAt1 (c : Dev nD) : (n : ℕ) → n < cfg1.N → Vec F S1600x64 .f32 × Vec F S1600x64 .f32
  | 0, hn => outsA1 V c ⟨0, hn⟩ (Nat.zero_mod _) (by show ¬(0 % 5 = 4); decide)
  | n + 1, hn =>
    if h0 : (n + 1) % 5 = 0 then outsA1 V c ⟨n + 1, hn⟩ h0 (by show ¬((n + 1) % 5 = 4); omega)
    else if h1 : (n + 1) % 5 = 4 then outsC1 V c ⟨n + 1, hn⟩ h0 h1 (outsAt1 c n (Nat.lt_of_succ_lt hn)).2
    else outsB1 V c ⟨n + 1, hn⟩ h0 h1 (outsAt1 c n (Nat.lt_of_succ_lt hn)).2

theorem outsAt1_A (c : Dev nD) (t : Fin cfg1.N) (h0 : t.val % 5 = 0) (h1 : ¬t.val % 5 = 4) :
    outsAt1 V c t.val t.isLt = outsA1 V c t h0 h1 := by
  obtain ⟨n, hn⟩ := t
  cases n with
  | zero => rfl
  | succ n => exact (dif_pos h0).trans rfl

theorem outsAt1_B (c : Dev nD) (t : Fin cfg1.N) (h0 : ¬t.val % 5 = 0) (h1 : ¬t.val % 5 = 4) :
    outsAt1 V c t.val t.isLt = outsB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 5 = 0) (h1 : t.val % 5 = 4) :
    outsAt1 V c t.val t.isLt = outsC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator at what the point before left -/

/-- Before the first point the class invariant (the accumulator at anything); afterwards the accumulator at what the
    point before left in it, the other regions' scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The region's proof data on core c: the arrays as the region finds them; after the body each input's buffer at its
    block and the output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := rfl
theorem share1 (c : Dev nD) (w) : (dat1 V c).q w = fullShare := rfl
theorem recorded1 (c : Dev nD) (t) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's position mod 5 says which case it is in;
    the invariant hands the body the accumulator at what the point before left (at anything at the first point) and
    takes it back at this point's contents; an idle output block's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 50 := lt_of_lt_of_eq t.isLt (show cfg1.N = 50 from N_1)
  by_cases h0 : t.val % 5 = 0
  · have h1 : ¬t.val % 5 = 4 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold outsA1 sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outsC1 out1_C_3 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold outsB1 sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hr⟩, Hg⟩
  isplitl [HS0 Hr]
  · isplitl [HS0]
    · iexists _; iexact HS0
    iexact Hr
  iexact Hg

end

end Cert.KernelIdeal.Fr

end
-- ==== Proof.FrA2.lean ====
/-
  Region 2 of @main (one propagation layer): what the three cases of the kernel body are stated over.
  The grid is 10 × 5, point t = (t / 5, t % 5): row block t / 5 of the output, column block t % 5 of the square matrix.
  The body resets its accumulator when t % 5 = 0, adds the product of the point's matrix block with rows
  3200·(t % 5) … of the tall operand at every point, and when t % 5 = 4 stores relu (accumulator + bias row) into the
  output block.  So the grid meets three cases: A (t % 5 = 0), B (t % 5 = 1, 2, 3), C (t % 5 = 4).
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
end

/-! ## The body's two branch conditions, decided over the grid -/

/-- The accumulator is reset: the column-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)
/-- The output block is stored: the column-block coordinate is 4, the last. -/
abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the body does not store the output block the window is idle, and its block is not written back there. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The memrefs the body is called with -/

/-- A staging buffer of the output window, through which its contents are stated. -/
abbrev VO2_3 : View sig .tc .vmem S1600x64 .f32 := (Memref.whole cc2_stg3_0 : Memref sig .tc .vmem S1600x64 .f32).view
abbrev ms2_0 (t : Fin cfg2.N) : Memref sig .tc .vmem S1600x3200 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1600x64 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2_0 : Memref sig .tc .vmem S1600x64 .f32 := Memref.whole cc2_scratch0
abbrev VS2_0 : View sig .tc .vmem S1600x64 .f32 := scM2_0.view

/-- The scoped buffers that are neither a staging buffer of this region nor its accumulator (the other regions' buffers),
    at some contents each: carried through the region unopened. -/
abbrev rest2 (c : Dev nD) : sProp 𝕄 :=
  Pipeline.scopedRestBut (Ix := Unit) (Name := ℕ) (U := UR sig nD τ) (Lvl := ℕ) (Val := Elt F) spec2 c [cc2_scratch0]

/-- The class invariant with the accumulator split out as a memref owned at some contents. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA
  rw [Pipeline.scopedRest_split_of_list spec2 c [cc2_scratch0] (by decide) (by decide)]
  simp only [scM2_0, owns_whole, bigSepL_singleton]; try rfl

end Cert.KernelIdeal.Fr

end
-- ==== Proof.FrR2.lean ====
/-
  Region 2: the kernel body run whole in each of its three cases. On whole memrefs — the three inputs at their
  contents, the output block's buffer and the accumulator as the case finds them — the body runs to the end leaving
  the inputs as they were; what it stores is found by the run: the list of stored pieces (last first) of the
  accumulator, and of the output block where the case stores it.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.FrA2
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- CASE A (first column block: the accumulator is reset, then the point's product is added; the output block is not
    stored and is handed back as found; the accumulator may hold anything before). -/
noncomputable def kernelRun2_A (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernel i arg2 harg2 arg3 harg3 arg4 harg4 arg5 harg5 arg6 harg6) K } := by
  refine ⟨[], ?_, fun xi3 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE B (a middle column block: the point's product is added to the accumulator, which holds xs0 before; the output
    block is not stored and is handed back as found). -/
noncomputable def kernelRun2_B (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (xi3 : Vec F S1600x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__kernel i arg2 harg2 arg3 harg3 arg4 harg4 arg5 harg5 arg6 harg6) K } := by
  refine ⟨[], ?_, fun xi3 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- CASE C (the last column block: the point's product is added to the accumulator, which holds xs0 before, and
    relu (accumulator + bias row) is stored into the output block, whose buffer may hold anything before). -/
noncomputable def kernelRun2_C (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) :
    Σ' (L3 : List (View.Piece (Elt F) S1600x64 .f32)), { LS0 : List (View.Piece (Elt F) S1600x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__kernel i arg2 harg2 arg3 harg3 arg4 harg4 arg5 harg5 arg6 harg6) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.Fr2.lean ====
/-
  Region 2: what the output block's buffer and the accumulator hold after each grid point (by recursion on the point:
  a point of case B or C starts from what the point before left in the accumulator), the region's proof data with the
  accumulator's contents carried in the invariant, and the body obligation at every point.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.FrR2
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output block's buffer: its stored pieces read back (none: the window is idle there, and nothing consults this). -/
def out2_A_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) : Vec F S1600x64 .f32 :=
  VO2_3.read (Elt F) (VO2_3.writes (Elt F) VO2_3.junk (kernelRun2_A c i arg2 harg2 arg3 harg3 arg4 harg4 arg5 harg5 arg6 harg6 hc0 hc1 x0 x1 x2).1)

/-- Case A's stores into the accumulator cover it. -/
theorem scover2_A_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) (y : S1600x64.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1600x64.size (by sl_kernel_rfl) y

/-- What case A leaves in the accumulator: its stored pieces read back. -/
def sout2_A_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i)
    (x0 : Vec F S1600x3200 .f32) (x1 : Vec F S16000x64 .f32) (x2 : Vec F S1x64 .f32) : Vec F S1600x64 .f32 :=
  VS2_0.read (Elt F) (VS2_0.writes (Elt F) VS2_0.junk (kernelRun2_A c i arg2 harg2 arg3 harg3 arg4 harg4 arg5 harg5 arg6 harg6 hc0 hc1 x0 x1 x2).2.1)

/-- What case B leaves in the output block's buffer: its stored pieces read back (none: the window is idle there, and nothing consults this). -/
def out2_B_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) : Vec F S1600x64 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's stores into the accumulator cover it. -/
theorem scover2_B_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) (y : S1600x64.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S1600x64.size (by sl_kernel_rfl) y

/-- What case B leaves in the accumulator: its stored pieces read back. -/
def sout2_B_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i)
    (x0 : Vec F S1600x3200 .f32) (x1 : Vec F S16000x64 .f32) (x2 : Vec F S1x64 .f32) (xs0 : Vec F S1600x64 .f32) : Vec F S1600x64 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- What case C leaves in the output block's buffer: its stored pieces read back. -/
def out2_C_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) : Vec F S1600x64 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's one store into the output block covers it. -/
theorem cover2_C_3 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) (y : S1600x64.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1600x64.size (by sl_kernel_rfl) y

/-- Case C's stores into the accumulator cover it. -/
theorem scover2_C_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) (y : S1600x64.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1600x64.size (by sl_kernel_rfl) y

/-- What case C leaves in the accumulator: its stored pieces read back. -/
def sout2_C_0 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i)
    (x0 : Vec F S1600x3200 .f32) (x1 : Vec F S16000x64 .f32) (x2 : Vec F S1x64 .f32) (xs0 : Vec F S1600x64 .f32) : Vec F S1600x64 .f32 :=
  VS2_0.read (Elt F) (VS2_0.writes (Elt F) VS2_0.junk (kernelRun2_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The three cases at a grid point, on the point's memrefs and input blocks -/

/-- (output block's buffer, accumulator) after a point of case A. -/
def outsA2 (c : Dev nD) (t : Fin cfg2.N) (h0 : t.val % 5 = 0) (h1 : ¬t.val % 5 = 4) : Vec F S1600x64 .f32 × Vec F S1600x64 .f32 :=
  (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
   sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t))
/-- … of case B, the accumulator holding xs before. -/
def outsB2 (c : Dev nD) (t : Fin cfg2.N) (h0 : ¬t.val % 5 = 0) (h1 : ¬t.val % 5 = 4) (xs : Vec F S1600x64 .f32) : Vec F S1600x64 .f32 × Vec F S1600x64 .f32 :=
  (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs,
   sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs)
/-- … of case C, the accumulator holding xs before. -/
def outsC2 (c : Dev nD) (t : Fin cfg2.N) (h0 : ¬t.val % 5 = 0) (h1 : t.val % 5 = 4) (xs : Vec F S1600x64 .f32) : Vec F S1600x64 .f32 × Vec F S1600x64 .f32 :=
  (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs,
   sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs)

/-- THE ACCUMULATION: (output block's buffer, accumulator) after the body at position n — the case of n mod 5, a case
    that reads the accumulator starting from what position n − 1 left in it. -/
def outsAt2 (c : Dev nD) : (n : ℕ) → n < cfg2.N → Vec F S1600x64 .f32 × Vec F S1600x64 .f32
  | 0, hn => outsA2 V c ⟨0, hn⟩ (Nat.zero_mod _) (by show ¬(0 % 5 = 4); decide)
  | n + 1, hn =>
    if h0 : (n + 1) % 5 = 0 then outsA2 V c ⟨n + 1, hn⟩ h0 (by show ¬((n + 1) % 5 = 4); omega)
    else if h1 : (n + 1) % 5 = 4 then outsC2 V c ⟨n + 1, hn⟩ h0 h1 (outsAt2 c n (Nat.lt_of_succ_lt hn)).2
    else outsB2 V c ⟨n + 1, hn⟩ h0 h1 (outsAt2 c n (Nat.lt_of_succ_lt hn)).2

theorem outsAt2_A (c : Dev nD) (t : Fin cfg2.N) (h0 : t.val % 5 = 0) (h1 : ¬t.val % 5 = 4) :
    outsAt2 V c t.val t.isLt = outsA2 V c t h0 h1 := by
  obtain ⟨n, hn⟩ := t
  cases n with
  | zero => rfl
  | succ n => exact (dif_pos h0).trans rfl

theorem outsAt2_B (c : Dev nD) (t : Fin cfg2.N) (h0 : ¬t.val % 5 = 0) (h1 : ¬t.val % 5 = 4) :
    outsAt2 V c t.val t.isLt = outsB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 5 = 0) (h1 : t.val % 5 = 4) :
    outsAt2 V c t.val t.isLt = outsC2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator at what the point before left -/

/-- Before the first point the class invariant (the accumulator at anything); afterwards the accumulator at what the
    point before left in it, the other regions' scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

/-! ## The proof data -/

/-- The region's proof data on core c: the arrays as the region finds them; after the body each input's buffer at its
    block and the output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem owed2 (c : Dev nD) (t) : (dat2 V c).owed t = 0 := rfl
theorem share2 (c : Dev nD) (w) : (dat2 V c).q w = fullShare := rfl
theorem recorded2 (c : Dev nD) (t) : (dat2 V c).recorded t = Set.univ := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the point's position mod 5 says which case it is in;
    the invariant hands the body the accumulator at what the point before left (at anything at the first point) and
    takes it back at this point's contents; an idle output block's buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 50 := lt_of_lt_of_eq t.isLt (show cfg2.N = 50 from N_2)
  by_cases h0 : t.val % 5 = 0
  · have h1 : ¬t.val % 5 = 4 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold outsA2 sout2_A_0; (try dsimp only)
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A_0 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold outsC2 out2_C_3 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold outsB2 sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 50 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS0, Hr⟩, Hg⟩
  isplitl [HS0 Hr]
  · isplitl [HS0]
    · iexists _; iexact HS0
    iexact Hr
  iexact Hg

end

end Cert.KernelIdeal.Fr

end
-- ==== Proof.RunKI.lean ====
import proofs.«154284_j13134009991420_2_alg».proof.Proof.Fr0
import proofs.«154284_j13134009991420_2_alg».proof.Proof.Fr1
import proofs.«154284_j13134009991420_2_alg».proof.Proof.Fr2
import proofs.«154284_j13134009991420_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main over its seven segments

@main is four stretches of host operations with three kernel regions between them. This module
follows the TensorCore's buffers through the seven segments: the contents at each boundary are
written as a fold from the launch memory (a host stretch applies its operations in order; a region
replaces its four arrays by what its write-backs leave and touches nothing else), each region's
proof data is taken at the contents the region is entered from, and the launch over the segment
list gives, at any float instance, that every execution terminates with every unscoped buffer at
the last boundary's contents. The argument arrays are then read back through the fold: no host
operation writes one, and the only one a region stages (the graph, input window 0 of every region)
is never written back.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- The contents region 0 is entered from: the boundary before it after the host stretch `hostOps0`. -/
abbrev W1 : Dev nD → Valuation τ sig (Elt F) := fun c => StableHlo.after hostOps0 (W0 m ρ c)
/-- The same, read at the TensorCore's references: what region 0's proof data are taken at. -/
abbrev V1 : (c : Dev nD) → (b : Ref sig .tc) → Buf (Elt F) ((c : Thread nD τ).loc b) := fun c b => W1 m ρ c b
/-- The contents region 0 leaves: each of its four arrays at what the write-backs of all the grid's points
    leave there (an input array is never written back, so it is as entered), every other buffer as entered. -/
def W2 (c : Dev nD) : Valuation τ sig (Elt F) :=
  Pipeline.withArrays spec0 c (W1 m ρ c) fun w => (dat0 (V1 m ρ) c).arrAt w cfg0.N
/-- At one of region 0's arrays the exit contents are the proof data's array after the last point. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- At a buffer that is none of region 0's arrays the exit contents are the entry contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
/-- The two facts that put region 0's arrays back among the unscoped buffers at its exit: each array holds
    what the pipeline leaves (`hF0`), every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch `hostOps0` does not write is, after it, as before it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The graph is region 0's input window 0: its array is never written back, and the proof data's array
    is the entry contents, so the region leaves the graph as it found it. -/
theorem W2_main_arg2 (c : Dev nD) : W2 m ρ c (Proc.devRef .tc main_arg2) = W1 m ρ c (Proc.devRef .tc main_arg2) :=
  (W2_arr m ρ c 0).trans (((dat0 (V1 m ρ) c).arrAt_in 0 rfl _).trans (A_eq0 (V1 m ρ) c 0))

/-- The contents region 1 is entered from: the boundary before it after the host stretch `hostOps1`. -/
abbrev W3 : Dev nD → Valuation τ sig (Elt F) := fun c => StableHlo.after hostOps1 (W2 m ρ c)
/-- The same, read at the TensorCore's references: what region 1's proof data are taken at. -/
abbrev V3 : (c : Dev nD) → (b : Ref sig .tc) → Buf (Elt F) ((c : Thread nD τ).loc b) := fun c b => W3 m ρ c b
/-- The contents region 1 leaves: each of its four arrays at what the write-backs of all the grid's points
    leave there (an input array is never written back, so it is as entered), every other buffer as entered. -/
def W4 (c : Dev nD) : Valuation τ sig (Elt F) :=
  Pipeline.withArrays spec1 c (W3 m ρ c) fun w => (dat1 (V3 m ρ) c).arrAt w cfg1.N
/-- At one of region 1's arrays the exit contents are the proof data's array after the last point. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- At a buffer that is none of region 1's arrays the exit contents are the entry contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents read at the TensorCore's references. -/
abbrev V4 : (c : Dev nD) → (b : Ref sig .tc) → Buf (Elt F) ((c : Thread nD τ).loc b) := fun c b => W4 m ρ c b
/-- The two facts that put region 1's arrays back among the unscoped buffers at its exit: each array holds
    what the pipeline leaves (`hF1`), every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch `hostOps1` does not write is, after it, as before it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The graph is region 1's input window 0: its array is never written back, and the proof data's array
    is the entry contents, so the region leaves the graph as it found it. -/
theorem W4_main_arg2 (c : Dev nD) : W4 m ρ c (Proc.devRef .tc main_arg2) = W3 m ρ c (Proc.devRef .tc main_arg2) :=
  (W4_arr m ρ c 0).trans (((dat1 (V3 m ρ) c).arrAt_in 0 rfl _).trans (A_eq1 (V3 m ρ) c 0))

/-- The contents region 2 is entered from: the boundary before it after the host stretch `hostOps2`. -/
abbrev W5 : Dev nD → Valuation τ sig (Elt F) := fun c => StableHlo.after hostOps2 (W4 m ρ c)
/-- The same, read at the TensorCore's references: what region 2's proof data are taken at. -/
abbrev V5 : (c : Dev nD) → (b : Ref sig .tc) → Buf (Elt F) ((c : Thread nD τ).loc b) := fun c b => W5 m ρ c b
/-- The contents region 2 leaves: each of its four arrays at what the write-backs of all the grid's points
    leave there (an input array is never written back, so it is as entered), every other buffer as entered. -/
def W6 (c : Dev nD) : Valuation τ sig (Elt F) :=
  Pipeline.withArrays spec2 c (W5 m ρ c) fun w => (dat2 (V5 m ρ) c).arrAt w cfg2.N
/-- At one of region 2's arrays the exit contents are the proof data's array after the last point. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- At a buffer that is none of region 2's arrays the exit contents are the entry contents. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Region 2's exit contents read at the TensorCore's references. -/
abbrev V6 : (c : Dev nD) → (b : Ref sig .tc) → Buf (Elt F) ((c : Thread nD τ).loc b) := fun c b => W6 m ρ c b
/-- The two facts that put region 2's arrays back among the unscoped buffers at its exit: each array holds
    what the pipeline leaves (`hF2`), every other buffer what it held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch `hostOps2` does not write is, after it, as before it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The graph is region 2's input window 0: its array is never written back, and the proof data's array
    is the entry contents, so the region leaves the graph as it found it. -/
theorem W6_main_arg2 (c : Dev nD) : W6 m ρ c (Proc.devRef .tc main_arg2) = W5 m ρ c (Proc.devRef .tc main_arg2) :=
  (W6_arr m ρ c 0).trans (((dat2 (V5 m ρ) c).arrAt_in 0 rfl _).trans (A_eq2 (V5 m ρ) c 0))

/-- The contents at the return: the last boundary after the host stretch `hostOps3`. -/
abbrev W7 : Dev nD → Valuation τ sig (Elt F) := fun c => StableHlo.after hostOps3 (W6 m ρ c)
/-- A buffer the host stretch `hostOps3` does not write is, at the return, as region 2 left it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ### The arguments end as launched

No host operation writes an argument, and no region has one among its arrays except the graph, which every region
only reads: the fold at an argument's buffer walks back to the launch memory. -/

theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <|
  (W5_of m ρ c main_arg0 (by decide)).trans <| (W4_of_ne m ρ c main_arg0 (by decide)).trans <|
  (W3_of m ρ c main_arg0 (by decide)).trans <| (W2_of_ne m ρ c main_arg0 (by decide)).trans <|
  (W1_of m ρ c main_arg0 (by decide)).trans rfl

theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <|
  (W5_of m ρ c main_arg1 (by decide)).trans <| (W4_of_ne m ρ c main_arg1 (by decide)).trans <|
  (W3_of m ρ c main_arg1 (by decide)).trans <| (W2_of_ne m ρ c main_arg1 (by decide)).trans <|
  (W1_of m ρ c main_arg1 (by decide)).trans rfl

theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <|
  (W5_of m ρ c main_arg3 (by decide)).trans <| (W4_of_ne m ρ c main_arg3 (by decide)).trans <|
  (W3_of m ρ c main_arg3 (by decide)).trans <| (W2_of_ne m ρ c main_arg3 (by decide)).trans <|
  (W1_of m ρ c main_arg3 (by decide)).trans rfl

theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <|
  (W5_of m ρ c main_arg4 (by decide)).trans <| (W4_of_ne m ρ c main_arg4 (by decide)).trans <|
  (W3_of m ρ c main_arg4 (by decide)).trans <| (W2_of_ne m ρ c main_arg4 (by decide)).trans <|
  (W1_of m ρ c main_arg4 (by decide)).trans rfl

theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <|
  (W5_of m ρ c main_arg5 (by decide)).trans <| (W4_of_ne m ρ c main_arg5 (by decide)).trans <|
  (W3_of m ρ c main_arg5 (by decide)).trans <| (W2_of_ne m ρ c main_arg5 (by decide)).trans <|
  (W1_of m ρ c main_arg5 (by decide)).trans rfl

theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <|
  (W5_of m ρ c main_arg6 (by decide)).trans <| (W4_of_ne m ρ c main_arg6 (by decide)).trans <|
  (W3_of m ρ c main_arg6 (by decide)).trans <| (W2_of_ne m ρ c main_arg6 (by decide)).trans <|
  (W1_of m ρ c main_arg6 (by decide)).trans rfl

theorem W7_main_arg2 (c : Dev nD) : W7 m ρ c (Proc.devRef .tc main_arg2) = m ((c : Thread nD τ).loc main_arg2) :=
  (W7_of m ρ c main_arg2 (by decide)).trans <| (W6_main_arg2 m ρ c).trans <|
  (W5_of m ρ c main_arg2 (by decide)).trans <| (W4_main_arg2 m ρ c).trans <|
  (W3_of m ρ c main_arg2 (by decide)).trans <| (W2_main_arg2 m ρ c).trans <|
  (W1_of m ρ c main_arg2 (by decide)).trans rfl

/-! ## The proof data family and the thread state -/

/-- Every pipeline's proof data, each at the contents its region is entered from. A literal match on the pipeline's
    index, so that at a numeral it reduces to that region's proof data. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's class
    invariant takes it in and gives it back) and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the contents at the return, the generator
    register at some state. -/
abbrev Tₙ (c : Dev nD) : sProp 𝕄 := iprop(StableHlo.held (c : Thread nD τ) (Pipeline.ucRefs τ sig) (W7 m ρ c) ∗ ∃ r, prngReg c r)

/-! ## The regions as segments -/

/-- Nothing is owed before region 0's first point and its bound on the recorded pairs is everything: a core owing
    nothing, whatever pairs its waits have recorded, owes what the proof data says at the first point. -/
theorem owes_in0 (V : (c : Dev nD) → (b : Ref sig .tc) → Buf (Elt F) ((c : Thread nD τ).loc b)) (c : Dev nD) :
    (iprop(∃ W, owes (c : Thread nD τ) (0 : CellTallies nD τ sig Unit) W) : sProp 𝕄) ⊢ (dat0 V c).owesAt () 0 := by
  unfold Pipeline.Dat.owesAt Pipeline.owesWithin Pipeline.Dat.bound
  rw [owed0 V c 0, recorded0 V c 0]
  iintro ⟨%W, HO⟩; iexists W; isplitr; · ipureintro; exact fun _ _ => Or.inl trivial
  iexact HO
/-- Nothing is owed after region 0's last point either. -/
theorem owes_out0 (V : (c : Dev nD) → (b : Ref sig .tc) → Buf (Elt F) ((c : Thread nD τ).loc b)) (c : Dev nD) :
    (dat0 V c).owesAt () (Fin.last cfg0.N) ⊢ (iprop(∃ W, owes (c : Thread nD τ) (0 : CellTallies nD τ sig Unit) W) : sProp 𝕄) := by
  unfold Pipeline.Dat.owesAt Pipeline.owesWithin
  rw [owed0 V c (Fin.last cfg0.N)]
  iintro ⟨%W, -, HO⟩; iexists W; iexact HO

-- applying a library lemma stated over the pinned configuration `pin pcs a p` unifies with the printed configuration
-- only when unification may unfold plain definitions in a metavariable's type
set_option backward.isDefEq.respectTransparency.types false in
/-- REGION 0 over the thread state: entered from every unscoped buffer at `W1`, left with them at `W2`. At entry its
    four arrays are split out of the unscoped buffers (they hold the proof data's entry contents, `A_eq0`, at the full
    share, `share0`); the generator register and the scoped buffers no window stages make the class invariant, from which
    the proof data's invariant at the first point follows (`hin0`); at the last point it gives the class invariant back
    (`hout0`), and the arrays return to the unscoped buffers at the exit contents. Nothing is owed at any point
    (`owed0`), and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero (pcfgs (F := F)) adm (pdats m ρ) () L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (V1 m ρ) c w) (V1 m ρ c) fun w => A_eq0 (V1 m ρ) c w
    rw [Pipeline.unscopedBufs_held] at hsplit
    have hO : (iprop(∃ W, owes (c : Thread nD τ) (0 : CellTallies nD τ sig Unit) W) : sProp 𝕄) ⊢ (pdats m ρ 0 c).owesAt () 0 :=
      owes_in0 (V1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    show _ ⊢ (dat0 (V1 m ρ) c).Φ 0
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    show (dat0 (V1 m ρ) c).Φ (Fin.last cfg0.N) ⊢ _
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => share0 (V1 m ρ) c w)
      (V1 m ρ c) (V2 m ρ c) ((pdats m ρ 0 c).arrAt · cfg0.N) (hF0 m ρ c) (hrest0 m ρ c)
    rw [Pipeline.unscopedBufs_held] at hjoin
    have hO : (pdats m ρ 0 c).owesAt () (Fin.last (Pipeline.pin (pcfgs (F := F)) adm 0).N)
        ⊢ (iprop(∃ W, owes (c : Thread nD τ) (0 : CellTallies nD τ sig Unit) W) : sProp 𝕄) := owes_out0 (V1 m ρ) c
    iintro ⟨Ha, HO, HY, Hrest⟩
    imodintro
    isplitl [Ha Hrest]
    · iapply hjoin; isplitl [Ha] <;> iassumption
    isplitl [HY]; · iexact HY
    iapply hO; iexact HO

/-- Nothing is owed before region 1's first point and its bound on the recorded pairs is everything: a core owing
    nothing, whatever pairs its waits have recorded, owes what the proof data says at the first point. -/
theorem owes_in1 (V : (c : Dev nD) → (b : Ref sig .tc) → Buf (Elt F) ((c : Thread nD τ).loc b)) (c : Dev nD) :
    (iprop(∃ W, owes (c : Thread nD τ) (0 : CellTallies nD τ sig Unit) W) : sProp 𝕄) ⊢ (dat1 V c).owesAt () 0 := by
  unfold Pipeline.Dat.owesAt Pipeline.owesWithin Pipeline.Dat.bound
  rw [owed1 V c 0, recorded1 V c 0]
  iintro ⟨%W, HO⟩; iexists W; isplitr; · ipureintro; exact fun _ _ => Or.inl trivial
  iexact HO
/-- Nothing is owed after region 1's last point either. -/
theorem owes_out1 (V : (c : Dev nD) → (b : Ref sig .tc) → Buf (Elt F) ((c : Thread nD τ).loc b)) (c : Dev nD) :
    (dat1 V c).owesAt () (Fin.last cfg1.N) ⊢ (iprop(∃ W, owes (c : Thread nD τ) (0 : CellTallies nD τ sig Unit) W) : sProp 𝕄) := by
  unfold Pipeline.Dat.owesAt Pipeline.owesWithin
  rw [owed1 V c (Fin.last cfg1.N)]
  iintro ⟨%W, -, HO⟩; iexists W; iexact HO

-- applying a library lemma stated over the pinned configuration `pin pcs a p` unifies with the printed configuration
-- only when unification may unfold plain definitions in a metavariable's type
set_option backward.isDefEq.respectTransparency.types false in
/-- REGION 1 over the thread state: entered from every unscoped buffer at `W3`, left with them at `W4`. At entry its
    four arrays are split out of the unscoped buffers (they hold the proof data's entry contents, `A_eq1`, at the full
    share, `share1`); the generator register and the scoped buffers no window stages make the class invariant, from which
    the proof data's invariant at the first point follows (`hin1`); at the last point it gives the class invariant back
    (`hout1`), and the arrays return to the unscoped buffers at the exit contents. Nothing is owed at any point
    (`owed1`), and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero (pcfgs (F := F)) adm (pdats m ρ) () L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => share1 (V3 m ρ) c w) (V3 m ρ c) fun w => A_eq1 (V3 m ρ) c w
    rw [Pipeline.unscopedBufs_held] at hsplit
    have hO : (iprop(∃ W, owes (c : Thread nD τ) (0 : CellTallies nD τ sig Unit) W) : sProp 𝕄) ⊢ (pdats m ρ 1 c).owesAt () 0 :=
      owes_in1 (V3 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    show _ ⊢ (dat1 (V3 m ρ) c).Φ 0
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    show (dat1 (V3 m ρ) c).Φ (Fin.last cfg1.N) ⊢ _
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => share1 (V3 m ρ) c w)
      (V3 m ρ c) (V4 m ρ c) ((pdats m ρ 1 c).arrAt · cfg1.N) (hF1 m ρ c) (hrest1 m ρ c)
    rw [Pipeline.unscopedBufs_held] at hjoin
    have hO : (pdats m ρ 1 c).owesAt () (Fin.last (Pipeline.pin (pcfgs (F := F)) adm 1).N)
        ⊢ (iprop(∃ W, owes (c : Thread nD τ) (0 : CellTallies nD τ sig Unit) W) : sProp 𝕄) := owes_out1 (V3 m ρ) c
    iintro ⟨Ha, HO, HY, Hrest⟩
    imodintro
    isplitl [Ha Hrest]
    · iapply hjoin; isplitl [Ha] <;> iassumption
    isplitl [HY]; · iexact HY
    iapply hO; iexact HO

/-- Nothing is owed before region 2's first point and its bound on the recorded pairs is everything: a core owing
    nothing, whatever pairs its waits have recorded, owes what the proof data says at the first point. -/
theorem owes_in2 (V : (c : Dev nD) → (b : Ref sig .tc) → Buf (Elt F) ((c : Thread nD τ).loc b)) (c : Dev nD) :
    (iprop(∃ W, owes (c : Thread nD τ) (0 : CellTallies nD τ sig Unit) W) : sProp 𝕄) ⊢ (dat2 V c).owesAt () 0 := by
  unfold Pipeline.Dat.owesAt Pipeline.owesWithin Pipeline.Dat.bound
  rw [owed2 V c 0, recorded2 V c 0]
  iintro ⟨%W, HO⟩; iexists W; isplitr; · ipureintro; exact fun _ _ => Or.inl trivial
  iexact HO
/-- Nothing is owed after region 2's last point either. -/
theorem owes_out2 (V : (c : Dev nD) → (b : Ref sig .tc) → Buf (Elt F) ((c : Thread nD τ).loc b)) (c : Dev nD) :
    (dat2 V c).owesAt () (Fin.last cfg2.N) ⊢ (iprop(∃ W, owes (c : Thread nD τ) (0 : CellTallies nD τ sig Unit) W) : sProp 𝕄) := by
  unfold Pipeline.Dat.owesAt Pipeline.owesWithin
  rw [owed2 V c (Fin.last cfg2.N)]
  iintro ⟨%W, -, HO⟩; iexists W; iexact HO

-- applying a library lemma stated over the pinned configuration `pin pcs a p` unifies with the printed configuration
-- only when unification may unfold plain definitions in a metavariable's type
set_option backward.isDefEq.respectTransparency.types false in
/-- REGION 2 over the thread state: entered from every unscoped buffer at `W5`, left with them at `W6`. At entry its
    four arrays are split out of the unscoped buffers (they hold the proof data's entry contents, `A_eq2`, at the full
    share, `share2`); the generator register and the scoped buffers no window stages make the class invariant, from which
    the proof data's invariant at the first point follows (`hin2`); at the last point it gives the class invariant back
    (`hout2`), and the arrays return to the unscoped buffers at the exit contents. Nothing is owed at any point
    (`owed2`), and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero (pcfgs (F := F)) adm (pdats m ρ) () L lv 2 fun c t => owed2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => share2 (V5 m ρ) c w) (V5 m ρ c) fun w => A_eq2 (V5 m ρ) c w
    rw [Pipeline.unscopedBufs_held] at hsplit
    have hO : (iprop(∃ W, owes (c : Thread nD τ) (0 : CellTallies nD τ sig Unit) W) : sProp 𝕄) ⊢ (pdats m ρ 2 c).owesAt () 0 :=
      owes_in2 (V5 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    show _ ⊢ (dat2 (V5 m ρ) c).Φ 0
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    show (dat2 (V5 m ρ) c).Φ (Fin.last cfg2.N) ⊢ _
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => share2 (V5 m ρ) c w)
      (V5 m ρ c) (V6 m ρ c) ((pdats m ρ 2 c).arrAt · cfg2.N) (hF2 m ρ c) (hrest2 m ρ c)
    rw [Pipeline.unscopedBufs_held] at hjoin
    have hO : (pdats m ρ 2 c).owesAt () (Fin.last (Pipeline.pin (pcfgs (F := F)) adm 2).N)
        ⊢ (iprop(∃ W, owes (c : Thread nD τ) (0 : CellTallies nD τ sig Unit) W) : sProp 𝕄) := owes_out2 (V5 m ρ) c
    iintro ⟨Ha, HO, HY, Hrest⟩
    imodintro
    isplitl [Ha Hrest]
    · iapply hjoin; isplitl [Ha] <;> iassumption
    isplitl [HY]; · iexact HY
    iapply hO; iexact HO

/-! ## @main as segments, and the launch -/

/-- The thread state the last host stretch leaves is the last thread state beside the core owing nothing. -/
theorem last_state (c : Dev nD) :
    (iprop(StableHlo.held (c : Thread nD τ) (Pipeline.ucRefs τ sig) (W7 m ρ c) ∗ R c) : sProp 𝕄)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-- @main's seven segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments: it is the chain of its seven items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and every final state has each unscoped buffer of each core at the
    contents the fold gives at the return (`W7`). -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME, at any float instance: every execution of @main terminates, nothing faulting, and every final state has
    the seven argument arrays as launched — each read off the run's last contents and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.KernelIdeal.Fr

end
-- ==== Proof.HostKI.lean ====
import proofs.«154284_j13134009991420_2_alg».proof.Proof.RunKI
import Idealize.ShloMosaic.Lib.StableHlo.Run

/-!
# What the host stretches compute

The contents at each segment boundary are a fold from the launch memory; here the fold is read at the buffers the
value of the program goes through. Before region 0 the two embedding tables are stacked (rows 0–7999 the users',
rows 8000–15999 the items'), the bias becomes a 1×64 row, and the stacked table is multiplied by the weight; between
regions the running sum of layers takes the last region's output and that output is multiplied by the weight again;
after region 2 the last stretch adds the last output, divides by 4, takes the two halves, gathers a row of each
half per (user, item) pair — a negative index counted from the end of its half — and sums the products of the
gathered rows along the 64 features. Every argument array is at every boundary as launched.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The arguments at every boundary

No host operation writes an argument; a region changes none of them (the graph is an input window's array, the
others are none of its arrays). -/
theorem W1_main_arg0 (c : Dev nD) : W1 m ρ c (Proc.devRef .tc main_arg0) = m ((c : Thread nD τ).loc main_arg0) :=
  (W1_of m ρ c main_arg0 (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W1_main_arg1 (c : Dev nD) : W1 m ρ c (Proc.devRef .tc main_arg1) = m ((c : Thread nD τ).loc main_arg1) :=
  (W1_of m ρ c main_arg1 (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W1_main_arg2 (c : Dev nD) : W1 m ρ c (Proc.devRef .tc main_arg2) = m ((c : Thread nD τ).loc main_arg2) :=
  (W1_of m ρ c main_arg2 (by decide)).trans rfl
theorem W2_main_arg2_launch (c : Dev nD) : W2 m ρ c (Proc.devRef .tc main_arg2) = m ((c : Thread nD τ).loc main_arg2) :=
  (W2_main_arg2 m ρ c).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2_launch m ρ c)
theorem W4_main_arg2_launch (c : Dev nD) : W4 m ρ c (Proc.devRef .tc main_arg2) = m ((c : Thread nD τ).loc main_arg2) :=
  (W4_main_arg2 m ρ c).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2_launch m ρ c)
theorem W6_main_arg2_launch (c : Dev nD) : W6 m ρ c (Proc.devRef .tc main_arg2) = m ((c : Thread nD τ).loc main_arg2) :=
  (W6_main_arg2 m ρ c).trans (W5_main_arg2 m ρ c)
theorem W1_main_arg3 (c : Dev nD) : W1 m ρ c (Proc.devRef .tc main_arg3) = m ((c : Thread nD τ).loc main_arg3) :=
  (W1_of m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W1_main_arg4 (c : Dev nD) : W1 m ρ c (Proc.devRef .tc main_arg4) = m ((c : Thread nD τ).loc main_arg4) :=
  (W1_of m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W1_main_arg5 (c : Dev nD) : W1 m ρ c (Proc.devRef .tc main_arg5) = m ((c : Thread nD τ).loc main_arg5) :=
  (W1_of m ρ c main_arg5 (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W1_main_arg6 (c : Dev nD) : W1 m ρ c (Proc.devRef .tc main_arg6) = m ((c : Thread nD τ).loc main_arg6) :=
  (W1_of m ρ c main_arg6 (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)

/-- At every region's entry the graph is as launched. -/
theorem V1_main_arg2 (c : Dev nD) : V1 m ρ c main_arg2 = m ((c : Thread nD τ).loc main_arg2) := W1_main_arg2 m ρ c
theorem V3_main_arg2 (c : Dev nD) : V3 m ρ c main_arg2 = m ((c : Thread nD τ).loc main_arg2) := W3_main_arg2 m ρ c
theorem V5_main_arg2 (c : Dev nD) : V5 m ρ c main_arg2 = m ((c : Thread nD τ).loc main_arg2) := W5_main_arg2 m ρ c

/-- The bias row is region 0's input window 2: its array is never written back. -/
theorem W2_main_v1 (c : Dev nD) : W2 m ρ c (Proc.devRef .tc main_v1) = W1 m ρ c (Proc.devRef .tc main_v1) :=
  (W2_arr m ρ c 2).trans (((dat0 (V1 m ρ) c).arrAt_in 2 rfl _).trans (A_eq0 (V1 m ρ) c 2))
/-- The bias row is region 1's input window 2: its array is never written back. -/
theorem W4_main_v1 (c : Dev nD) : W4 m ρ c (Proc.devRef .tc main_v1) = W3 m ρ c (Proc.devRef .tc main_v1) :=
  (W4_arr m ρ c 2).trans (((dat1 (V3 m ρ) c).arrAt_in 2 rfl _).trans (A_eq1 (V3 m ρ) c 2))
/-- The bias row is region 2's input window 2: its array is never written back. -/
theorem W6_main_v1 (c : Dev nD) : W6 m ρ c (Proc.devRef .tc main_v1) = W5 m ρ c (Proc.devRef .tc main_v1) :=
  (W6_arr m ρ c 2).trans (((dat2 (V5 m ρ) c).arrAt_in 2 rfl _).trans (A_eq2 (V5 m ρ) c 2))

/-! ## Before region 0 -/

/-- The stacked embedding table: the users' rows, then the items'. -/
theorem V1_main_v0 (c : Dev nD) : (V1 m ρ c main_v0 : (⟨S16000x64, .f32⟩ : BufTy).Contents (Elt F)) =
    concatenate S16000x64 0 [⟨S8000x64, (m ((c : Thread nD τ).loc main_arg3) : (⟨S8000x64, .f32⟩ : BufTy).Contents (Elt F))⟩,
      ⟨S8000x64, (m ((c : Thread nD τ).loc main_arg4) : (⟨S8000x64, .f32⟩ : BufTy).Contents (Elt F))⟩] concatenates_S8000x64_S8000x64_S16000x64_d0 := by
  show StableHlo.after hostOps0 _ (Proc.devRef .tc main_v0) = _
  after_results
/-- The bias as a 1×64 row. -/
theorem V1_main_v1 (c : Dev nD) : (V1 m ρ c main_v1 : (⟨S1x64, .f32⟩ : BufTy).Contents (Elt F)) =
    shapeCast S1x64 (m ((c : Thread nD τ).loc main_arg6) : (⟨S64, .f32⟩ : BufTy).Contents (Elt F)) shapeCasts_S64_S1x64 := by
  show StableHlo.after hostOps0 _ (Proc.devRef .tc main_v1) = _
  after_results; rfl
/-- The stacked table times the weight: region 0's dense operand. -/
theorem V1_main_v2 (c : Dev nD) : (V1 m ρ c main_v2 : (⟨S16000x64, .f32⟩ : BufTy).Contents (Elt F)) =
    Host.dotGeneral (F := F) dot_S16000x64_S64x64_S16000x64_1_0_0_1_n_n none (V1 m ρ c main_v0 : (⟨S16000x64, .f32⟩ : BufTy).Contents (Elt F)) (m ((c : Thread nD τ).loc main_arg5) : (⟨S64x64, .f32⟩ : BufTy).Contents (Elt F)) := by
  show StableHlo.after hostOps0 _ (Proc.devRef .tc main_v2) = _
  after_results; rfl

/-! ## Between regions 0 and 1 -/

/-- The bias row is not touched after it is made. -/
theorem V3_main_v1 (c : Dev nD) : V3 m ρ c main_v1 = V1 m ρ c main_v1 :=
  (W3_of m ρ c main_v1 (by decide)).trans (W2_main_v1 m ρ c)
/-- The running sum after layer 1: the stacked table plus region 0's output. -/
theorem V3_main_v4 (c : Dev nD) : (V3 m ρ c main_v4 : (⟨S16000x64, .f32⟩ : BufTy).Contents (Elt F)) =
    addf (F := F) (V1 m ρ c main_v0 : (⟨S16000x64, .f32⟩ : BufTy).Contents (Elt F)) (W2 m ρ c main_v3 : (⟨S16000x64, .f32⟩ : BufTy).Contents (Elt F)) := by
  show StableHlo.after hostOps1 _ (Proc.devRef .tc main_v4) = _
  after_results
  rw [W2_of_ne m ρ c main_v0 (by decide)]
/-- Region 0's output times the weight: region 1's dense operand. -/
theorem V3_main_v5 (c : Dev nD) : (V3 m ρ c main_v5 : (⟨S16000x64, .f32⟩ : BufTy).Contents (Elt F)) =
    Host.dotGeneral (F := F) dot_S16000x64_S64x64_S16000x64_1_0_0_1_n_n none (W2 m ρ c main_v3 : (⟨S16000x64, .f32⟩ : BufTy).Contents (Elt F)) (m ((c : Thread nD τ).loc main_arg5) : (⟨S64x64, .f32⟩ : BufTy).Contents (Elt F)) := by
  show StableHlo.after hostOps1 _ (Proc.devRef .tc main_v5) = _
  after_results
  rw [W2_main_arg5 m ρ c]

/-! ## Between regions 1 and 2 -/

theorem V5_main_v1 (c : Dev nD) : V5 m ρ c main_v1 = V1 m ρ c main_v1 :=
  (W5_of m ρ c main_v1 (by decide)).trans ((W4_main_v1 m ρ c).trans (V3_main_v1 m ρ c))
/-- The running sum after layer 2. -/
theorem V5_main_v7 (c : Dev nD) : (V5 m ρ c main_v7 : (⟨S16000x64, .f32⟩ : BufTy).Contents (Elt F)) =
    addf (F := F) (V3 m ρ c main_v4 : (⟨S16000x64, .f32⟩ : BufTy).Contents (Elt F)) (W4 m ρ c main_v6 : (⟨S16000x64, .f32⟩ : BufTy).Contents (Elt F)) := by
  show StableHlo.after hostOps2 _ (Proc.devRef .tc main_v7) = _
  after_results
  rw [W4_of_ne m ρ c main_v4 (by decide)]
/-- Region 1's output times the weight: region 2's dense operand. -/
theorem V5_main_v8 (c : Dev nD) : (V5 m ρ c main_v8 : (⟨S16000x64, .f32⟩ : BufTy).Contents (Elt F)) =
    Host.dotGeneral (F := F) dot_S16000x64_S64x64_S16000x64_1_0_0_1_n_n none (W4 m ρ c main_v6 : (⟨S16000x64, .f32⟩ : BufTy).Contents (Elt F)) (m ((c : Thread nD τ).loc main_arg5) : (⟨S64x64, .f32⟩ : BufTy).Contents (Elt F)) := by
  show StableHlo.after hostOps2 _ (Proc.devRef .tc main_v8) = _
  after_results
  rw [W4_main_arg5 m ρ c]

/-! ## After region 2 -/

/-- The last host stretch as one function of what it reads: the running sum after layer 2 (`acc7`), region 2's
    output (`e9`) and the two index vectors. The mean of the four layers, its two halves, each index vector with its
    negative entries counted from the end of a half (+8000), one row of each half per pair, and the sum of the rows'
    products along the features. -/
def hostTail (acc7 e9 : (⟨S16000x64, .f32⟩ : BufTy).Contents (Elt F)) (users items : (⟨S4096, .i32⟩ : BufTy).Contents (Elt F)) : (⟨S4096, .f32⟩ : BufTy).Contents (Elt F) :=
  let v10 : (⟨S16000x64, .f32⟩ : BufTy).Contents (Elt F) := addf (F := F) acc7 e9
  let v11 : (⟨S16000x64, .f32⟩ : BufTy).Contents (Elt F) := broadcastInDim S16000x64 ![] bcast_S_S16000x64 (constant (F := F) S_ .f32 0x40800000#32 : (⟨S_, .f32⟩ : BufTy).Contents (Elt F))
  let v12 : (⟨S16000x64, .f32⟩ : BufTy).Contents (Elt F) := Host.divf (F := F) v10 v11
  let v13 : (⟨S8000x64, .f32⟩ : BufTy).Contents (Elt F) := extractStridedSlice S8000x64 ![0, 0] v12 slices_S16000x64_S8000x64_0_0
  let v14 : (⟨S8000x64, .f32⟩ : BufTy).Contents (Elt F) := extractStridedSlice S8000x64 ![8000, 0] v12 slices_S16000x64_S8000x64_8000_0
  let v15 : (⟨S4096, .i32⟩ : BufTy).Contents (Elt F) := broadcastInDim S4096 ![] bcast_S_S4096 (constantI S_ 32 0#32 : (⟨S_, .i32⟩ : BufTy).Contents (Elt F))
  let v16 : (⟨S4096, .i1⟩ : BufTy).Contents (Elt F) := cmpi .slt users v15
  let v17 : (⟨S4096, .i32⟩ : BufTy).Contents (Elt F) := broadcastInDim S4096 ![] bcast_S_S4096 (constantI S_ 32 8000#32 : (⟨S_, .i32⟩ : BufTy).Contents (Elt F))
  let v18 : (⟨S4096, .i32⟩ : BufTy).Contents (Elt F) := addi users v17
  let v19 : (⟨S4096, .i32⟩ : BufTy).Contents (Elt F) := select v16 v18 users
  let v20 : (⟨S4096x1, .i32⟩ : BufTy).Contents (Elt F) := broadcastInDim S4096x1 ![0] bcast_S4096_S4096x1_0 v19
  let v21 : (⟨S4096x64, .f32⟩ : BufTy).Contents (Elt F) := Host.gather gather_S8000x64_S4096x1_S4096x64_1_0_n_n_0_1_164 v13 v20
  let v22 : (⟨S4096, .i32⟩ : BufTy).Contents (Elt F) := broadcastInDim S4096 ![] bcast_S_S4096 (constantI S_ 32 0#32 : (⟨S_, .i32⟩ : BufTy).Contents (Elt F))
  let v23 : (⟨S4096, .i1⟩ : BufTy).Contents (Elt F) := cmpi .slt items v22
  let v24 : (⟨S4096, .i32⟩ : BufTy).Contents (Elt F) := broadcastInDim S4096 ![] bcast_S_S4096 (constantI S_ 32 8000#32 : (⟨S_, .i32⟩ : BufTy).Contents (Elt F))
  let v25 : (⟨S4096, .i32⟩ : BufTy).Contents (Elt F) := addi items v24
  let v26 : (⟨S4096, .i32⟩ : BufTy).Contents (Elt F) := select v23 v25 items
  let v27 : (⟨S4096x1, .i32⟩ : BufTy).Contents (Elt F) := broadcastInDim S4096x1 ![0] bcast_S4096_S4096x1_0 v26
  let v28 : (⟨S4096x64, .f32⟩ : BufTy).Contents (Elt F) := Host.gather gather_S8000x64_S4096x1_S4096x64_1_0_n_n_0_1_164 v14 v27
  let v29 : (⟨S4096x64, .f32⟩ : BufTy).Contents (Elt F) := mulf (F := F) v21 v28
  Host.reduceAdd (F := F) v29 (constant (F := F) S_ .f32 0x00000000#32 : (⟨S_, .f32⟩ : BufTy).Contents (Elt F)) reducesTo_S4096x64_S4096_d1 h_S_

/-- The result buffer at the return: the last stretch's function of the running sum, region 2's output and the two
    index vectors as launched. -/
theorem W7_main_v30 (c : Dev nD) : (W7 m ρ c main_v30 : (⟨S4096, .f32⟩ : BufTy).Contents (Elt F)) =
    hostTail (F := F) (V5 m ρ c main_v7 : (⟨S16000x64, .f32⟩ : BufTy).Contents (Elt F)) (W6 m ρ c main_v9 : (⟨S16000x64, .f32⟩ : BufTy).Contents (Elt F))
      (m ((c : Thread nD τ).loc main_arg0) : (⟨S4096, .i32⟩ : BufTy).Contents (Elt F)) (m ((c : Thread nD τ).loc main_arg1) : (⟨S4096, .i32⟩ : BufTy).Contents (Elt F)) := by
  show StableHlo.after hostOps3 _ (Proc.devRef .tc main_v30) = _
  after_results_simp
  rw [W6_of_ne m ρ c main_v7 (by decide), W6_main_arg0 m ρ c, W6_main_arg1 m ρ c]
  rfl

end Cert.KernelIdeal.Fr

end
-- ==== Proof.ValP0.lean ====
/-
  Region 0 read as values.  What each case of the body leaves (the accumulator: the product of the point's matrix
  block with rows 3200·(t % 5) … of the tall operand, added to what it held — to zero in case A; the output block in
  case C: relu of the accumulator plus the bias row), the accumulator after every grid point by recursion on the
  point, and — index by index on the extended reals — that after the last column block it holds the whole
  contraction over 16000, so that the region's output array ends as Spec.layer of the region's three input arrays.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.Fr0
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- The rows of the tall operand a point multiplies by: 3200 rows from row 3200 · (column block). -/
abbrev hrect0 (i : grid0.Coords) : Rect S16000x64 := Rect.unit (s := S16000x64) (k0_off1 i) S3200x64.size (k0_off1_inb i)

/-! ## The three cases' values, at any float instance -/

theorem soutB0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : ¬cond0_1 i) (x0 : Vec F S1600x3200 .f32) (x1 : Vec F S16000x64 .f32) (x2 : Vec F S1x64 .f32) (xs0 : Vec F S1600x64 .f32) :
    sout0_B_0 c i arg2 harg2 arg3 harg3 arg4 harg4 arg5 harg5 arg6 harg6 hc0 hc1 x0 x1 x2 xs0 = k0_pay2 x0 (View.ld x1 (hrect0 i)) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg6.read_unread,
    View.ld_unit_zero (S := S1600x3200) hz2, View.ld_unit_zero (S := S1600x64) hz2]

theorem soutC0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i) (x0 : Vec F S1600x3200 .f32) (x1 : Vec F S16000x64 .f32) (x2 : Vec F S1x64 .f32) (xs0 : Vec F S1600x64 .f32) :
    sout0_C_0 c i arg2 harg2 arg3 harg3 arg4 harg4 arg5 harg5 arg6 harg6 hc0 hc1 x0 x1 x2 xs0 = k0_pay2 x0 (View.ld x1 (hrect0 i)) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_run_names
  rw [View.canon_unit_zero hz2]
  simp only [View.readAt_eq_ld, harg2.read_unread, harg3.read_unread, harg6.read_unread,
    View.ld_unit_zero (S := S1600x3200) hz2, View.ld_unit_zero (S := S1600x64) hz2]

theorem outC0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond0_0 i) (hc1 : cond0_1 i) (x0 : Vec F S1600x3200 .f32) (x1 : Vec F S16000x64 .f32) (x2 : Vec F S1x64 .f32) (xs0 : Vec F S1600x64 .f32) :
    out0_C_3 c i arg2 harg2 arg3 harg3 arg4 harg4 arg5 harg5 arg6 harg6 hc0 hc1 x0 x1 x2 xs0 = k0_pay3 (k0_pay2 x0 (View.ld x1 (hrect0 i)) xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_run_names
  rw [View.canon_unit_zero hz2, View.readCov_unit_zero (S := S1600x64) _ hz2]
  simp only [View.readAt_eq_ld, harg2.read_unread, harg3.read_unread, harg4.read_unread, harg6.read_unread,
    View.ld_unit_zero (S := S1600x3200) hz2, View.ld_unit_zero (S := S1600x64) hz2, View.ld_unit_zero (S := S1x64) hz2]

theorem soutA0 (c : Dev nD) (i : grid0.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond0_0 i) (hc1 : ¬cond0_1 i) (x0 : Vec F S1600x3200 .f32) (x1 : Vec F S16000x64 .f32) (x2 : Vec F S1x64 .f32) :
    sout0_A_0 c i arg2 harg2 arg3 harg3 arg4 harg4 arg5 harg5 arg6 harg6 hc0 hc1 x0 x1 x2 = k0_pay2 x0 (View.ld x1 (hrect0 i)) (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_run_names
  rw [View.canon_cons_unit_zero (S := S1600x64) hz2, View.readCov_unit_zero (S := S1600x64) _ hz2]
  simp only [View.readAt_eq_ld, harg2.read_unread, harg3.read_unread,
    View.ld_unit_zero (S := S1600x3200) hz2, View.ld_unit_zero (S := S1600x64) hz2]

section
variable (V : (c : Dev nD) → (b : Ref sig .tc) → Buf (Elt F) ((c : Thread nD τ).loc b))

/-! ## The accumulator after every grid point -/

/-- The point's three input blocks at the body's vector types: the matrix block, the 3200 rows of the tall operand the
    point multiplies by, and the bias row. -/
abbrev tileG0 (c : Dev nD) (t : Fin cfg0.N) : Vec F S1600x3200 .f32 := iblk0 V c 0 t
abbrev tileH0 (c : Dev nD) (t : Fin cfg0.N) : Vec F S3200x64 .f32 :=
  View.ld (iblk0 V c 1 t : Vec F S16000x64 .f32) (hrect0 (grid0.coords t))
abbrev rowB0 (c : Dev nD) (t : Fin cfg0.N) : Vec F S1x64 .f32 := iblk0 V c 2 t

/-- The accumulator after position n: the point's product added to zero at the first column block, to what the point
    before left otherwise. -/
def accv0 (c : Dev nD) : (n : ℕ) → n < cfg0.N → Vec F S1600x64 .f32
  | 0, h => k0_pay2 (tileG0 V c ⟨0, h⟩) (tileH0 V c ⟨0, h⟩) (k0_pay1 (F := F))
  | n + 1, h =>
    if (n + 1) % 5 = 0 then k0_pay2 (tileG0 V c ⟨n + 1, h⟩) (tileH0 V c ⟨n + 1, h⟩) (k0_pay1 (F := F))
    else k0_pay2 (tileG0 V c ⟨n + 1, h⟩) (tileH0 V c ⟨n + 1, h⟩) (accv0 c n (Nat.lt_of_succ_lt h))

theorem accv0_succ_pos (c : Dev nD) (n : ℕ) (h : n + 1 < cfg0.N) (h0 : (n + 1) % 5 = 0) :
    accv0 V c (n + 1) h = k0_pay2 (tileG0 V c ⟨n + 1, h⟩) (tileH0 V c ⟨n + 1, h⟩) (k0_pay1 (F := F)) := by
  rw [accv0, if_pos h0]
theorem accv0_succ_neg (c : Dev nD) (n : ℕ) (h : n + 1 < cfg0.N) (h0 : ¬(n + 1) % 5 = 0) :
    accv0 V c (n + 1) h = k0_pay2 (tileG0 V c ⟨n + 1, h⟩) (tileH0 V c ⟨n + 1, h⟩) (accv0 V c n (Nat.lt_of_succ_lt h)) := by
  rw [accv0, if_neg h0]

-- The three cases at a grid point, read as values.
set_option maxHeartbeats 1600000 in
theorem outsA0_snd (c : Dev nD) (t : Fin cfg0.N) (h0 : t.val % 5 = 0) (h1 : ¬t.val % 5 = 4) :
    (outsA0 V c t h0 h1).2 = k0_pay2 (tileG0 V c t) (tileH0 V c t) (k0_pay1 (F := F)) := by
  unfold outsA0 tileG0 tileH0
  exact soutA0 (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)
set_option maxHeartbeats 1600000 in
theorem outsB0_snd (c : Dev nD) (t : Fin cfg0.N) (h0 : ¬t.val % 5 = 0) (h1 : ¬t.val % 5 = 4) (xs : Vec F S1600x64 .f32) :
    (outsB0 V c t h0 h1 xs).2 = k0_pay2 (tileG0 V c t) (tileH0 V c t) xs := by
  unfold outsB0 tileG0 tileH0
  exact soutB0 (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs
set_option maxHeartbeats 1600000 in
theorem outsC0_snd (c : Dev nD) (t : Fin cfg0.N) (h0 : ¬t.val % 5 = 0) (h1 : t.val % 5 = 4) (xs : Vec F S1600x64 .f32) :
    (outsC0 V c t h0 h1 xs).2 = k0_pay2 (tileG0 V c t) (tileH0 V c t) xs := by
  unfold outsC0 tileG0 tileH0
  exact soutC0 (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs
set_option maxHeartbeats 1600000 in
theorem outsC0_fst (c : Dev nD) (t : Fin cfg0.N) (h0 : ¬t.val % 5 = 0) (h1 : t.val % 5 = 4) (xs : Vec F S1600x64 .f32) :
    (outsC0 V c t h0 h1 xs).1 = k0_pay3 (k0_pay2 (tileG0 V c t) (tileH0 V c t) xs) (rowB0 V c t) := by
  unfold outsC0 tileG0 tileH0 rowB0
  exact outC0 (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs

/-- The accumulation's second component is that accumulator — by induction on the point. -/
theorem outsAt0_acc (c : Dev nD) : ∀ (n : ℕ) (h : n < cfg0.N), (outsAt0 V c n h).2 = accv0 V c n h
  | 0, h => by
    rw [outsAt0_A V c ⟨0, h⟩ (Nat.zero_mod _) (by show ¬(0 % 5 = 4); decide), outsA0_snd]
    rfl
  | n + 1, h => by
    by_cases h0 : (n + 1) % 5 = 0
    · rw [outsAt0_A V c ⟨n + 1, h⟩ h0 (by show ¬((n + 1) % 5 = 4); omega), outsA0_snd, accv0_succ_pos V c n h h0]
    · rw [accv0_succ_neg V c n h h0, ← outsAt0_acc c n (Nat.lt_of_succ_lt h)]
      by_cases h1 : (n + 1) % 5 = 4
      · rw [outsAt0_C V c ⟨n + 1, h⟩ h0 h1, outsC0_snd]
        rfl
      · rw [outsAt0_B V c ⟨n + 1, h⟩ h0 h1, outsB0_snd]
        rfl

/-- At a point of the last column block the output block's buffer holds relu (accumulator + bias row). -/
theorem outsAt0_out (c : Dev nD) (t : Fin cfg0.N) (h4 : t.val % 5 = 4) :
    (outsAt0 V c t.val t.isLt).1 = k0_pay3 (accv0 V c t.val t.isLt) (rowB0 V c t) := by
  have h0 : ¬t.val % 5 = 0 := by omega
  rw [← outsAt0_acc V c t.val t.isLt, outsAt0_C V c t h0 h4, outsC0_fst, outsC0_snd]

end

end Cert.KernelIdeal.Fr

end
-- ==== Proof.Spec.lean ====
/-
  The specification of one propagation layer on the extended reals: for a square matrix g, a tall matrix h and a
  one-row matrix b, the entry (r, q) of relu (g · h + b) is the larger of 0 and  Σ_k g(r,k) · h(k,q) + b(0,q).
  Both programs of this certificate compute three such layers; each side is shown equal to this one function.
-/
import Idealize.ShloMosaic.Lib.ValueIdx
import Idealize.ShloMosaic.PureOps.Ideal.Laws

noncomputable section

namespace Cert.Spec

open Idealize.ShloMosaic Idealize.ShloMosaic.ValueIdx

/-- The square propagation matrix's shape, the embeddings' shape, and the bias row's shape. -/
abbrev SG : Shape := ⟨2, ![16000, 16000]⟩
abbrev SH : Shape := ⟨2, ![16000, 64]⟩
abbrev SB : Shape := ⟨2, ![1, 64]⟩

/-- One layer: entry (r, q) is max (Σ_k g(r,k) · h(k,q) + b(0,q)) 0, with the sum, the product, the addition and the
    maximum the exact ones of the extended reals. -/
def layer (g : FVec Ideal SG .f32) (h : FVec Ideal SH .f32) (b : FVec Ideal SB .f32) : FVec Ideal SH .f32 :=
  fun y => FloatOps.maximumf (FloatOps.addf (∑ k : Fin 16000, g (ix2 (y 0) k) * h (ix2 k (y 1))) (b (ix2 (0 : Fin 1) (y 1))))
    (FloatOps.ofBits .f32 0x00000000#32)

end Cert.Spec

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibTiles.lean ====
/-
  Sums over a batch cut into equal tiles.

  A batch of N = T · R rows cut into T tiles of R rows: summing each tile and then the tiles' sums is summing the batch,
  in any commutative monoid.  Row r of tile t is row t · R + r of the batch.
-/
import Mathlib.Algebra.BigOperators.Fin
import Mathlib.Logic.Equiv.Fin.Basic
import Mathlib.Algebra.BigOperators.Group.Finset.Basic
import Mathlib.Tactic.Ring
import Mathlib.Tactic.Linarith

namespace Cert.Tiles

/-- Row r of tile t lies in the batch. -/
theorem tile_lt {T R N : ℕ} (hN : T * R = N) (t : Fin T) (r : Fin R) : t.val * R + r.val < N := by
  have ht := t.isLt
  have hr := r.isLt
  calc t.val * R + r.val < t.val * R + R := by omega
    _ = (t.val + 1) * R := by ring
    _ ≤ T * R := Nat.mul_le_mul_right R ht
    _ = N := hN

/-- Row r of tile t as a row of the batch. -/
def row {T R N : ℕ} (hN : T * R = N) (t : Fin T) (r : Fin R) : Fin N := ⟨t.val * R + r.val, tile_lt hN t r⟩

/-- The tiles' sums add up to the batch's sum. -/
theorem sum_tiles {M : Type*} [AddCommMonoid M] {T R N : ℕ} (hN : T * R = N) (f : Fin N → M) :
    ∑ t : Fin T, ∑ r : Fin R, f (row hN t r) = ∑ i : Fin N, f i := by
  subst hN
  rw [← Equiv.sum_comp finProdFinEquiv f, Fintype.sum_prod_type]
  refine Finset.sum_congr rfl fun t _ => Finset.sum_congr rfl fun r _ => congrArg f (Fin.ext ?_)
  show t.val * R + r.val = r.val + R * t.val
  ring

end Cert.Tiles
-- ==== Proof.TileMath.lean ====
/-
  The contraction of one row of the square matrix with one column of the tall operand, cut into the five column
  blocks of 3200 the kernel visits: the five partial sums add up to the whole sum over 16000, on the extended reals
  (only associativity and commutativity of + are used, so no finiteness is needed).
-/
import proofs.«154284_j13134009991420_2_alg».proof.Proof.Spec
import proofs.«154284_j13134009991420_2_alg».proof.Proof.LibTiles

noncomputable section

namespace Cert.Spec

open Idealize.ShloMosaic Idealize.ShloMosaic.ValueIdx

/-- The square matrix's entry at natural-number coordinates (0 outside the matrix). -/
def Gn (g : FVec Ideal SG .f32) (r n : ℕ) : EReal := if h : r < 16000 ∧ n < 16000 then g (ix2 ⟨r, h.1⟩ ⟨n, h.2⟩) else 0
/-- The tall operand's entry at natural-number coordinates (0 outside). -/
def Hn (h : FVec Ideal SH .f32) (n q : ℕ) : EReal := if hh : n < 16000 ∧ q < 64 then h (ix2 ⟨n, hh.1⟩ ⟨q, hh.2⟩) else 0

theorem Gn_eq (g : FVec Ideal SG .f32) (r n : ℕ) (hr : r < 16000) (hn : n < 16000) : Gn g r n = g (ix2 ⟨r, hr⟩ ⟨n, hn⟩) := dif_pos ⟨hr, hn⟩
theorem Hn_eq (h : FVec Ideal SH .f32) (n q : ℕ) (hn : n < 16000) (hq : q < 64) : Hn h n q = h (ix2 ⟨n, hn⟩ ⟨q, hq⟩) := dif_pos ⟨hn, hq⟩

/-- Column block k of the contraction of row r with column q: the 3200 products g(r, 3200 k + j) · h(3200 k + j, q). -/
def tsum (g : FVec Ideal SG .f32) (h : FVec Ideal SH .f32) (r q k : ℕ) : EReal :=
  ∑ j : Fin 3200, Gn g r (k * 3200 + j.val) * Hn h (k * 3200 + j.val) q

/-- The five column blocks' sums add up to the whole contraction. -/
theorem tiles_total (g : FVec Ideal SG .f32) (h : FVec Ideal SH .f32) (r : Fin 16000) (q : Fin 64) :
    ∑ k ∈ Finset.range 5, tsum g h r.val q.val k = ∑ n : Fin 16000, g (ix2 r n) * h (ix2 n q) := by
  rw [Finset.sum_range, ← Cert.Tiles.sum_tiles (T := 5) (R := 3200) (N := 16000) (by norm_num) (fun n : Fin 16000 => g (ix2 r n) * h (ix2 n q))]
  refine Finset.sum_congr rfl fun t _ => Finset.sum_congr rfl fun j _ => ?_
  have hb : t.val * 3200 + j.val < 16000 := Cert.Tiles.tile_lt (T := 5) (R := 3200) (N := 16000) (by norm_num) t j
  rw [Gn_eq g r.val _ r.isLt hb, Hn_eq h _ q.val hb q.isLt]
  rfl

/-- An accumulator that starts at 0 + T 0 and adds T (k + 1) at step k + 1 holds the sum of T over 0 … k. -/
theorem chain_sum (T : ℕ → EReal) (a : ℕ → EReal) (h0 : a 0 = 0 + T 0) (hs : ∀ k, a (k + 1) = a k + T (k + 1)) (k : ℕ) :
    a k = ∑ k' ∈ Finset.range (k + 1), T k' := by
  induction k with
  | zero => rw [h0, zero_add, Finset.sum_range_one]
  | succ k ih => rw [hs, ih, Finset.sum_range_succ (n := k + 1)]

end Cert.Spec

end
-- ==== Proof.Val0.lean ====
/-
  Region 0 read as values, index by index on the extended reals: each point adds its column block of the contraction
  of a matrix row with a column of the tall operand; after the last column block the accumulator holds the whole
  contraction over 16000 (the five blocks' sums add up: only associativity and commutativity of + are used), and the
  block written back is relu of that plus the bias row — so the region's output array ends as Spec.layer of the
  region's three input arrays.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.ValP0
import proofs.«154284_j13134009991420_2_alg».proof.Proof.Spec
import proofs.«154284_j13134009991420_2_alg».proof.Proof.LibDot
import proofs.«154284_j13134009991420_2_alg».proof.Proof.TileMath
import Idealize.ShloMosaic.Lib.ValueLayout
import Idealize.ShloMosaic.PureOps.Ideal.Laws
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Index by index, on the extended reals -/

section
variable (V : (c : Dev nD) → (b : Ref sig .tc) → Buf (Elt Ideal) ((c : Thread nD τ).loc b))

open Cert.Spec

theorem pay10_apply (p : Fin 1600) (q : Fin 64) : (k0_pay1 (F := Ideal)) (ix2 p q) = 0 := by
  unfold k0_pay1
  simp only [shapeCast_self]
  exact Ideal.ofBits_zero_f32

theorem pay20_apply (x0 : Vec Ideal S1600x3200 .f32) (v7 : Vec Ideal S3200x64 .f32) (v9 : Vec Ideal S1600x64 .f32) (p : Fin 1600) (q : Fin 64) :
    k0_pay2 (F := Ideal) x0 v7 v9 (ix2 p q) = v9 (ix2 p q) + ∑ j : Fin 3200, x0 (ix2 p j) * v7 (ix2 j q) := by
  unfold k0_pay2
  simp only [shapeCast_self]
  refine congrArg (v9 (ix2 p q) + ·) ?_
  exact Cert.LibDot.matmul_zero_plain_apply dot_S1600x3200_S3200x64_S1600x64_1_0_0_1_n_n rfl rfl rfl rfl rfl rfl none x0 v7 (ix2 p q)

theorem pay30_apply (v18 : Vec Ideal S1600x64 .f32) (v19 : Vec Ideal S1x64 .f32) (p : Fin 1600) (q : Fin 64) :
    k0_pay3 (F := Ideal) v18 v19 (ix2 p q)
      = FloatOps.maximumf (FloatOps.addf (v18 (ix2 p q)) (v19 (ix2 (0 : Fin 1) q))) (FloatOps.ofBits .f32 0x00000000#32) := by
  unfold k0_pay3
  simp only [shapeCast_self]
  rw [← broadcastTo_1b_ab_apply v19 broadcasts_S1x64_S1600x64 p q]
  rfl

/-- The printed index maps and the dynamic row offset, decided over the grid: point t is row block t / 5, column block t % 5. -/
theorem idx_facts0 : ∀ t : Fin cfg0.N, win0_0.index t (0 : Fin 2) = t.val / 5 ∧ win0_0.index t (1 : Fin 2) = t.val % 5
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 5 ∧ win0_3.index t (1 : Fin 2) = 0
    ∧ k0_off1 (grid0.coords t) (0 : Fin 2) = t.val % 5 * 3200 ∧ k0_off1 (grid0.coords t) (1 : Fin 2) = 0 :=
  (by decide +kernel : ∀ t : Fin grid0.N, _)

/-- The matrix block of point t, entry (p, j): the matrix at row 1600 (t / 5) + p, column 3200 (t % 5) + j. -/
theorem blk00_apply (c : Dev nD) (t : Fin cfg0.N) (p : Fin 1600) (j : Fin 3200) :
    tileG0 V c t (ix2 p j) = Gn (V c main_arg2) (t.val / 5 * 1600 + p.val) (t.val % 5 * 3200 + j.val) := by
  obtain ⟨e0, e1, -⟩ := idx_facts0 t
  have hN : t.val < 50 := lt_of_lt_of_eq t.isLt (show cfg0.N = 50 from N_0)
  have hp := p.isLt
  have hj := j.isLt
  rw [Gn_eq _ _ _ (by omega) (by omega)]
  unfold tileG0 iblk0
  rw [View.read_apply]
  refine congrArg (V c main_arg2) (funext fun a => Fin.ext ?_)
  match a with
  | ⟨0, _⟩ => show win0_0.index t (0 : Fin 2) * 1600 + 1 * p.val = t.val / 5 * 1600 + p.val; rw [e0]; omega
  | ⟨1, _⟩ => show win0_0.index t (1 : Fin 2) * 3200 + 1 * j.val = t.val % 5 * 3200 + j.val; rw [e1]; omega

/-- The rows of the tall operand point t loads, entry (j, q): the operand at row 3200 (t % 5) + j, column q. -/
theorem blk10_apply (c : Dev nD) (t : Fin cfg0.N) (j : Fin 3200) (q : Fin 64) :
    tileH0 V c t (ix2 j q) = Hn (V c main_v2) (t.val % 5 * 3200 + j.val) q.val := by
  obtain ⟨-, -, e2, e3, -, -, -, -, e8, e9⟩ := idx_facts0 t
  have hj := j.isLt
  have h5 : t.val % 5 < 5 := Nat.mod_lt _ (by norm_num)
  rw [Hn_eq _ _ _ (by omega) q.isLt]
  show iblk0 V c 1 t ((hrect0 (grid0.coords t)).idx (ix2 j q)) = _
  unfold iblk0
  rw [View.read_apply]
  refine congrArg (V c main_v2) (funext fun a => Fin.ext ?_)
  match a with
  | ⟨0, _⟩ => show win0_1.index t (0 : Fin 2) * 16000 + 1 * (k0_off1 (grid0.coords t) (0 : Fin 2) + 1 * j.val) = t.val % 5 * 3200 + j.val; rw [e2, e8]; omega
  | ⟨1, _⟩ => show win0_1.index t (1 : Fin 2) * 64 + 1 * (k0_off1 (grid0.coords t) (1 : Fin 2) + 1 * q.val) = q.val; rw [e3, e9]; omega

/-- The bias row's block is the bias row. -/
theorem blk20_apply (c : Dev nD) (t : Fin cfg0.N) (q : Fin 64) :
    rowB0 V c t (ix2 (0 : Fin 1) q) = V c main_v1 (ix2 (0 : Fin 1) q) := by
  obtain ⟨-, -, -, -, e4, e5, -⟩ := idx_facts0 t
  unfold rowB0 iblk0
  rw [View.read_apply]
  refine congrArg (V c main_v1) (funext fun a => Fin.ext ?_)
  match a with
  | ⟨0, _⟩ => show win0_2.index t (0 : Fin 2) * 1 + 1 * 0 = 0; rw [e4]
  | ⟨1, _⟩ => show win0_2.index t (1 : Fin 2) * 64 + 1 * q.val = q.val; rw [e5]; omega

/-- One point's update at an entry: what the accumulator held there plus the point's column block of the contraction. -/
theorem tile0_apply (c : Dev nD) (t : Fin cfg0.N) (v9 : Vec Ideal S1600x64 .f32) (p : Fin 1600) (q : Fin 64) :
    k0_pay2 (F := Ideal) (tileG0 V c t) (tileH0 V c t) v9 (ix2 p q)
      = v9 (ix2 p q) + Spec.tsum (V c main_arg2) (V c main_v2) (t.val / 5 * 1600 + p.val) q.val (t.val % 5) := by
  rw [pay20_apply]
  refine congrArg (v9 (ix2 p q) + ·) ?_
  unfold Spec.tsum
  exact Finset.sum_congr rfl fun j _ => by rw [blk00_apply, blk10_apply]

/-- The accumulator after position n, at entry (p, q): the column blocks 0 … n % 5 of the contraction of the matrix's
    row 1600 (n / 5) + p with the tall operand's column q. -/
theorem accv0_apply (c : Dev nD) : ∀ (n : ℕ) (h : n < cfg0.N) (p : Fin 1600) (q : Fin 64),
    accv0 (F := Ideal) V c n h (ix2 p q)
      = ∑ k ∈ Finset.range (n % 5 + 1), Spec.tsum (V c main_arg2) (V c main_v2) (n / 5 * 1600 + p.val) q.val k
  | 0, h, p, q => by
    rw [accv0, tile0_apply, pay10_apply, zero_add]
    simp only [Nat.zero_mod, Nat.zero_div, zero_add, Finset.sum_range_one]
  | n + 1, h, p, q => by
    by_cases h0 : (n + 1) % 5 = 0
    · rw [accv0_succ_pos V c n h h0, tile0_apply, pay10_apply, zero_add]
      show Spec.tsum _ _ ((n + 1) / 5 * 1600 + p.val) q.val ((n + 1) % 5) = _
      rw [h0]; simp only [zero_add, Finset.sum_range_one]
    · rw [accv0_succ_neg V c n h h0, tile0_apply, accv0_apply c n (Nat.lt_of_succ_lt h) p q]
      show _ + Spec.tsum _ _ ((n + 1) / 5 * 1600 + p.val) q.val ((n + 1) % 5) = _
      have e1 : (n + 1) / 5 = n / 5 := by omega
      have e2 : (n + 1) % 5 = n % 5 + 1 := by omega
      rw [e1, e2, Finset.sum_range_succ _ (n % 5 + 1)]

/-! ## The output array after the region -/

/-- WHAT A FLUSHING POINT WRITES BACK is its block of Spec.layer of the region's three input arrays. -/
theorem flushed0_eq (c : Dev nD) (t : Fin cfg0.N) (hf : (cfg0.win 3).flush t = true) :
    (dat0 V c).flushed 3 t = ((cfg0.win 3).blk t).view.read (Elt Ideal) (Cert.Spec.layer (V c main_arg2) (V c main_v2) (V c main_v1)) := by
  have h4 : t.val % 5 = 4 := (flush0_3 t).mp hf
  obtain ⟨-, -, -, -, -, -, e6, e7, -⟩ := idx_facts0 t
  have hN : t.val < 50 := lt_of_lt_of_eq t.isLt (show cfg0.N = 50 from N_0)
  show (cfg0.win 3).cut (grid0.coords t) ((dat0 V c).after 3 t) = _
  rw [after0_3, outsAt0_out V c t h4]
  funext y
  obtain ⟨p, q, rfl⟩ : ∃ (p : Fin 1600) (q : Fin 64), y = ix2 p q := ⟨y 0, y 1, eq_ix2 y⟩
  have hp := p.isLt
  rw [View.read_apply]
  have hemb : ((cfg0.win 3).blk t).view.emb (ix2 p q) = ix2 (⟨t.val / 5 * 1600 + p.val, by omega⟩ : Fin 16000) q :=
    funext fun a => Fin.ext (by
      match a with
      | ⟨0, _⟩ => show win0_3.index t (0 : Fin 2) * 1600 + 1 * p.val = t.val / 5 * 1600 + p.val; rw [e6]; omega
      | ⟨1, _⟩ => show win0_3.index t (1 : Fin 2) * 64 + 1 * q.val = q.val; rw [e7]; omega)
  rw [hemb]
  show k0_pay3 (F := Ideal) _ _ (ix2 p q) = _
  rw [pay30_apply, accv0_apply V c t.val t.isLt p q,
    blk20_apply, h4,
    tiles_total (V c main_arg2) (V c main_v2) ⟨t.val / 5 * 1600 + p.val, by omega⟩ q]
  rfl

/-- An index of the output array is in point t's block iff each coordinate is in the block's range on its axis. -/
theorem mem_blk0 (t : Fin cfg0.N) (i : S16000x64.Idx) :
    i ∈ ((cfg0.win 3).blk t).view.set ↔ ∀ a : Fin 2, win0_3.index t a * S1600x64.size a ≤ (i a).val ∧ (i a).val < win0_3.index t a * S1600x64.size a + S1600x64.size a := by
  show i ∈ ((View.whole main_v3).slice (win0_3.rect t)).set ↔ _
  rw [View.set_slice_whole, Rect.mem_set_unit]
  exact Iff.rfl

/-- THE REGION'S OUTPUT ARRAY after the region: Spec.layer of its three input arrays as the region finds them (row r is
    written back by the point of row block r / 1600 and the last column block). -/
theorem arrAt0_eq (c : Dev nD) :
    (dat0 (F := Ideal) V c).arrAt 3 cfg0.N = Cert.Spec.layer (V c main_arg2) (V c main_v2) (V c main_v1) :=
  (dat0 V c).arrAt_eq_of_cover 3 (Cert.Spec.layer (V c main_arg2) (V c main_v2) (V c main_v1)) (flushed0_eq V c) fun i => by
    have hi0 : (i 0).val < 16000 := (i 0).isLt
    have hi1 : (i 1).val < 64 := (i 1).isLt
    have hN : cfg0.N = 50 := N_0
    let t : Fin cfg0.N := ⟨(i 0).val / 1600 * 5 + 4, by rw [hN]; omega⟩
    have h4 : t.val % 5 = 4 := by show ((i 0).val / 1600 * 5 + 4) % 5 = 4; omega
    obtain ⟨-, -, -, -, -, -, e6, e7, -⟩ := idx_facts0 t
    have e6' : win0_3.index t (0 : Fin 2) = (i 0).val / 1600 := by rw [e6]; show ((i 0).val / 1600 * 5 + 4) / 5 = _; omega
    refine ⟨t, (flush0_3 t).mpr h4, ?_⟩
    rw [mem_blk0]
    intro a
    match a with
    | ⟨0, _⟩ => show win0_3.index t (0 : Fin 2) * 1600 ≤ (i 0).val ∧ (i 0).val < win0_3.index t (0 : Fin 2) * 1600 + 1600; rw [e6']; omega
    | ⟨1, _⟩ => show win0_3.index t (1 : Fin 2) * 64 ≤ (i 1).val ∧ (i 1).val < win0_3.index t (1 : Fin 2) * 64 + 64; rw [e7]; omega

end

end Cert.KernelIdeal.Fr

end
-- ==== Proof.ValP1.lean ====
/-
  Region 1 read as values.  What each case of the body leaves (the accumulator: the product of the point's matrix
  block with rows 3200·(t % 5) … of the tall operand, added to what it held — to zero in case A; the output block in
  case C: relu of the accumulator plus the bias row), the accumulator after every grid point by recursion on the
  point, and — index by index on the extended reals — that after the last column block it holds the whole
  contraction over 16000, so that the region's output array ends as Spec.layer of the region's three input arrays.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.Fr1
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- The rows of the tall operand a point multiplies by: 3200 rows from row 3200 · (column block). -/
abbrev hrect1 (i : grid1.Coords) : Rect S16000x64 := Rect.unit (s := S16000x64) (k1_off1 i) S3200x64.size (k1_off1_inb i)

/-! ## The three cases' values, at any float instance -/

theorem soutB1 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : ¬cond1_1 i) (x0 : Vec F S1600x3200 .f32) (x1 : Vec F S16000x64 .f32) (x2 : Vec F S1x64 .f32) (xs0 : Vec F S1600x64 .f32) :
    sout1_B_0 c i arg2 harg2 arg3 harg3 arg4 harg4 arg5 harg5 arg6 harg6 hc0 hc1 x0 x1 x2 xs0 = k1_pay2 x0 (View.ld x1 (hrect1 i)) xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero hz2]
  simp only [View.readAt_eq_ld, harg2.read_unread, harg3.read_unread, harg6.read_unread,
    View.ld_unit_zero (S := S1600x3200) hz2, View.ld_unit_zero (S := S1600x64) hz2]

theorem soutC1 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i) (x0 : Vec F S1600x3200 .f32) (x1 : Vec F S16000x64 .f32) (x2 : Vec F S1x64 .f32) (xs0 : Vec F S1600x64 .f32) :
    sout1_C_0 c i arg2 harg2 arg3 harg3 arg4 harg4 arg5 harg5 arg6 harg6 hc0 hc1 x0 x1 x2 xs0 = k1_pay2 x0 (View.ld x1 (hrect1 i)) xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_run_names
  rw [View.canon_unit_zero hz2]
  simp only [View.readAt_eq_ld, harg2.read_unread, harg3.read_unread, harg6.read_unread,
    View.ld_unit_zero (S := S1600x3200) hz2, View.ld_unit_zero (S := S1600x64) hz2]

theorem outC1 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond1_0 i) (hc1 : cond1_1 i) (x0 : Vec F S1600x3200 .f32) (x1 : Vec F S16000x64 .f32) (x2 : Vec F S1x64 .f32) (xs0 : Vec F S1600x64 .f32) :
    out1_C_3 c i arg2 harg2 arg3 harg3 arg4 harg4 arg5 harg5 arg6 harg6 hc0 hc1 x0 x1 x2 xs0 = k1_pay3 (k1_pay2 x0 (View.ld x1 (hrect1 i)) xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_run_names
  rw [View.canon_unit_zero hz2, View.readCov_unit_zero (S := S1600x64) _ hz2]
  simp only [View.readAt_eq_ld, harg2.read_unread, harg3.read_unread, harg4.read_unread, harg6.read_unread,
    View.ld_unit_zero (S := S1600x3200) hz2, View.ld_unit_zero (S := S1600x64) hz2, View.ld_unit_zero (S := S1x64) hz2]

theorem soutA1 (c : Dev nD) (i : grid1.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond1_0 i) (hc1 : ¬cond1_1 i) (x0 : Vec F S1600x3200 .f32) (x1 : Vec F S16000x64 .f32) (x2 : Vec F S1x64 .f32) :
    sout1_A_0 c i arg2 harg2 arg3 harg3 arg4 harg4 arg5 harg5 arg6 harg6 hc0 hc1 x0 x1 x2 = k1_pay2 x0 (View.ld x1 (hrect1 i)) (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_run_names
  rw [View.canon_cons_unit_zero (S := S1600x64) hz2, View.readCov_unit_zero (S := S1600x64) _ hz2]
  simp only [View.readAt_eq_ld, harg2.read_unread, harg3.read_unread,
    View.ld_unit_zero (S := S1600x3200) hz2, View.ld_unit_zero (S := S1600x64) hz2]

section
variable (V : (c : Dev nD) → (b : Ref sig .tc) → Buf (Elt F) ((c : Thread nD τ).loc b))

/-! ## The accumulator after every grid point -/

/-- The point's three input blocks at the body's vector types: the matrix block, the 3200 rows of the tall operand the
    point multiplies by, and the bias row. -/
abbrev tileG1 (c : Dev nD) (t : Fin cfg1.N) : Vec F S1600x3200 .f32 := iblk1 V c 0 t
abbrev tileH1 (c : Dev nD) (t : Fin cfg1.N) : Vec F S3200x64 .f32 :=
  View.ld (iblk1 V c 1 t : Vec F S16000x64 .f32) (hrect1 (grid1.coords t))
abbrev rowB1 (c : Dev nD) (t : Fin cfg1.N) : Vec F S1x64 .f32 := iblk1 V c 2 t

/-- The accumulator after position n: the point's product added to zero at the first column block, to what the point
    before left otherwise. -/
def accv1 (c : Dev nD) : (n : ℕ) → n < cfg1.N → Vec F S1600x64 .f32
  | 0, h => k1_pay2 (tileG1 V c ⟨0, h⟩) (tileH1 V c ⟨0, h⟩) (k1_pay1 (F := F))
  | n + 1, h =>
    if (n + 1) % 5 = 0 then k1_pay2 (tileG1 V c ⟨n + 1, h⟩) (tileH1 V c ⟨n + 1, h⟩) (k1_pay1 (F := F))
    else k1_pay2 (tileG1 V c ⟨n + 1, h⟩) (tileH1 V c ⟨n + 1, h⟩) (accv1 c n (Nat.lt_of_succ_lt h))

theorem accv1_succ_pos (c : Dev nD) (n : ℕ) (h : n + 1 < cfg1.N) (h0 : (n + 1) % 5 = 0) :
    accv1 V c (n + 1) h = k1_pay2 (tileG1 V c ⟨n + 1, h⟩) (tileH1 V c ⟨n + 1, h⟩) (k1_pay1 (F := F)) := by
  rw [accv1, if_pos h0]
theorem accv1_succ_neg (c : Dev nD) (n : ℕ) (h : n + 1 < cfg1.N) (h0 : ¬(n + 1) % 5 = 0) :
    accv1 V c (n + 1) h = k1_pay2 (tileG1 V c ⟨n + 1, h⟩) (tileH1 V c ⟨n + 1, h⟩) (accv1 V c n (Nat.lt_of_succ_lt h)) := by
  rw [accv1, if_neg h0]

-- The three cases at a grid point, read as values.
set_option maxHeartbeats 1600000 in
theorem outsA1_snd (c : Dev nD) (t : Fin cfg1.N) (h0 : t.val % 5 = 0) (h1 : ¬t.val % 5 = 4) :
    (outsA1 V c t h0 h1).2 = k1_pay2 (tileG1 V c t) (tileH1 V c t) (k1_pay1 (F := F)) := by
  unfold outsA1 tileG1 tileH1
  exact soutA1 (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)
set_option maxHeartbeats 1600000 in
theorem outsB1_snd (c : Dev nD) (t : Fin cfg1.N) (h0 : ¬t.val % 5 = 0) (h1 : ¬t.val % 5 = 4) (xs : Vec F S1600x64 .f32) :
    (outsB1 V c t h0 h1 xs).2 = k1_pay2 (tileG1 V c t) (tileH1 V c t) xs := by
  unfold outsB1 tileG1 tileH1
  exact soutB1 (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs
set_option maxHeartbeats 1600000 in
theorem outsC1_snd (c : Dev nD) (t : Fin cfg1.N) (h0 : ¬t.val % 5 = 0) (h1 : t.val % 5 = 4) (xs : Vec F S1600x64 .f32) :
    (outsC1 V c t h0 h1 xs).2 = k1_pay2 (tileG1 V c t) (tileH1 V c t) xs := by
  unfold outsC1 tileG1 tileH1
  exact soutC1 (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs
set_option maxHeartbeats 1600000 in
theorem outsC1_fst (c : Dev nD) (t : Fin cfg1.N) (h0 : ¬t.val % 5 = 0) (h1 : t.val % 5 = 4) (xs : Vec F S1600x64 .f32) :
    (outsC1 V c t h0 h1 xs).1 = k1_pay3 (k1_pay2 (tileG1 V c t) (tileH1 V c t) xs) (rowB1 V c t) := by
  unfold outsC1 tileG1 tileH1 rowB1
  exact outC1 (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs

/-- The accumulation's second component is that accumulator — by induction on the point. -/
theorem outsAt1_acc (c : Dev nD) : ∀ (n : ℕ) (h : n < cfg1.N), (outsAt1 V c n h).2 = accv1 V c n h
  | 0, h => by
    rw [outsAt1_A V c ⟨0, h⟩ (Nat.zero_mod _) (by show ¬(0 % 5 = 4); decide), outsA1_snd]
    rfl
  | n + 1, h => by
    by_cases h0 : (n + 1) % 5 = 0
    · rw [outsAt1_A V c ⟨n + 1, h⟩ h0 (by show ¬((n + 1) % 5 = 4); omega), outsA1_snd, accv1_succ_pos V c n h h0]
    · rw [accv1_succ_neg V c n h h0, ← outsAt1_acc c n (Nat.lt_of_succ_lt h)]
      by_cases h1 : (n + 1) % 5 = 4
      · rw [outsAt1_C V c ⟨n + 1, h⟩ h0 h1, outsC1_snd]
        rfl
      · rw [outsAt1_B V c ⟨n + 1, h⟩ h0 h1, outsB1_snd]
        rfl

/-- At a point of the last column block the output block's buffer holds relu (accumulator + bias row). -/
theorem outsAt1_out (c : Dev nD) (t : Fin cfg1.N) (h4 : t.val % 5 = 4) :
    (outsAt1 V c t.val t.isLt).1 = k1_pay3 (accv1 V c t.val t.isLt) (rowB1 V c t) := by
  have h0 : ¬t.val % 5 = 0 := by omega
  rw [← outsAt1_acc V c t.val t.isLt, outsAt1_C V c t h0 h4, outsC1_fst, outsC1_snd]

end

end Cert.KernelIdeal.Fr

end
-- ==== Proof.Val1.lean ====
/-
  Region 1 read as values, index by index on the extended reals: each point adds its column block of the contraction
  of a matrix row with a column of the tall operand; after the last column block the accumulator holds the whole
  contraction over 16000 (the five blocks' sums add up: only associativity and commutativity of + are used), and the
  block written back is relu of that plus the bias row — so the region's output array ends as Spec.layer of the
  region's three input arrays.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.ValP1
import proofs.«154284_j13134009991420_2_alg».proof.Proof.Spec
import proofs.«154284_j13134009991420_2_alg».proof.Proof.LibDot
import proofs.«154284_j13134009991420_2_alg».proof.Proof.TileMath
import Idealize.ShloMosaic.Lib.ValueLayout
import Idealize.ShloMosaic.PureOps.Ideal.Laws
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Index by index, on the extended reals -/

section
variable (V : (c : Dev nD) → (b : Ref sig .tc) → Buf (Elt Ideal) ((c : Thread nD τ).loc b))

open Cert.Spec

theorem pay11_apply (p : Fin 1600) (q : Fin 64) : (k1_pay1 (F := Ideal)) (ix2 p q) = 0 := by
  unfold k1_pay1
  simp only [shapeCast_self]
  exact Ideal.ofBits_zero_f32

theorem pay21_apply (x0 : Vec Ideal S1600x3200 .f32) (v7 : Vec Ideal S3200x64 .f32) (v9 : Vec Ideal S1600x64 .f32) (p : Fin 1600) (q : Fin 64) :
    k1_pay2 (F := Ideal) x0 v7 v9 (ix2 p q) = v9 (ix2 p q) + ∑ j : Fin 3200, x0 (ix2 p j) * v7 (ix2 j q) := by
  unfold k1_pay2
  simp only [shapeCast_self]
  refine congrArg (v9 (ix2 p q) + ·) ?_
  exact Cert.LibDot.matmul_zero_plain_apply dot_S1600x3200_S3200x64_S1600x64_1_0_0_1_n_n rfl rfl rfl rfl rfl rfl none x0 v7 (ix2 p q)

theorem pay31_apply (v18 : Vec Ideal S1600x64 .f32) (v19 : Vec Ideal S1x64 .f32) (p : Fin 1600) (q : Fin 64) :
    k1_pay3 (F := Ideal) v18 v19 (ix2 p q)
      = FloatOps.maximumf (FloatOps.addf (v18 (ix2 p q)) (v19 (ix2 (0 : Fin 1) q))) (FloatOps.ofBits .f32 0x00000000#32) := by
  unfold k1_pay3
  simp only [shapeCast_self]
  rw [← broadcastTo_1b_ab_apply v19 broadcasts_S1x64_S1600x64 p q]
  rfl

/-- The printed index maps and the dynamic row offset, decided over the grid: point t is row block t / 5, column block t % 5. -/
theorem idx_facts1 : ∀ t : Fin cfg1.N, win1_0.index t (0 : Fin 2) = t.val / 5 ∧ win1_0.index t (1 : Fin 2) = t.val % 5
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0
    ∧ k1_off1 (grid1.coords t) (0 : Fin 2) = t.val % 5 * 3200 ∧ k1_off1 (grid1.coords t) (1 : Fin 2) = 0 :=
  (by decide +kernel : ∀ t : Fin grid1.N, _)

/-- The matrix block of point t, entry (p, j): the matrix at row 1600 (t / 5) + p, column 3200 (t % 5) + j. -/
theorem blk01_apply (c : Dev nD) (t : Fin cfg1.N) (p : Fin 1600) (j : Fin 3200) :
    tileG1 V c t (ix2 p j) = Gn (V c main_arg2) (t.val / 5 * 1600 + p.val) (t.val % 5 * 3200 + j.val) := by
  obtain ⟨e0, e1, -⟩ := idx_facts1 t
  have hN : t.val < 50 := lt_of_lt_of_eq t.isLt (show cfg1.N = 50 from N_1)
  have hp := p.isLt
  have hj := j.isLt
  rw [Gn_eq _ _ _ (by omega) (by omega)]
  unfold tileG1 iblk1
  rw [View.read_apply]
  refine congrArg (V c main_arg2) (funext fun a => Fin.ext ?_)
  match a with
  | ⟨0, _⟩ => show win1_0.index t (0 : Fin 2) * 1600 + 1 * p.val = t.val / 5 * 1600 + p.val; rw [e0]; omega
  | ⟨1, _⟩ => show win1_0.index t (1 : Fin 2) * 3200 + 1 * j.val = t.val % 5 * 3200 + j.val; rw [e1]; omega

/-- The rows of the tall operand point t loads, entry (j, q): the operand at row 3200 (t % 5) + j, column q. -/
theorem blk11_apply (c : Dev nD) (t : Fin cfg1.N) (j : Fin 3200) (q : Fin 64) :
    tileH1 V c t (ix2 j q) = Hn (V c main_v5) (t.val % 5 * 3200 + j.val) q.val := by
  obtain ⟨-, -, e2, e3, -, -, -, -, e8, e9⟩ := idx_facts1 t
  have hj := j.isLt
  have h5 : t.val % 5 < 5 := Nat.mod_lt _ (by norm_num)
  rw [Hn_eq _ _ _ (by omega) q.isLt]
  show iblk1 V c 1 t ((hrect1 (grid1.coords t)).idx (ix2 j q)) = _
  unfold iblk1
  rw [View.read_apply]
  refine congrArg (V c main_v5) (funext fun a => Fin.ext ?_)
  match a with
  | ⟨0, _⟩ => show win1_1.index t (0 : Fin 2) * 16000 + 1 * (k1_off1 (grid1.coords t) (0 : Fin 2) + 1 * j.val) = t.val % 5 * 3200 + j.val; rw [e2, e8]; omega
  | ⟨1, _⟩ => show win1_1.index t (1 : Fin 2) * 64 + 1 * (k1_off1 (grid1.coords t) (1 : Fin 2) + 1 * q.val) = q.val; rw [e3, e9]; omega

/-- The bias row's block is the bias row. -/
theorem blk21_apply (c : Dev nD) (t : Fin cfg1.N) (q : Fin 64) :
    rowB1 V c t (ix2 (0 : Fin 1) q) = V c main_v1 (ix2 (0 : Fin 1) q) := by
  obtain ⟨-, -, -, -, e4, e5, -⟩ := idx_facts1 t
  unfold rowB1 iblk1
  rw [View.read_apply]
  refine congrArg (V c main_v1) (funext fun a => Fin.ext ?_)
  match a with
  | ⟨0, _⟩ => show win1_2.index t (0 : Fin 2) * 1 + 1 * 0 = 0; rw [e4]
  | ⟨1, _⟩ => show win1_2.index t (1 : Fin 2) * 64 + 1 * q.val = q.val; rw [e5]; omega

/-- One point's update at an entry: what the accumulator held there plus the point's column block of the contraction. -/
theorem tile1_apply (c : Dev nD) (t : Fin cfg1.N) (v9 : Vec Ideal S1600x64 .f32) (p : Fin 1600) (q : Fin 64) :
    k1_pay2 (F := Ideal) (tileG1 V c t) (tileH1 V c t) v9 (ix2 p q)
      = v9 (ix2 p q) + Spec.tsum (V c main_arg2) (V c main_v5) (t.val / 5 * 1600 + p.val) q.val (t.val % 5) := by
  rw [pay21_apply]
  refine congrArg (v9 (ix2 p q) + ·) ?_
  unfold Spec.tsum
  exact Finset.sum_congr rfl fun j _ => by rw [blk01_apply, blk11_apply]

/-- The accumulator after position n, at entry (p, q): the column blocks 0 … n % 5 of the contraction of the matrix's
    row 1600 (n / 5) + p with the tall operand's column q. -/
theorem accv1_apply (c : Dev nD) : ∀ (n : ℕ) (h : n < cfg1.N) (p : Fin 1600) (q : Fin 64),
    accv1 (F := Ideal) V c n h (ix2 p q)
      = ∑ k ∈ Finset.range (n % 5 + 1), Spec.tsum (V c main_arg2) (V c main_v5) (n / 5 * 1600 + p.val) q.val k
  | 0, h, p, q => by
    rw [accv1, tile1_apply, pay11_apply, zero_add]
    simp only [Nat.zero_mod, Nat.zero_div, zero_add, Finset.sum_range_one]
  | n + 1, h, p, q => by
    by_cases h0 : (n + 1) % 5 = 0
    · rw [accv1_succ_pos V c n h h0, tile1_apply, pay11_apply, zero_add]
      show Spec.tsum _ _ ((n + 1) / 5 * 1600 + p.val) q.val ((n + 1) % 5) = _
      rw [h0]; simp only [zero_add, Finset.sum_range_one]
    · rw [accv1_succ_neg V c n h h0, tile1_apply, accv1_apply c n (Nat.lt_of_succ_lt h) p q]
      show _ + Spec.tsum _ _ ((n + 1) / 5 * 1600 + p.val) q.val ((n + 1) % 5) = _
      have e1 : (n + 1) / 5 = n / 5 := by omega
      have e2 : (n + 1) % 5 = n % 5 + 1 := by omega
      rw [e1, e2, Finset.sum_range_succ _ (n % 5 + 1)]

/-! ## The output array after the region -/

/-- WHAT A FLUSHING POINT WRITES BACK is its block of Spec.layer of the region's three input arrays. -/
theorem flushed1_eq (c : Dev nD) (t : Fin cfg1.N) (hf : (cfg1.win 3).flush t = true) :
    (dat1 V c).flushed 3 t = ((cfg1.win 3).blk t).view.read (Elt Ideal) (Cert.Spec.layer (V c main_arg2) (V c main_v5) (V c main_v1)) := by
  have h4 : t.val % 5 = 4 := (flush1_3 t).mp hf
  obtain ⟨-, -, -, -, -, -, e6, e7, -⟩ := idx_facts1 t
  have hN : t.val < 50 := lt_of_lt_of_eq t.isLt (show cfg1.N = 50 from N_1)
  show (cfg1.win 3).cut (grid1.coords t) ((dat1 V c).after 3 t) = _
  rw [after1_3, outsAt1_out V c t h4]
  funext y
  obtain ⟨p, q, rfl⟩ : ∃ (p : Fin 1600) (q : Fin 64), y = ix2 p q := ⟨y 0, y 1, eq_ix2 y⟩
  have hp := p.isLt
  rw [View.read_apply]
  have hemb : ((cfg1.win 3).blk t).view.emb (ix2 p q) = ix2 (⟨t.val / 5 * 1600 + p.val, by omega⟩ : Fin 16000) q :=
    funext fun a => Fin.ext (by
      match a with
      | ⟨0, _⟩ => show win1_3.index t (0 : Fin 2) * 1600 + 1 * p.val = t.val / 5 * 1600 + p.val; rw [e6]; omega
      | ⟨1, _⟩ => show win1_3.index t (1 : Fin 2) * 64 + 1 * q.val = q.val; rw [e7]; omega)
  rw [hemb]
  show k1_pay3 (F := Ideal) _ _ (ix2 p q) = _
  rw [pay31_apply, accv1_apply V c t.val t.isLt p q,
    blk21_apply, h4,
    tiles_total (V c main_arg2) (V c main_v5) ⟨t.val / 5 * 1600 + p.val, by omega⟩ q]
  rfl

/-- An index of the output array is in point t's block iff each coordinate is in the block's range on its axis. -/
theorem mem_blk1 (t : Fin cfg1.N) (i : S16000x64.Idx) :
    i ∈ ((cfg1.win 3).blk t).view.set ↔ ∀ a : Fin 2, win1_3.index t a * S1600x64.size a ≤ (i a).val ∧ (i a).val < win1_3.index t a * S1600x64.size a + S1600x64.size a := by
  show i ∈ ((View.whole main_v6).slice (win1_3.rect t)).set ↔ _
  rw [View.set_slice_whole, Rect.mem_set_unit]
  exact Iff.rfl

/-- THE REGION'S OUTPUT ARRAY after the region: Spec.layer of its three input arrays as the region finds them (row r is
    written back by the point of row block r / 1600 and the last column block). -/
theorem arrAt1_eq (c : Dev nD) :
    (dat1 (F := Ideal) V c).arrAt 3 cfg1.N = Cert.Spec.layer (V c main_arg2) (V c main_v5) (V c main_v1) :=
  (dat1 V c).arrAt_eq_of_cover 3 (Cert.Spec.layer (V c main_arg2) (V c main_v5) (V c main_v1)) (flushed1_eq V c) fun i => by
    have hi0 : (i 0).val < 16000 := (i 0).isLt
    have hi1 : (i 1).val < 64 := (i 1).isLt
    have hN : cfg1.N = 50 := N_1
    let t : Fin cfg1.N := ⟨(i 0).val / 1600 * 5 + 4, by rw [hN]; omega⟩
    have h4 : t.val % 5 = 4 := by show ((i 0).val / 1600 * 5 + 4) % 5 = 4; omega
    obtain ⟨-, -, -, -, -, -, e6, e7, -⟩ := idx_facts1 t
    have e6' : win1_3.index t (0 : Fin 2) = (i 0).val / 1600 := by rw [e6]; show ((i 0).val / 1600 * 5 + 4) / 5 = _; omega
    refine ⟨t, (flush1_3 t).mpr h4, ?_⟩
    rw [mem_blk1]
    intro a
    match a with
    | ⟨0, _⟩ => show win1_3.index t (0 : Fin 2) * 1600 ≤ (i 0).val ∧ (i 0).val < win1_3.index t (0 : Fin 2) * 1600 + 1600; rw [e6']; omega
    | ⟨1, _⟩ => show win1_3.index t (1 : Fin 2) * 64 ≤ (i 1).val ∧ (i 1).val < win1_3.index t (1 : Fin 2) * 64 + 64; rw [e7]; omega

end

end Cert.KernelIdeal.Fr

end
-- ==== Proof.ValP2.lean ====
/-
  Region 2 read as values.  What each case of the body leaves (the accumulator: the product of the point's matrix
  block with rows 3200·(t % 5) … of the tall operand, added to what it held — to zero in case A; the output block in
  case C: relu of the accumulator plus the bias row), the accumulator after every grid point by recursion on the
  point, and — index by index on the extended reals — that after the last column block it holds the whole
  contraction over 16000, so that the region's output array ends as Spec.layer of the region's three input arrays.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.Fr2
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- The rows of the tall operand a point multiplies by: 3200 rows from row 3200 · (column block). -/
abbrev hrect2 (i : grid2.Coords) : Rect S16000x64 := Rect.unit (s := S16000x64) (k2_off1 i) S3200x64.size (k2_off1_inb i)

/-! ## The three cases' values, at any float instance -/

theorem soutB2 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : ¬cond2_1 i) (x0 : Vec F S1600x3200 .f32) (x1 : Vec F S16000x64 .f32) (x2 : Vec F S1x64 .f32) (xs0 : Vec F S1600x64 .f32) :
    sout2_B_0 c i arg2 harg2 arg3 harg3 arg4 harg4 arg5 harg5 arg6 harg6 hc0 hc1 x0 x1 x2 xs0 = k2_pay2 x0 (View.ld x1 (hrect2 i)) xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  rw [View.canon_unit_zero hz2]
  simp only [View.readAt_eq_ld, harg2.read_unread, harg3.read_unread, harg6.read_unread,
    View.ld_unit_zero (S := S1600x3200) hz2, View.ld_unit_zero (S := S1600x64) hz2]

theorem soutC2 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i) (x0 : Vec F S1600x3200 .f32) (x1 : Vec F S16000x64 .f32) (x2 : Vec F S1x64 .f32) (xs0 : Vec F S1600x64 .f32) :
    sout2_C_0 c i arg2 harg2 arg3 harg3 arg4 harg4 arg5 harg5 arg6 harg6 hc0 hc1 x0 x1 x2 xs0 = k2_pay2 x0 (View.ld x1 (hrect2 i)) xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_run_names
  rw [View.canon_unit_zero hz2]
  simp only [View.readAt_eq_ld, harg2.read_unread, harg3.read_unread, harg6.read_unread,
    View.ld_unit_zero (S := S1600x3200) hz2, View.ld_unit_zero (S := S1600x64) hz2]

theorem outC2 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : ¬cond2_0 i) (hc1 : cond2_1 i) (x0 : Vec F S1600x3200 .f32) (x1 : Vec F S16000x64 .f32) (x2 : Vec F S1x64 .f32) (xs0 : Vec F S1600x64 .f32) :
    out2_C_3 c i arg2 harg2 arg3 harg3 arg4 harg4 arg5 harg5 arg6 harg6 hc0 hc1 x0 x1 x2 xs0 = k2_pay3 (k2_pay2 x0 (View.ld x1 (hrect2 i)) xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_run_names
  rw [View.canon_unit_zero hz2, View.readCov_unit_zero (S := S1600x64) _ hz2]
  simp only [View.readAt_eq_ld, harg2.read_unread, harg3.read_unread, harg4.read_unread, harg6.read_unread,
    View.ld_unit_zero (S := S1600x3200) hz2, View.ld_unit_zero (S := S1600x64) hz2, View.ld_unit_zero (S := S1x64) hz2]

theorem soutA2 (c : Dev nD) (i : grid2.Coords) (arg2 : Memref sig .tc .vmem S1600x3200 .f32) (harg2 : arg2.IsWhole) (arg3 : Memref sig .tc .vmem S16000x64 .f32) (harg3 : arg3.IsWhole) (arg4 : Memref sig .tc .vmem S1x64 .f32) (harg4 : arg4.IsWhole) (arg5 : Memref sig .tc .vmem S1600x64 .f32) (harg5 : arg5.IsWhole) (arg6 : Memref sig .tc .vmem S1600x64 .f32) (harg6 : arg6.IsWhole) (hc0 : cond2_0 i) (hc1 : ¬cond2_1 i) (x0 : Vec F S1600x3200 .f32) (x1 : Vec F S16000x64 .f32) (x2 : Vec F S1x64 .f32) :
    sout2_A_0 c i arg2 harg2 arg3 harg3 arg4 harg4 arg5 harg5 arg6 harg6 hc0 hc1 x0 x1 x2 = k2_pay2 x0 (View.ld x1 (hrect2 i)) (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_run_names
  rw [View.canon_cons_unit_zero (S := S1600x64) hz2, View.readCov_unit_zero (S := S1600x64) _ hz2]
  simp only [View.readAt_eq_ld, harg2.read_unread, harg3.read_unread,
    View.ld_unit_zero (S := S1600x3200) hz2, View.ld_unit_zero (S := S1600x64) hz2]

section
variable (V : (c : Dev nD) → (b : Ref sig .tc) → Buf (Elt F) ((c : Thread nD τ).loc b))

/-! ## The accumulator after every grid point -/

/-- The point's three input blocks at the body's vector types: the matrix block, the 3200 rows of the tall operand the
    point multiplies by, and the bias row. -/
abbrev tileG2 (c : Dev nD) (t : Fin cfg2.N) : Vec F S1600x3200 .f32 := iblk2 V c 0 t
abbrev tileH2 (c : Dev nD) (t : Fin cfg2.N) : Vec F S3200x64 .f32 :=
  View.ld (iblk2 V c 1 t : Vec F S16000x64 .f32) (hrect2 (grid2.coords t))
abbrev rowB2 (c : Dev nD) (t : Fin cfg2.N) : Vec F S1x64 .f32 := iblk2 V c 2 t

/-- The accumulator after position n: the point's product added to zero at the first column block, to what the point
    before left otherwise. -/
def accv2 (c : Dev nD) : (n : ℕ) → n < cfg2.N → Vec F S1600x64 .f32
  | 0, h => k2_pay2 (tileG2 V c ⟨0, h⟩) (tileH2 V c ⟨0, h⟩) (k2_pay1 (F := F))
  | n + 1, h =>
    if (n + 1) % 5 = 0 then k2_pay2 (tileG2 V c ⟨n + 1, h⟩) (tileH2 V c ⟨n + 1, h⟩) (k2_pay1 (F := F))
    else k2_pay2 (tileG2 V c ⟨n + 1, h⟩) (tileH2 V c ⟨n + 1, h⟩) (accv2 c n (Nat.lt_of_succ_lt h))

theorem accv2_succ_pos (c : Dev nD) (n : ℕ) (h : n + 1 < cfg2.N) (h0 : (n + 1) % 5 = 0) :
    accv2 V c (n + 1) h = k2_pay2 (tileG2 V c ⟨n + 1, h⟩) (tileH2 V c ⟨n + 1, h⟩) (k2_pay1 (F := F)) := by
  rw [accv2, if_pos h0]
theorem accv2_succ_neg (c : Dev nD) (n : ℕ) (h : n + 1 < cfg2.N) (h0 : ¬(n + 1) % 5 = 0) :
    accv2 V c (n + 1) h = k2_pay2 (tileG2 V c ⟨n + 1, h⟩) (tileH2 V c ⟨n + 1, h⟩) (accv2 V c n (Nat.lt_of_succ_lt h)) := by
  rw [accv2, if_neg h0]

-- The three cases at a grid point, read as values.
set_option maxHeartbeats 1600000 in
theorem outsA2_snd (c : Dev nD) (t : Fin cfg2.N) (h0 : t.val % 5 = 0) (h1 : ¬t.val % 5 = 4) :
    (outsA2 V c t h0 h1).2 = k2_pay2 (tileG2 V c t) (tileH2 V c t) (k2_pay1 (F := F)) := by
  unfold outsA2 tileG2 tileH2
  exact soutA2 (F := F) c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
set_option maxHeartbeats 1600000 in
theorem outsB2_snd (c : Dev nD) (t : Fin cfg2.N) (h0 : ¬t.val % 5 = 0) (h1 : ¬t.val % 5 = 4) (xs : Vec F S1600x64 .f32) :
    (outsB2 V c t h0 h1 xs).2 = k2_pay2 (tileG2 V c t) (tileH2 V c t) xs := by
  unfold outsB2 tileG2 tileH2
  exact soutB2 (F := F) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs
set_option maxHeartbeats 1600000 in
theorem outsC2_snd (c : Dev nD) (t : Fin cfg2.N) (h0 : ¬t.val % 5 = 0) (h1 : t.val % 5 = 4) (xs : Vec F S1600x64 .f32) :
    (outsC2 V c t h0 h1 xs).2 = k2_pay2 (tileG2 V c t) (tileH2 V c t) xs := by
  unfold outsC2 tileG2 tileH2
  exact soutC2 (F := F) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs
set_option maxHeartbeats 1600000 in
theorem outsC2_fst (c : Dev nD) (t : Fin cfg2.N) (h0 : ¬t.val % 5 = 0) (h1 : t.val % 5 = 4) (xs : Vec F S1600x64 .f32) :
    (outsC2 V c t h0 h1 xs).1 = k2_pay3 (k2_pay2 (tileG2 V c t) (tileH2 V c t) xs) (rowB2 V c t) := by
  unfold outsC2 tileG2 tileH2 rowB2
  exact outC2 (F := F) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs

/-- The accumulation's second component is that accumulator — by induction on the point. -/
theorem outsAt2_acc (c : Dev nD) : ∀ (n : ℕ) (h : n < cfg2.N), (outsAt2 V c n h).2 = accv2 V c n h
  | 0, h => by
    rw [outsAt2_A V c ⟨0, h⟩ (Nat.zero_mod _) (by show ¬(0 % 5 = 4); decide), outsA2_snd]
    rfl
  | n + 1, h => by
    by_cases h0 : (n + 1) % 5 = 0
    · rw [outsAt2_A V c ⟨n + 1, h⟩ h0 (by show ¬((n + 1) % 5 = 4); omega), outsA2_snd, accv2_succ_pos V c n h h0]
    · rw [accv2_succ_neg V c n h h0, ← outsAt2_acc c n (Nat.lt_of_succ_lt h)]
      by_cases h1 : (n + 1) % 5 = 4
      · rw [outsAt2_C V c ⟨n + 1, h⟩ h0 h1, outsC2_snd]
        rfl
      · rw [outsAt2_B V c ⟨n + 1, h⟩ h0 h1, outsB2_snd]
        rfl

/-- At a point of the last column block the output block's buffer holds relu (accumulator + bias row). -/
theorem outsAt2_out (c : Dev nD) (t : Fin cfg2.N) (h4 : t.val % 5 = 4) :
    (outsAt2 V c t.val t.isLt).1 = k2_pay3 (accv2 V c t.val t.isLt) (rowB2 V c t) := by
  have h0 : ¬t.val % 5 = 0 := by omega
  rw [← outsAt2_acc V c t.val t.isLt, outsAt2_C V c t h0 h4, outsC2_fst, outsC2_snd]

end

end Cert.KernelIdeal.Fr

end
-- ==== Proof.Val2.lean ====
/-
  Region 2 read as values, index by index on the extended reals: each point adds its column block of the contraction
  of a matrix row with a column of the tall operand; after the last column block the accumulator holds the whole
  contraction over 16000 (the five blocks' sums add up: only associativity and commutativity of + are used), and the
  block written back is relu of that plus the bias row — so the region's output array ends as Spec.layer of the
  region's three input arrays.
-/
import proofs.«154284_j13134009991420_2_alg».proof.Proof.Gen.KernelIdeal.Launch
import proofs.«154284_j13134009991420_2_alg».proof.Proof.Gen.KernelIdeal.Skeleton
import proofs.«154284_j13134009991420_2_alg».proof.Proof.Gen.KernelIdeal.Points
import proofs.«154284_j13134009991420_2_alg».proof.Proof.ValP2
import proofs.«154284_j13134009991420_2_alg».proof.Proof.Spec
import proofs.«154284_j13134009991420_2_alg».proof.Proof.LibDot
import proofs.«154284_j13134009991420_2_alg».proof.Proof.TileMath
import Idealize.ShloMosaic.Lib.ValueLayout
import Idealize.ShloMosaic.PureOps.Ideal.Laws
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Index by index, on the extended reals -/

section
variable (V : (c : Dev nD) → (b : Ref sig .tc) → Buf (Elt Ideal) ((c : Thread nD τ).loc b))

open Cert.Spec

theorem pay12_apply (p : Fin 1600) (q : Fin 64) : (k2_pay1 (F := Ideal)) (ix2 p q) = 0 := by
  unfold k2_pay1
  simp only [shapeCast_self]
  exact Ideal.ofBits_zero_f32

theorem pay22_apply (x0 : Vec Ideal S1600x3200 .f32) (v7 : Vec Ideal S3200x64 .f32) (v9 : Vec Ideal S1600x64 .f32) (p : Fin 1600) (q : Fin 64) :
    k2_pay2 (F := Ideal) x0 v7 v9 (ix2 p q) = v9 (ix2 p q) + ∑ j : Fin 3200, x0 (ix2 p j) * v7 (ix2 j q) := by
  unfold k2_pay2
  simp only [shapeCast_self]
  refine congrArg (v9 (ix2 p q) + ·) ?_
  exact Cert.LibDot.matmul_zero_plain_apply dot_S1600x3200_S3200x64_S1600x64_1_0_0_1_n_n rfl rfl rfl rfl rfl rfl none x0 v7 (ix2 p q)

theorem pay32_apply (v18 : Vec Ideal S1600x64 .f32) (v19 : Vec Ideal S1x64 .f32) (p : Fin 1600) (q : Fin 64) :
    k2_pay3 (F := Ideal) v18 v19 (ix2 p q)
      = FloatOps.maximumf (FloatOps.addf (v18 (ix2 p q)) (v19 (ix2 (0 : Fin 1) q))) (FloatOps.ofBits .f32 0x00000000#32) := by
  unfold k2_pay3
  simp only [shapeCast_self]
  rw [← broadcastTo_1b_ab_apply v19 broadcasts_S1x64_S1600x64 p q]
  rfl

/-- The printed index maps and the dynamic row offset, decided over the grid: point t is row block t / 5, column block t % 5. -/
theorem idx_facts2 : ∀ t : Fin cfg2.N, win2_0.index t (0 : Fin 2) = t.val / 5 ∧ win2_0.index t (1 : Fin 2) = t.val % 5
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val / 5 ∧ win2_3.index t (1 : Fin 2) = 0
    ∧ k2_off1 (grid2.coords t) (0 : Fin 2) = t.val % 5 * 3200 ∧ k2_off1 (grid2.coords t) (1 : Fin 2) = 0 :=
  (by decide +kernel : ∀ t : Fin grid2.N, _)

/-- The matrix block of point t, entry (p, j): the matrix at row 1600 (t / 5) + p, column 3200 (t % 5) + j. -/
theorem blk02_apply (c : Dev nD) (t : Fin cfg2.N) (p : Fin 1600) (j : Fin 3200) :
    tileG2 V c t (ix2 p j) = Gn (V c main_arg2) (t.val / 5 * 1600 + p.val) (t.val % 5 * 3200 + j.val) := by
  obtain ⟨e0, e1, -⟩ := idx_facts2 t
  have hN : t.val < 50 := lt_of_lt_of_eq t.isLt (show cfg2.N = 50 from N_2)
  have hp := p.isLt
  have hj := j.isLt
  rw [Gn_eq _ _ _ (by omega) (by omega)]
  unfold tileG2 iblk2
  rw [View.read_apply]
  refine congrArg (V c main_arg2) (funext fun a => Fin.ext ?_)
  match a with
  | ⟨0, _⟩ => show win2_0.index t (0 : Fin 2) * 1600 + 1 * p.val = t.val / 5 * 1600 + p.val; rw [e0]; omega
  | ⟨1, _⟩ => show win2_0.index t (1 : Fin 2) * 3200 + 1 * j.val = t.val % 5 * 3200 + j.val; rw [e1]; omega

/-- The rows of the tall operand point t loads, entry (j, q): the operand at row 3200 (t % 5) + j, column q. -/
theorem blk12_apply (c : Dev nD) (t : Fin cfg2.N) (j : Fin 3200) (q : Fin 64) :
    tileH2 V c t (ix2 j q) = Hn (V c main_v8) (t.val % 5 * 3200 + j.val) q.val := by
  obtain ⟨-, -, e2, e3, -, -, -, -, e8, e9⟩ := idx_facts2 t
  have hj := j.isLt
  have h5 : t.val % 5 < 5 := Nat.mod_lt _ (by norm_num)
  rw [Hn_eq _ _ _ (by omega) q.isLt]
  show iblk2 V c 1 t ((hrect2 (grid2.coords t)).idx (ix2 j q)) = _
  unfold iblk2
  rw [View.read_apply]
  refine congrArg (V c main_v8) (funext fun a => Fin.ext ?_)
  match a with
  | ⟨0, _⟩ => show win2_1.index t (0 : Fin 2) * 16000 + 1 * (k2_off1 (grid2.coords t) (0 : Fin 2) + 1 * j.val) = t.val % 5 * 3200 + j.val; rw [e2, e8]; omega
  | ⟨1, _⟩ => show win2_1.index t (1 : Fin 2) * 64 + 1 * (k2_off1 (grid2.coords t) (1 : Fin 2) + 1 * q.val) = q.val; rw [e3, e9]; omega

/-- The bias row's block is the bias row. -/
theorem blk22_apply (c : Dev nD) (t : Fin cfg2.N) (q : Fin 64) :
    rowB2 V c t (ix2 (0 : Fin 1) q) = V c main_v1 (ix2 (0 : Fin 1) q) := by
  obtain ⟨-, -, -, -, e4, e5, -⟩ := idx_facts2 t
  unfold rowB2 iblk2
  rw [View.read_apply]
  refine congrArg (V c main_v1) (funext fun a => Fin.ext ?_)
  match a with
  | ⟨0, _⟩ => show win2_2.index t (0 : Fin 2) * 1 + 1 * 0 = 0; rw [e4]
  | ⟨1, _⟩ => show win2_2.index t (1 : Fin 2) * 64 + 1 * q.val = q.val; rw [e5]; omega

/-- One point's update at an entry: what the accumulator held there plus the point's column block of the contraction. -/
theorem tile2_apply (c : Dev nD) (t : Fin cfg2.N) (v9 : Vec Ideal S1600x64 .f32) (p : Fin 1600) (q : Fin 64) :
    k2_pay2 (F := Ideal) (tileG2 V c t) (tileH2 V c t) v9 (ix2 p q)
      = v9 (ix2 p q) + Spec.tsum (V c main_arg2) (V c main_v8) (t.val / 5 * 1600 + p.val) q.val (t.val % 5) := by
  rw [pay22_apply]
  refine congrArg (v9 (ix2 p q) + ·) ?_
  unfold Spec.tsum
  exact Finset.sum_congr rfl fun j _ => by rw [blk02_apply, blk12_apply]

/-- The accumulator after position n, at entry (p, q): the column blocks 0 … n % 5 of the contraction of the matrix's
    row 1600 (n / 5) + p with the tall operand's column q. -/
theorem accv2_apply (c : Dev nD) : ∀ (n : ℕ) (h : n < cfg2.N) (p : Fin 1600) (q : Fin 64),
    accv2 (F := Ideal) V c n h (ix2 p q)
      = ∑ k ∈ Finset.range (n % 5 + 1), Spec.tsum (V c main_arg2) (V c main_v8) (n / 5 * 1600 + p.val) q.val k
  | 0, h, p, q => by
    rw [accv2, tile2_apply, pay12_apply, zero_add]
    simp only [Nat.zero_mod, Nat.zero_div, zero_add, Finset.sum_range_one]
  | n + 1, h, p, q => by
    by_cases h0 : (n + 1) % 5 = 0
    · rw [accv2_succ_pos V c n h h0, tile2_apply, pay12_apply, zero_add]
      show Spec.tsum _ _ ((n + 1) / 5 * 1600 + p.val) q.val ((n + 1) % 5) = _
      rw [h0]; simp only [zero_add, Finset.sum_range_one]
    · rw [accv2_succ_neg V c n h h0, tile2_apply, accv2_apply c n (Nat.lt_of_succ_lt h) p q]
      show _ + Spec.tsum _ _ ((n + 1) / 5 * 1600 + p.val) q.val ((n + 1) % 5) = _
      have e1 : (n + 1) / 5 = n / 5 := by omega
      have e2 : (n + 1) % 5 = n % 5 + 1 := by omega
      rw [e1, e2, Finset.sum_range_succ _ (n % 5 + 1)]

/-! ## The output array after the region -/

/-- WHAT A FLUSHING POINT WRITES BACK is its block of Spec.layer of the region's three input arrays. -/
theorem flushed2_eq (c : Dev nD) (t : Fin cfg2.N) (hf : (cfg2.win 3).flush t = true) :
    (dat2 V c).flushed 3 t = ((cfg2.win 3).blk t).view.read (Elt Ideal) (Cert.Spec.layer (V c main_arg2) (V c main_v8) (V c main_v1)) := by
  have h4 : t.val % 5 = 4 := (flush2_3 t).mp hf
  obtain ⟨-, -, -, -, -, -, e6, e7, -⟩ := idx_facts2 t
  have hN : t.val < 50 := lt_of_lt_of_eq t.isLt (show cfg2.N = 50 from N_2)
  show (cfg2.win 3).cut (grid2.coords t) ((dat2 V c).after 3 t) = _
  rw [after2_3, outsAt2_out V c t h4]
  funext y
  obtain ⟨p, q, rfl⟩ : ∃ (p : Fin 1600) (q : Fin 64), y = ix2 p q := ⟨y 0, y 1, eq_ix2 y⟩
  have hp := p.isLt
  rw [View.read_apply]
  have hemb : ((cfg2.win 3).blk t).view.emb (ix2 p q) = ix2 (⟨t.val / 5 * 1600 + p.val, by omega⟩ : Fin 16000) q :=
    funext fun a => Fin.ext (by
      match a with
      | ⟨0, _⟩ => show win2_3.index t (0 : Fin 2) * 1600 + 1 * p.val = t.val / 5 * 1600 + p.val; rw [e6]; omega
      | ⟨1, _⟩ => show win2_3.index t (1 : Fin 2) * 64 + 1 * q.val = q.val; rw [e7]; omega)
  rw [hemb]
  show k2_pay3 (F := Ideal) _ _ (ix2 p q) = _
  rw [pay32_apply, accv2_apply V c t.val t.isLt p q,
    blk22_apply, h4,
    tiles_total (V c main_arg2) (V c main_v8) ⟨t.val / 5 * 1600 + p.val, by omega⟩ q]
  rfl

/-- An index of the output array is in point t's block iff each coordinate is in the block's range on its axis. -/
theorem mem_blk2 (t : Fin cfg2.N) (i : S16000x64.Idx) :
    i ∈ ((cfg2.win 3).blk t).view.set ↔ ∀ a : Fin 2, win2_3.index t a * S1600x64.size a ≤ (i a).val ∧ (i a).val < win2_3.index t a * S1600x64.size a + S1600x64.size a := by
  show i ∈ ((View.whole main_v9).slice (win2_3.rect t)).set ↔ _
  rw [View.set_slice_whole, Rect.mem_set_unit]
  exact Iff.rfl

/-- THE REGION'S OUTPUT ARRAY after the region: Spec.layer of its three input arrays as the region finds them (row r is
    written back by the point of row block r / 1600 and the last column block). -/
theorem arrAt2_eq (c : Dev nD) :
    (dat2 (F := Ideal) V c).arrAt 3 cfg2.N = Cert.Spec.layer (V c main_arg2) (V c main_v8) (V c main_v1) :=
  (dat2 V c).arrAt_eq_of_cover 3 (Cert.Spec.layer (V c main_arg2) (V c main_v8) (V c main_v1)) (flushed2_eq V c) fun i => by
    have hi0 : (i 0).val < 16000 := (i 0).isLt
    have hi1 : (i 1).val < 64 := (i 1).isLt
    have hN : cfg2.N = 50 := N_2
    let t : Fin cfg2.N := ⟨(i 0).val / 1600 * 5 + 4, by rw [hN]; omega⟩
    have h4 : t.val % 5 = 4 := by show ((i 0).val / 1600 * 5 + 4) % 5 = 4; omega
    obtain ⟨-, -, -, -, -, -, e6, e7, -⟩ := idx_facts2 t
    have e6' : win2_3.index t (0 : Fin 2) = (i 0).val / 1600 := by rw [e6]; show ((i 0).val / 1600 * 5 + 4) / 5 = _; omega
    refine ⟨t, (flush2_3 t).mpr h4, ?_⟩
    rw [mem_blk2]
    intro a
    match a with
    | ⟨0, _⟩ => show win2_3.index t (0 : Fin 2) * 1600 ≤ (i 0).val ∧ (i 0).val < win2_3.index t (0 : Fin 2) * 1600 + 1600; rw [e6']; omega
    | ⟨1, _⟩ => show win2_3.index t (1 : Fin 2) * 64 ≤ (i 1).val ∧ (i 1).val < win2_3.index t (1 : Fin 2) * 64 + 64; rw [e7]; omega

end

end Cert.KernelIdeal.Fr

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.RefSide.lean ====
/-
  The reference's propagation layer is the specification's layer.

  One layer of the reference is  relu (g · h + bias):  the host's matrix product of the 16000 × 16000 propagation matrix
  with a 16000 × 64 matrix, plus the length-64 bias broadcast first to a 1 × 64 row and then down the 16000 rows, and
  the maximum of that with the zero scalar broadcast to every entry.  Read at the entry (p, q): the product is
  Σ_k g(p,k) · h(k,q), the broadcast bias is bias(q), the broadcast zero is 0.  The specification reads its bias as a
  1 × 64 row at (0, q); the length-64 vector reshaped to that row holds bias(q) there, since both sit at row-major
  position q.  So the two functions agree at every entry.
-/
import proofs.«154284_j13134009991420_2_alg».proof.Proof.Gen.ReferenceIdeal.Run
import proofs.«154284_j13134009991420_2_alg».proof.Proof.Gen.ReferenceIdeal.Read
import proofs.«154284_j13134009991420_2_alg».proof.Proof.Spec
import proofs.«154284_j13134009991420_2_alg».proof.Proof.LibDot
import proofs.«154284_j13134009991420_2_alg».proof.Proof.LibBcast

noncomputable section

namespace Cert.ReferenceIdeal.RefValue

open Cert.ReferenceIdeal Cert.ReferenceIdeal.Gen Idealize.ShloMosaic Idealize.ShloMosaic.ValueIdx

/-- A length-64 vector reshaped to a 1 × 64 row, read at (0, q), is the vector at q: the same row-major position. -/
theorem row_of_vector_apply (bias : FVec Ideal S64 .f32) (h : S64.ShapeCasts S1x64) (q : Fin 64) :
    shapeCast S1x64 bias h (ix2 (0 : Fin 1) q) = bias (ix1 q) :=
  shapeCast_apply bias h (ix2 (0 : Fin 1) q) (ix1 q) (by
    rw [Shape.rowMajor_val_two, Shape.rowMajor_val_one]
    show q.val = 0 * 64 + q.val
    omega)

/-- One layer as the reference computes it: the maximum of  g · h + (bias as a row, repeated down the rows)  and the zero
    scalar repeated everywhere. -/
def refLayer (G : FVec Ideal S16000x16000 .f32) (H : FVec Ideal S16000x64 .f32) (bias : FVec Ideal S64 .f32) :
    FVec Ideal S16000x64 .f32 :=
  maximumf (addf (Host.dotGeneral (F := Ideal) dot_S16000x16000_S16000x64_S16000x64_1_0_0_1_n_n none G H)
      (broadcastInDim S16000x64 ![0, 1] bcast_S1x64_S16000x64_0_1 (broadcastInDim S1x64 ![1] bcast_S64_S1x64_1 bias)))
    (broadcastInDim S16000x64 ![] bcast_S_S16000x64 (constant (F := Ideal) S_ .f32 0x00000000#32))

/-- The reference's layer is the specification's layer of the same matrices and the bias reshaped to a row. -/
theorem layer_eq (G : FVec Ideal S16000x16000 .f32) (H : FVec Ideal S16000x64 .f32) (bias : FVec Ideal S64 .f32)
    (h : S64.ShapeCasts S1x64) :
    maximumf (addf (Host.dotGeneral (F := Ideal) dot_S16000x16000_S16000x64_S16000x64_1_0_0_1_n_n none G H)
        (broadcastInDim S16000x64 ![0, 1] bcast_S1x64_S16000x64_0_1 (broadcastInDim S1x64 ![1] bcast_S64_S1x64_1 bias)))
      (broadcastInDim S16000x64 ![] bcast_S_S16000x64 (constant (F := Ideal) S_ .f32 0x00000000#32))
    = Cert.Spec.layer G H (shapeCast S1x64 bias h) := by
  funext y
  obtain ⟨p, q, rfl⟩ : ∃ (p : Fin 16000) (q : Fin 64), y = ix2 p q := ⟨y 0, y 1, eq_ix2 y⟩
  have e1 : Host.dotGeneral (F := Ideal) dot_S16000x16000_S16000x64_S16000x64_1_0_0_1_n_n none G H (ix2 p q)
      = ∑ k : Fin 16000, G (ix2 p k) * H (ix2 k q) :=
    Cert.LibDot.dotGeneral_plain_apply dot_S16000x16000_S16000x64_S16000x64_1_0_0_1_n_n rfl rfl rfl rfl rfl rfl none .single G H (ix2 p q)
  have e2 : broadcastInDim S16000x64 ![0, 1] bcast_S1x64_S16000x64_0_1 (broadcastInDim S1x64 ![1] bcast_S64_S1x64_1 bias) (ix2 p q)
      = bias (ix1 q) :=
    Cert.LibBcast.cols_apply bias bcast_S64_S1x64_1 bcast_S1x64_S16000x64_0_1 p q
  have e3 : broadcastInDim S16000x64 ![] bcast_S_S16000x64 (constant (F := Ideal) S_ .f32 0x00000000#32) (ix2 p q)
      = FloatOps.ofBits (F := Ideal) .f32 0x00000000#32 :=
    Cert.LibBcast.scalar_apply S16000x64 (constant (F := Ideal) S_ .f32 0x00000000#32) bcast_S_S16000x64 (ix2 p q)
  show FloatOps.maximumf (FloatOps.addf
      (Host.dotGeneral (F := Ideal) dot_S16000x16000_S16000x64_S16000x64_1_0_0_1_n_n none G H (ix2 p q))
      (broadcastInDim S16000x64 ![0, 1] bcast_S1x64_S16000x64_0_1 (broadcastInDim S1x64 ![1] bcast_S64_S1x64_1 bias) (ix2 p q)))
      (broadcastInDim S16000x64 ![] bcast_S_S16000x64 (constant (F := Ideal) S_ .f32 0x00000000#32) (ix2 p q))
    = FloatOps.maximumf (FloatOps.addf (∑ k : Fin 16000, G (ix2 p k) * H (ix2 k q))
        (shapeCast S1x64 bias h (ix2 (0 : Fin 1) q))) (FloatOps.ofBits .f32 0x00000000#32)
  rw [e1, e2, e3, row_of_vector_apply bias h q]

end Cert.ReferenceIdeal.RefValue

end
-- ==== Proof.RefResult.lean ====
/-
  The reference's result, layer by layer.

  The reference stacks the two embedding tables into one 16000 × 64 matrix E, and three times replaces the current
  matrix X by  relu (g · (X · w) + bias);  call the three results L1, L2, L3.  Its result is a fixed chain of host
  operations applied to the running sum (E + L1) + L2, to L3 and to the two index vectors: add, divide by four, cut
  the quotient into its upper and lower halves, look rows up by the (wrapped) indices, multiply the looked-up rows entry by
  entry and sum each row.  Here that chain is one function, `tail`, never opened; each layer is the specification's layer
  (the previous module), so the reference's result is `tail` of the specification's layers.
-/
import proofs.«154284_j13134009991420_2_alg».proof.Proof.RefSide

noncomputable section

namespace Cert.ReferenceIdeal.RefValue

open Cert.ReferenceIdeal Cert.ReferenceIdeal.Gen Cert.ReferenceIdeal.Read Idealize.ShloMosaic Idealize.ShloMosaic.ValueIdx

/-- The users' table stacked on the items' table. -/
def embed (x3 x4 : FVec Ideal S8000x64 .f32) : FVec Ideal S16000x64 .f32 :=
  concatenate S16000x64 0 [⟨S8000x64, x3⟩, ⟨S8000x64, x4⟩] concatenates_S8000x64_S8000x64_S16000x64_d0

/-- The dense transform of a layer's input: X · w. -/
def transform (X : FVec Ideal S16000x64 .f32) (w : FVec Ideal S64x64 .f32) :
    FVec Ideal S16000x64 .f32 :=
  Host.dotGeneral (F := Ideal) dot_S16000x64_S64x64_S16000x64_1_0_0_1_n_n none X w

/-- The bias as a 1 × 64 row. -/
def biasRow (x6 : FVec Ideal S64 .f32) : FVec Ideal S1x64 .f32 :=
  shapeCast S1x64 x6 (by decide)

/-- What both programs do after the third layer, as one function of the running sum of the first two layers and the
    embeddings, of the third layer, and of the two index vectors: the mean over the four stacked matrices, its two
    halves, the rows the indices name (an index below zero counted from the end), their entrywise product, each row's sum. -/
def tail (acc l3 : FVec Ideal S16000x64 .f32) (users items : IVec S4096 32) :
    FVec Ideal S4096 .f32 :=
  Host.reduceAdd (F := Ideal)
    (mulf
      (Host.gather gather_S8000x64_S4096x1_S4096x64_1_0_n_n_0_1_164
        (extractStridedSlice S8000x64 ![0, 0]
          (Host.divf (F := Ideal) (addf acc l3) (broadcastInDim S16000x64 ![] bcast_S_S16000x64 (constant (F := Ideal) S_ .f32 0x40800000#32)))
          slices_S16000x64_S8000x64_0_0)
        (broadcastInDim S4096x1 ![0] bcast_S4096_S4096x1_0
          (select (cmpi .slt users (broadcastInDim S4096 ![] bcast_S_S4096 (constantI S_ 32 0#32)))
            (addi users (broadcastInDim S4096 ![] bcast_S_S4096 (constantI S_ 32 8000#32))) users)))
      (Host.gather gather_S8000x64_S4096x1_S4096x64_1_0_n_n_0_1_164
        (extractStridedSlice S8000x64 ![8000, 0]
          (Host.divf (F := Ideal) (addf acc l3) (broadcastInDim S16000x64 ![] bcast_S_S16000x64 (constant (F := Ideal) S_ .f32 0x40800000#32)))
          slices_S16000x64_S8000x64_8000_0)
        (broadcastInDim S4096x1 ![0] bcast_S4096_S4096x1_0
          (select (cmpi .slt items (broadcastInDim S4096 ![] bcast_S_S4096 (constantI S_ 32 0#32)))
            (addi items (broadcastInDim S4096 ![] bcast_S_S4096 (constantI S_ 32 8000#32))) items))))
    (constant (F := Ideal) S_ .f32 0x00000000#32) reducesTo_S4096x64_S4096_d1 h_S_

/-- The first layer's output: the specification's layer of the propagation matrix, the transformed embeddings and the bias row. -/
def layer1 (x2 : FVec Ideal S16000x16000 .f32) (x3 x4 : FVec Ideal S8000x64 .f32)
    (x5 : FVec Ideal S64x64 .f32) (x6 : FVec Ideal S64 .f32) :
    FVec Ideal S16000x64 .f32 :=
  Cert.Spec.layer x2 (transform (embed x3 x4) x5) (biasRow x6)

/-- The second layer's output. -/
def layer2 (x2 : FVec Ideal S16000x16000 .f32) (x3 x4 : FVec Ideal S8000x64 .f32)
    (x5 : FVec Ideal S64x64 .f32) (x6 : FVec Ideal S64 .f32) :
    FVec Ideal S16000x64 .f32 :=
  Cert.Spec.layer x2 (transform (layer1 x2 x3 x4 x5 x6) x5) (biasRow x6)

/-- The third layer's output. -/
def layer3 (x2 : FVec Ideal S16000x16000 .f32) (x3 x4 : FVec Ideal S8000x64 .f32)
    (x5 : FVec Ideal S64x64 .f32) (x6 : FVec Ideal S64 .f32) :
    FVec Ideal S16000x64 .f32 :=
  Cert.Spec.layer x2 (transform (layer2 x2 x3 x4 x5 x6) x5) (biasRow x6)

/-- The whole computation over the specification's layers: the common form of both programs' results. -/
def result (x0 x1 : IVec S4096 32) (x2 : FVec Ideal S16000x16000 .f32)
    (x3 x4 : FVec Ideal S8000x64 .f32) (x5 : FVec Ideal S64x64 .f32)
    (x6 : FVec Ideal S64 .f32) : FVec Ideal S4096 .f32 :=
  tail (addf (addf (embed x3 x4) (layer1 x2 x3 x4 x5 x6)) (layer2 x2 x3 x4 x5 x6)) (layer3 x2 x3 x4 x5 x6) x0 x1

variable (x0 x1 : IVec S4096 32) (x2 : FVec Ideal S16000x16000 .f32)
  (x3 x4 : FVec Ideal S8000x64 .f32) (x5 : FVec Ideal S64x64 .f32)
  (x6 : FVec Ideal S64 .f32)

/-- The reference's first relu output is the first layer. -/
theorem v6_eq : val_main_v6 (F := Ideal) x2 x3 x4 x5 x6 = layer1 x2 x3 x4 x5 x6 := by
  unfold val_main_v6 val_main_v5 val_main_v2 val_main_v4 val_main_v3 val_main_call0_v0 val_main_call0_cst val_main_v1 val_main_v0
    layer1 transform embed biasRow
  exact layer_eq x2 _ x6 _

/-- The reference's second relu output is the second layer. -/
theorem v13_eq : val_main_v13 (F := Ideal) x2 x3 x4 x5 x6 = layer2 x2 x3 x4 x5 x6 := by
  unfold val_main_v13 val_main_v12 val_main_v9 val_main_v11 val_main_v10 val_main_call1_v0 val_main_call1_cst val_main_v8
  rw [v6_eq]
  unfold layer2 transform biasRow
  exact layer_eq x2 _ x6 _

/-- The reference's third relu output is the third layer. -/
theorem v20_eq : val_main_v20 (F := Ideal) x2 x3 x4 x5 x6 = layer3 x2 x3 x4 x5 x6 := by
  unfold val_main_v20 val_main_v19 val_main_v16 val_main_v18 val_main_v17 val_main_call2_v0 val_main_call2_cst val_main_v15
  rw [v13_eq]
  unfold layer3 transform biasRow
  exact layer_eq x2 _ x6 _

/-- The reference's result is the common form. -/
theorem v41_eq : val_main_v41 (F := Ideal) x0 x1 x2 x3 x4 x5 x6 = result x0 x1 x2 x3 x4 x5 x6 := by
  unfold val_main_v41 val_main_v40 val_main_v32 val_main_v39 val_main_v24 val_main_v25 val_main_v23 val_main_v22 val_main_cst
    val_main_v31 val_main_v38 val_main_v30 val_main_v37 val_main_v27 val_main_v34 val_main_v29 val_main_v36 val_main_v26 val_main_v28
    val_main_v33 val_main_v35 val_main_c val_main_c_0 val_main_c_1 val_main_c_2 val_main_cst_3 val_main_v21 val_main_v14 val_main_v7
  rw [v20_eq, v13_eq, v6_eq]
  unfold result tail embed val_main_v0
  rfl

end Cert.ReferenceIdeal.RefValue

end
-- ==== Proof.Alg.lean ====
/-
  The two programs end with equal results.

  Both programs stack the users' and items' embedding tables into one 16000 × 64 matrix E and run three propagation
  layers  X ↦ relu (g · (X · w) + bias)  starting from E; call the layers' outputs L1, L2, L3.  Both then apply the same
  chain of host operations to the running sum (E + L1) + L2, to L3 and to the two index vectors: the mean of the four
  matrices, its upper and lower halves, one row of each half per (user, item) pair, the entrywise product of the two
  rows, and the sum of each product row.  The kernel computes a layer block by block with an accumulator carried over
  the five column blocks of a row block; the reference computes it with whole-matrix operations.  Each side's layer is
  shown elsewhere to be the specification's layer  (r, q) ↦ max (Σ_k g(r,k) · h(k,q) + b(0,q)) 0.  Here the kernel's
  result array is walked back through the segment boundaries of its run — each host stretch's equations, each region's
  output array as the specification's layer of the contents the region was entered from — to one function, `result`, of
  the seven launch arguments; the reference's result is the same function of its own arguments (the previous module);
  and the arguments agree.  Nothing here opens the shared chain of host operations or a layer: the two programs'
  spellings of the stacking, the dense transform, the bias row and the final chain are the same operations over the same
  shapes, and are identified as such.
-/
import proofs.«154284_j13134009991420_2_alg».proof.Defs
import proofs.«154284_j13134009991420_2_alg».proof.Proof.HostKI
import proofs.«154284_j13134009991420_2_alg».proof.Proof.Val0
import proofs.«154284_j13134009991420_2_alg».proof.Proof.Val1
import proofs.«154284_j13134009991420_2_alg».proof.Proof.Val2
import proofs.«154284_j13134009991420_2_alg».proof.Proof.RefResult
import proofs.«154284_j13134009991420_2_alg».proof.Proof.Gen.Pre_finite_inputs

set_option maxRecDepth 16384

noncomputable section

/-! ## The kernel's result in the common form -/

namespace Cert.KernelIdeal.Fr

open Idealize.ShloMosaic Idealize.ShloMosaic.TcCoe Idealize.SL.Sem
open Cert.KernelIdeal Cert.KernelIdeal.Gen
open Cert.ReferenceIdeal.RefValue (embed transform biasRow tail layer1 layer2 layer3 result)

/-- The two programs' stacked tables are one function: the same concatenation of the same shapes. -/
theorem embed_eq (a b : FVec Ideal S8000x64 .f32) :
    concatenate S16000x64 0 [⟨S8000x64, a⟩, ⟨S8000x64, b⟩] concatenates_S8000x64_S8000x64_S16000x64_d0 = embed a b := rfl

/-- The two programs' dense transforms are one function: the same product under the same dimension numbers. -/
theorem transform_eq (X : FVec Ideal S16000x64 .f32) (w : FVec Ideal S64x64 .f32) :
    Host.dotGeneral (F := Ideal) dot_S16000x64_S64x64_S16000x64_1_0_0_1_n_n none X w = transform X w := rfl

/-- The kernel's reshaped bias is the bias row. -/
theorem biasRow_eq (x : FVec Ideal S64 .f32) : shapeCast S1x64 x shapeCasts_S64_S1x64 = biasRow x := rfl

/-- The kernel's host operations after its third region are the reference's after its third layer. -/
theorem hostTail_eq (acc l3 : FVec Ideal S16000x64 .f32) (users items : IVec S4096 32) :
    hostTail (F := Ideal) acc l3 users items = tail acc l3 users items := rfl

variable (m : (ℓ : Loc nD τ sig) → Buf (Elt Ideal) ℓ) (ρ : Dev nD → PrngReg)

/-- Region 0 leaves the first layer in its output array. -/
theorem L1_eq (c : Dev nD) : W2 m ρ c (Proc.devRef .tc main_v3)
    = layer1 (m ((c : Thread nD τ).loc main_arg2)) (m ((c : Thread nD τ).loc main_arg3)) (m ((c : Thread nD τ).loc main_arg4))
        (m ((c : Thread nD τ).loc main_arg5)) (m ((c : Thread nD τ).loc main_arg6)) := by
  refine (W2_arr m ρ c 3).trans ((arrAt0_eq (V1 m ρ) c).trans ?_)
  rw [V1_main_arg2, V1_main_v2, V1_main_v1, V1_main_v0, embed_eq, transform_eq, biasRow_eq]
  rfl

/-- Region 1 leaves the second layer in its output array. -/
theorem L2_eq (c : Dev nD) : W4 m ρ c (Proc.devRef .tc main_v6)
    = layer2 (m ((c : Thread nD τ).loc main_arg2)) (m ((c : Thread nD τ).loc main_arg3)) (m ((c : Thread nD τ).loc main_arg4))
        (m ((c : Thread nD τ).loc main_arg5)) (m ((c : Thread nD τ).loc main_arg6)) := by
  refine (W4_arr m ρ c 3).trans ((arrAt1_eq (V3 m ρ) c).trans ?_)
  rw [V3_main_arg2, V3_main_v5, V3_main_v1, V1_main_v1, L1_eq, transform_eq, biasRow_eq]
  rfl

/-- Region 2 leaves the third layer in its output array. -/
theorem L3_eq (c : Dev nD) : W6 m ρ c (Proc.devRef .tc main_v9)
    = layer3 (m ((c : Thread nD τ).loc main_arg2)) (m ((c : Thread nD τ).loc main_arg3)) (m ((c : Thread nD τ).loc main_arg4))
        (m ((c : Thread nD τ).loc main_arg5)) (m ((c : Thread nD τ).loc main_arg6)) := by
  refine (W6_arr m ρ c 3).trans ((arrAt2_eq (V5 m ρ) c).trans ?_)
  rw [V5_main_arg2, V5_main_v8, V5_main_v1, V1_main_v1, L2_eq, transform_eq, biasRow_eq]
  rfl

/-- The kernel's result array is the common form of the launch arguments. -/
theorem kernel_result (c : Dev nD) : W7 m ρ c (Proc.devRef .tc main_v30)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W7_main_v30, V5_main_v7, V3_main_v4, L3_eq, L2_eq, L1_eq, V1_main_v0, embed_eq, hostTail_eq]
  rfl

end Cert.KernelIdeal.Fr

/-! ## The claim -/

namespace Cert.Proof

open Idealize.ShloMosaic Idealize.ShloMosaic.TcCoe Idealize.SL.Sem

/-- At the ideal instance both programs run, leave their arguments as launched, and end with the same result: the
    kernel's result array is the common form of its arguments, the reference's is the common form of its own, and
    the arguments agree. -/
theorem algebraic : Cert.algebraic_KernelIdeal_ReferenceIdeal := by
  intro m ρ m' ρ' _ hagree
  refine ⟨fun c => Cert.KernelIdeal.Fr.W7 m ρ c (Proc.devRef .tc Cert.KernelIdeal.main_v30), ?_, ?_⟩
  · exact (θ_run Cert.KernelIdeal.defs _ _).mono (fun r h c =>
      ⟨h c _ (Cert.KernelIdeal.Fr.mem_uc Cert.KernelIdeal.main_v30 (by decide)),
       (h c _ (Cert.KernelIdeal.Fr.mem_uc Cert.KernelIdeal.main_arg0 (by decide))).trans (Cert.KernelIdeal.Fr.W7_main_arg0 m ρ c),
       (h c _ (Cert.KernelIdeal.Fr.mem_uc Cert.KernelIdeal.main_arg1 (by decide))).trans (Cert.KernelIdeal.Fr.W7_main_arg1 m ρ c),
       (h c _ (Cert.KernelIdeal.Fr.mem_uc Cert.KernelIdeal.main_arg2 (by decide))).trans (Cert.KernelIdeal.Fr.W7_main_arg2 m ρ c),
       (h c _ (Cert.KernelIdeal.Fr.mem_uc Cert.KernelIdeal.main_arg3 (by decide))).trans (Cert.KernelIdeal.Fr.W7_main_arg3 m ρ c),
       (h c _ (Cert.KernelIdeal.Fr.mem_uc Cert.KernelIdeal.main_arg4 (by decide))).trans (Cert.KernelIdeal.Fr.W7_main_arg4 m ρ c),
       (h c _ (Cert.KernelIdeal.Fr.mem_uc Cert.KernelIdeal.main_arg5 (by decide))).trans (Cert.KernelIdeal.Fr.W7_main_arg5 m ρ c),
       (h c _ (Cert.KernelIdeal.Fr.mem_uc Cert.KernelIdeal.main_arg6 (by decide))).trans (Cert.KernelIdeal.Fr.W7_main_arg6 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, Cert.ReferenceIdeal.RefValue.v41_eq,
      (hagree c).1, (hagree c).2.1, (hagree c).2.2.1, (hagree c).2.2.2.1, (hagree c).2.2.2.2.1, (hagree c).2.2.2.2.2.1, (hagree c).2.2.2.2.2.2]
    exact (Cert.KernelIdeal.Fr.kernel_result m ρ c).symm

end Cert.Proof

end
-- ==== Proof.lean ====
/-
  Three layers of graph propagation followed by a batch of dot products, computed two ways.

  From the users' and items' embedding tables stacked into one 16000 × 64 matrix E, a 16000 × 16000 propagation
  matrix g, a 64 × 64 weight w and a bias, both programs form L1 = relu (g · (E · w) + bias), L2 and L3 likewise from L1
  and L2, the mean (E + L1 + L2 + L3) / 4, and for each (user, item) pair the dot product of the user's row of the mean's
  upper half with the item's row of its lower half.  The kernel computes each layer in 1600 × 3200 blocks of g, adding a
  block product into an accumulator over the five column blocks and writing relu (accumulator + bias) at the last; the
  reference uses whole-matrix operations.  Shown here: every execution of each program terminates without fault and
  leaves the seven arguments unchanged, and on the extended reals, from equal arguments, the two results are equal —
  each layer on either side is  (r, q) ↦ max (Σ_k g(r,k) · h(k,q) + bias(q)) 0  (a sum over all 16000 columns is the sum
  of the five blocks' sums), and every other operation is the same host operation on both sides.
-/
import proofs.«154284_j13134009991420_2_alg».proof.Defs
import proofs.«154284_j13134009991420_2_alg».proof.Proof.Gen.Kernel
import proofs.«154284_j13134009991420_2_alg».proof.Proof.Gen.Kernel.Skeleton
import proofs.«154284_j13134009991420_2_alg».proof.Proof.Gen.Kernel.Launch
import proofs.«154284_j13134009991420_2_alg».proof.Proof.Gen.Kernel.Regions
import proofs.«154284_j13134009991420_2_alg».proof.Proof.Gen.Kernel.Points
import proofs.«154284_j13134009991420_2_alg».proof.Proof.Gen.KernelIdeal
import proofs.«154284_j13134009991420_2_alg».proof.Proof.Gen.KernelIdeal.Skeleton
import proofs.«154284_j13134009991420_2_alg».proof.Proof.Gen.KernelIdeal.Launch
import proofs.«154284_j13134009991420_2_alg».proof.Proof.Gen.KernelIdeal.Regions
import proofs.«154284_j13134009991420_2_alg».proof.Proof.Gen.KernelIdeal.Points
import proofs.«154284_j13134009991420_2_alg».proof.Proof.Gen.ReferenceIdeal
import proofs.«154284_j13134009991420_2_alg».proof.Proof.Gen.ReferenceIdeal.Run
import proofs.«154284_j13134009991420_2_alg».proof.Proof.Gen.ReferenceIdeal.Read
import proofs.«154284_j13134009991420_2_alg».proof.Proof.Gen.Pre_finite_inputs
import Idealize.ShloMosaic.Adequacy
import Idealize.ShloMosaic.Init
import proofs.«154284_j13134009991420_2_alg».proof.Proof.RunKB
import proofs.«154284_j13134009991420_2_alg».proof.Proof.RunKI
import proofs.«154284_j13134009991420_2_alg».proof.Proof.Alg

noncomputable section

namespace Cert.Proof

open Idealize.ShloMosaic Idealize.SL.Sem

/-- The word-level kernel runs to the end, faults nowhere, and leaves its seven arguments as launched. -/
theorem frame_k : Cert.frame_Kernel := fun m ρ _ => Cert.Kernel.Fr.frame m ρ

/-- So does the kernel read on the extended reals. -/
theorem frame_ki : Cert.frame_KernelIdeal := fun m ρ _ => Cert.KernelIdeal.Fr.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
